-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_v125) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x1024 : Shape := ⟨2, ![8192, 1024]⟩
abbrev S4096x512 : Shape := ⟨2, ![4096, 512]⟩
abbrev S4096 : Shape := ⟨1, ![4096]⟩
abbrev S4096x1024 : Shape := ⟨2, ![4096, 1024]⟩
abbrev S1024 : Shape := ⟨1, ![1024]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S4096x512 : S_.BroadcastsInDim S4096x512 (![] : Fin 0 → Fin S4096x512.rank)
  reducesTo_S4096x512_S_d0_1 : S4096x512.ReducesTo [0, 1] S_
  bcast_S_S4096 : S_.BroadcastsInDim S4096 (![] : Fin 0 → Fin S4096.rank)
  reducesTo_S4096_S_d0 : S4096.ReducesTo [0] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_arg14 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  main_v73

def fn_part3 {F : FTy → Type} [FloatOps F] (main_arg11 : FVec F S1024 .f32) (main_arg12 : FVec F S1024 .f32) (main_arg13 : FVec F S1024 .f32) (main_arg14 : FVec F S1024 .f32) (main_v48 : IVec S_ 1) (main_v49 : FVec F S4096 .f32) (main_v50 : FVec F S4096 .f32) : IVec S_ 1 :=
  let main_v51 : IVec S4096 1 := cmpf .olt main_v49 main_v50
  let main_c_19 : IVec S_ 1 := constantI S_ 1 1#1
  let main_v52 : IVec S_ 1 := (fun x v => Host.reduce IntOp.andi x v reducesTo_S4096_S_d0 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg14 main_v63 main_v67

def fn_part2 {F : FTy → Type} [FloatOps F] (main_arg7 : FVec F S4096 .f32) (main_arg8 : FVec F S4096 .f32) (main_arg9 : FVec F S4096 .f32) (main_arg10 : FVec F S4096 .f32) (main_arg11 : FVec F S1024 .f32) (main_arg12 : FVec F S1024 .f32) (main_arg13 : FVec F S1024 .f32) (main_arg14 : FVec F S1024 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  let main_v44 : FVec F S4096 .f32 := Host.absf main_arg9
  let main_cst_16 : FVec F S_ .f32 := constant S_ .f32 0x7F800000#32
  let main_v45 : FVec F S4096 .f32 := broadcastInDim S4096 ![] bcast_S_S4096 main_cst_16
  let main_v46 : IVec S4096 1 := cmpf .olt main_v44 main_v45
  let main_c_17 : IVec S_ 1 := constantI S_ 1 1#1
  let main_v47 : IVec S_ 1 := (fun x v => Host.reduce IntOp.andi x v reducesTo_S4096_S_d0 h_S_) main_v46 main_c_17
  let main_v48 : IVec S_ 1 := andi main_v43 main_v47
  let main_v49 : FVec F S4096 .f32 := Host.absf main_arg10
  let main_cst_18 : FVec F S_ .f32 := constant S_ .f32 0x7F800000#32
  let main_v50 : FVec F S4096 .f32 := broadcastInDim S4096 ![] bcast_S_S4096 main_cst_18
  fn_part3 (F := F) main_arg11 main_arg12 main_arg13 main_arg14 main_v48 main_v49 main_v50

def fn_part1 {F : FTy → Type} [FloatOps F] (main_arg4 : FVec F S4096 .f32) (main_arg5 : FVec F S4096x1024 .f32) (main_arg6 : FVec F S4096 .f32) (main_arg7 : FVec F S4096 .f32) (main_arg8 : FVec F S4096 .f32) (main_arg9 : FVec F S4096 .f32) (main_arg10 : FVec F S4096 .f32) (main_arg11 : FVec F S1024 .f32) (main_arg12 : FVec F S1024 .f32) (main_arg13 : FVec F S1024 .f32) (main_arg14 : FVec F S1024 .f32) (main_v13 : IVec S_ 1) (main_v16 : IVec S4096x512 1) : IVec S_ 1 :=
  let main_c_5 : IVec S_ 1 := constantI S_ 1 1#1
  let main_v17 : IVec S_ 1 := (fun x v => Host.reduce IntOp.andi x v reducesTo_S4096x512_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S8192x512 .f32) (main_arg1 : FVec F S8192x1024 .f32) (main_arg2 : FVec F S8192x1024 .f32) (main_arg3 : FVec F S4096x512 .f32) (main_arg4 : FVec F S4096 .f32) (main_arg5 : FVec F S4096x1024 .f32) (main_arg6 : FVec F S4096 .f32) (main_arg7 : FVec F S4096 .f32) (main_arg8 : FVec F S4096 .f32) (main_arg9 : FVec F S4096 .f32) (main_arg10 : FVec F S4096 .f32) (main_arg11 : FVec F S1024 .f32) (main_arg12 : FVec F S1024 .f32) (main_arg13 : FVec F S1024 .f32) (main_arg14 : FVec F S1024 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S4096x512 .f32 := Host.absf main_arg3
  let main_cst_4 : FVec F S_ .f32 := constant S_ .f32 0x7F800000#32
  let main_v15 : FVec F S4096x512 .f32 := broadcastInDim S4096x512 ![] bcast_S_S4096x512 main_cst_4
  let main_v16 : IVec S4096x512 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S8192x512 : Shape := ⟨2, ![8192, 512]⟩
abbrev S8192x1024 : Shape := ⟨2, ![8192, 1024]⟩
abbrev S4096x512 : Shape := ⟨2, ![4096, 512]⟩
abbrev S4096 : Shape := ⟨1, ![4096]⟩
abbrev S4096x1024 : Shape := ⟨2, ![4096, 1024]⟩
abbrev S1024 : Shape := ⟨1, ![1024]⟩
abbrev S512x4096 : Shape := ⟨2, ![512, 4096]⟩
abbrev S1024x4096 : Shape := ⟨2, ![1024, 4096]⟩
abbrev S1x4096 : Shape := ⟨2, ![1, 4096]⟩
abbrev S1x1024 : Shape := ⟨2, ![1, 1024]⟩
abbrev S128x512 : Shape := ⟨2, ![128, 512]⟩
abbrev S128x1024 : Shape := ⟨2, ![128, 1024]⟩
abbrev S128x4096 : Shape := ⟨2, ![128, 4096]⟩
abbrev S128 : Shape := ⟨1, ![128]⟩
abbrev S128x1 : Shape := ⟨2, ![128, 1]⟩

abbrev nBuf : Space → Nat
  | .hbm => 31
  | .vmem => 22
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S8192x1024, .f32⟩
  | .hbm, ⟨3, _⟩ => ⟨S4096x512, .f32⟩
  | .hbm, ⟨4, _⟩ => ⟨S4096, .f32⟩
  | .hbm, ⟨5, _⟩ => ⟨S4096x1024, .f32⟩
  | .hbm, ⟨6, _⟩ => ⟨S4096, .f32⟩
  | .hbm, ⟨7, _⟩ => ⟨S4096, .f32⟩
  | .hbm, ⟨8, _⟩ => ⟨S4096, .f32⟩
  | .hbm, ⟨9, _⟩ => ⟨S4096, .f32⟩
  | .hbm, ⟨10, _⟩ => ⟨S4096, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S512x4096, .f32⟩
  | .hbm, ⟨16, _⟩ => ⟨S512x4096, .bf16⟩
  | .hbm, ⟨17, _⟩ => ⟨S1024x4096, .f32⟩
  | .hbm, ⟨18, _⟩ => ⟨S1024x4096, .bf16⟩
  | .hbm, ⟨19, _⟩ => ⟨S1x4096, .f32⟩
  | .hbm, ⟨20, _⟩ => ⟨S1x4096, .f32⟩
  | .hbm, ⟨21, _⟩ => ⟨S1x4096, .f32⟩
  | .hbm, ⟨22, _⟩ => ⟨S1x4096, .f32⟩
  | .hbm, ⟨23, _⟩ => ⟨S1x4096, .f32⟩
  | .hbm, ⟨24, _⟩ => ⟨S1x4096, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S8192x1024, .f32⟩
  | .hbm, ⟨30, _⟩ => ⟨S8192x1024, .f32⟩
  | .local _ .vmem, ⟨0, _⟩ => ⟨S128x512, .f32⟩
  | .local _ .vmem, ⟨1, _⟩ => ⟨S128x512, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S512x4096, .bf16⟩
  | .local _ .vmem, ⟨7, _⟩ => ⟨S1024x4096, .bf16⟩
  | .local _ .vmem, ⟨8, _⟩ => ⟨S1x4096, .f32⟩
  | .local _ .vmem, ⟨9, _⟩ => ⟨S1x4096, .f32⟩
  | .local _ .vmem, ⟨10, _⟩ => ⟨S1x4096, .f32⟩
  | .local _ .vmem, ⟨11, _⟩ => ⟨S1x4096, .f32⟩
  | .local _ .vmem, ⟨12, _⟩ => ⟨S1x4096, .f32⟩
  | .local _ .vmem, ⟨13, _⟩ => ⟨S1x4096, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S128x1024, .f32⟩
  | .local _ .vmem, ⟨19, _⟩ => ⟨S128x1024, .f32⟩
  | .local _ .vmem, ⟨20, _⟩ => ⟨S128x1024, .f32⟩
  | .local _ .vmem, ⟨21, _⟩ => ⟨S128x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14_0 : Ref sig .tc := ⟨.hbm, 29, rfl⟩
abbrev main_v14_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc0_sem16_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S128x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  transposes_S4096x512_S512x4096_1_0 : S4096x512.Transposes [1, 0] S512x4096
  bitsLt_bf16_f32 : FTy.bits .bf16 < FTy.bits .f32
  transposes_S4096x1024_S1024x4096_1_0 : S4096x1024.Transposes [1, 0] S1024x4096
  shapeCasts_S4096_S1x4096 : S4096.ShapeCasts S1x4096
  shapeCasts_S1024_S1x1024 : S1024.ShapeCasts S1x1024
  inb_S128x512_S128x512_0_0 : ∀ a, (![0, 0] : Fin 2 → Nat) a + S128x512.size a ≤ S128x512.size a
  h_S128x512 : 0 < S128x512.numel
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  reduces_S128x4096_S128 : S128x4096.Reduces [1] S128
  shapeCasts_S128_S128x1 : S128.ShapeCasts S128x1
  broadcasts_S128x1_S128x4096 : S128x1.Broadcasts S128x4096
  inb_S128x1024_S128x1024_0_0 : ∀ a, (![0, 0] : Fin 2 → Nat) a + S128x1024.size a ≤ S128x1024.size a
  h_S128x1024 : 0 < S128x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  slices_S128x4096_o0_0_S128x1024 : S128x4096.Slices ![0, 0] S128x1024
  slices_S128x4096_o0_1024_S128x1024 : S128x4096.Slices ![0, 1024] S128x1024
  slices_S128x4096_o0_2048_S128x1024 : S128x4096.Slices ![0, 2048] S128x1024
  slices_S128x4096_o0_3072_S128x1024 : S128x4096.Slices ![0, 3072] S128x1024
  reduces_S128x1024_S128 : S128x1024.Reduces [1] S128
  broadcasts_S128x1_S128x1024 : S128x1.Broadcasts S128x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  dot_S128x512_S512x4096_S128x4096_1_0_0_1_n_n_wf : DotDims.WF S128x512 S512x4096 S128x4096 [1] [0] [0] [1] [] []
  dot_S128x1024_S1024x4096_S128x4096_1_0_0_1_n_n_wf : DotDims.WF S128x1024 S1024x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S8192x512.size a
  hwx0_0 : ∀ i : grid0.Coords, EltTy.bits .f32 = 32 ∨ (Rect.block (s := S8192x512) S128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S8192x1024.size a
  hwx0_1 : ∀ i : grid0.Coords, EltTy.bits .f32 = 32 ∨ (Rect.block (s := S8192x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S8192x1024.size a
  hwx0_2 : ∀ i : grid0.Coords, EltTy.bits .f32 = 32 ∨ (Rect.block (s := S8192x1024) S128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S512x4096.size a
  hwx0_3 : ∀ i : grid0.Coords, EltTy.bits .bf16 = 32 ∨ (Rect.block (s := S512x4096) S512x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4096.size a ≤ S1x4096.size a
  hwx0_6 : ∀ i : grid0.Coords, EltTy.bits .f32 = 32 ∨ (Rect.block (s := S1x4096) S1x4096.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x4096.size a ≤ S1x4096.size a
  hwx0_7 : ∀ i : grid0.Coords, EltTy.bits .f32 = 32 ∨ (Rect.block (s := S1x4096) S1x4096.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x4096.size a ≤ S1x4096.size a
  hwx0_8 : ∀ i : grid0.Coords, EltTy.bits .f32 = 32 ∨ (Rect.block (s := S1x4096) S1x4096.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x4096.size a ≤ S1x4096.size a
  hwx0_9 : ∀ i : grid0.Coords, EltTy.bits .f32 = 32 ∨ (Rect.block (s := S1x4096) S1x4096.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x4096.size a ≤ S1x4096.size a
  hwx0_10 : ∀ i : grid0.Coords, EltTy.bits .f32 = 32 ∨ (Rect.block (s := S1x4096) S1x4096.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1024.size a ≤ S1x1024.size a
  hwx0_11 : ∀ i : grid0.Coords, EltTy.bits .f32 = 32 ∨ (Rect.block (s := S1x1024) S1x1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1024.size a ≤ S1x1024.size a
  hwx0_12 : ∀ i : grid0.Coords, EltTy.bits .f32 = 32 ∨ (Rect.block (s := S1x1024) S1x1024.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1024.size a ≤ S1x1024.size a
  hwx0_13 : ∀ i : grid0.Coords, EltTy.bits .f32 = 32 ∨ (Rect.block (s := S1x1024) S1x1024.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x1024.size a ≤ S1x1024.size a
  hwx0_14 : ∀ i : grid0.Coords, EltTy.bits .f32 = 32 ∨ (Rect.block (s := S1x1024) S1x1024.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S128x1024.size a ≤ S8192x1024.size a
  hwx0_15 : ∀ i : grid0.Coords, EltTy.bits .f32 = 32 ∨ (Rect.block (s := S8192x1024) S128x1024.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S128x1024.size a ≤ S8192x1024.size a
  hwx0_16 : ∀ i : grid0.Coords, EltTy.bits .f32 = 32 ∨ (Rect.block (s := S8192x1024) S128x1024.size (cc0_transform_16 i) (hinb0_16 i)).WholeWords (EltTy.packing .f32)

variable [Facts₀]

def dot_S128x512_S512x4096_S128x4096_1_0_0_1_n_n : DotDims S128x512 S512x4096 S128x4096 where
  lhsContracting := [1]
  rhsContracting := [0]
  lhsNonContracting := [0]
  rhsNonContracting := [1]
  lhsBatch := []
  rhsBatch := []
  wf := dot_S128x512_S512x4096_S128x4096_1_0_0_1_n_n_wf
def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf

abbrev win0_0 : Pipeline.Window sig grid0 :=
  Pipeline.Window.ofSpec (Memref.whole main_arg0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x4096.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1x4096.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S1x4096.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v9) S1x4096.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v10) S1x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v11) S1x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v12) S1x1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v13) S1x1024.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v14_0) S128x1024.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v14_1) S128x1024.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S8192x512 : Shape := ⟨2, ![8192, 512]⟩
abbrev S8192x1024 : Shape := ⟨2, ![8192, 1024]⟩
abbrev S4096x512 : Shape := ⟨2, ![4096, 512]⟩
abbrev S4096 : Shape := ⟨1, ![4096]⟩
abbrev S4096x1024 : Shape := ⟨2, ![4096, 1024]⟩
abbrev S1024 : Shape := ⟨1, ![1024]⟩
abbrev S512x4096 : Shape := ⟨2, ![512, 4096]⟩
abbrev S8192x4096 : Shape := ⟨2, ![8192, 4096]⟩
abbrev S1x4096 : Shape := ⟨2, ![1, 4096]⟩
abbrev S_ : Shape := ⟨0, ![]⟩
abbrev S8192 : Shape := ⟨1, ![8192]⟩
abbrev S8192x1 : Shape := ⟨2, ![8192, 1]⟩
abbrev S1024x4096 : Shape := ⟨2, ![1024, 4096]⟩
abbrev S1x1024 : Shape := ⟨2, ![1, 1024]⟩

abbrev nBuf : Space → Nat
  | .hbm => 219
  | .vmem => 0
  | .smem => 0
  | _ => 0

abbrev hbmTy0_0 (i : Nat) : BufTy := match i % 128 with
  | 0 => ⟨S8192x512, .f32⟩
  | 1 => ⟨S8192x1024, .f32⟩
  | 2 => ⟨S8192x1024, .f32⟩
  | 3 => ⟨S4096x512, .f32⟩
  | 4 => ⟨S4096, .f32⟩
  | 5 => ⟨S4096x1024, .f32⟩
  | 6 => ⟨S4096, .f32⟩
  | 7 => ⟨S4096, .f32⟩
  | 8 => ⟨S4096, .f32⟩
  | 9 => ⟨S4096, .f32⟩
  | 10 => ⟨S4096, .f32⟩
  | 11 => ⟨S1024, .f32⟩
  | 12 => ⟨S1024, .f32⟩
  | 13 => ⟨S1024, .f32⟩
  | 14 => ⟨S1024, .f32⟩
  | 15 => ⟨S512x4096, .f32⟩
  | 16 => ⟨S8192x4096, .f32⟩
  | 17 => ⟨S1x4096, .f32⟩
  | 18 => ⟨S8192x4096, .f32⟩
  | 19 => ⟨S8192x4096, .f32⟩
  | 20 => ⟨S_, .f32⟩
  | 21 => ⟨S8192, .f32⟩
  | 22 => ⟨S8192x1, .f32⟩
  | 23 => ⟨S_, .f32⟩
  | 24 => ⟨S8192x1, .f32⟩
  | 25 => ⟨S8192x1, .f32⟩
  | 26 => ⟨S8192x4096, .f32⟩
  | 27 => ⟨S8192x4096, .f32⟩
  | 28 => ⟨S8192x4096, .f32⟩
  | 29 => ⟨S_, .f32⟩
  | 30 => ⟨S8192, .f32⟩
  | 31 => ⟨S8192x1, .f32⟩
  | 32 => ⟨S_, .f32⟩
  | 33 => ⟨S8192x1, .f32⟩
  | 34 => ⟨S8192x1, .f32⟩
  | 35 => ⟨S8192x4096, .f32⟩
  | 36 => ⟨S8192x4096, .f32⟩
  | 37 => ⟨S_, .f32⟩
  | 38 => ⟨S8192x1, .f32⟩
  | 39 => ⟨S8192x1, .f32⟩
  | 40 => ⟨S8192x1, .f32⟩
  | 41 => ⟨S8192x4096, .f32⟩
  | 42 => ⟨S8192x4096, .f32⟩
  | 43 => ⟨S1x4096, .f32⟩
  | 44 => ⟨S8192x4096, .f32⟩
  | 45 => ⟨S8192x4096, .f32⟩
  | 46 => ⟨S1x4096, .f32⟩
  | 47 => ⟨S8192x4096, .f32⟩
  | 48 => ⟨S8192x4096, .f32⟩
  | 49 => ⟨S1024x4096, .f32⟩
  | 50 => ⟨S8192x4096, .f32⟩
  | 51 => ⟨S1x4096, .f32⟩
  | 52 => ⟨S8192x4096, .f32⟩
  | 53 => ⟨S8192x4096, .f32⟩
  | 54 => ⟨S_, .f32⟩
  | 55 => ⟨S8192, .f32⟩
  | 56 => ⟨S8192x1, .f32⟩
  | 57 => ⟨S_, .f32⟩
  | 58 => ⟨S8192x1, .f32⟩
  | 59 => ⟨S8192x1, .f32⟩
  | 60 => ⟨S8192x4096, .f32⟩
  | 61 => ⟨S8192x4096, .f32⟩
  | 62 => ⟨S8192x4096, .f32⟩
  | 63 => ⟨S_, .f32⟩
  | 64 => ⟨S8192, .f32⟩
  | 65 => ⟨S8192x1, .f32⟩
  | 66 => ⟨S_, .f32⟩
  | 67 => ⟨S8192x1, .f32⟩
  | 68 => ⟨S8192x1, .f32⟩
  | 69 => ⟨S8192x4096, .f32⟩
  | 70 => ⟨S8192x4096, .f32⟩
  | 71 => ⟨S_, .f32⟩
  | 72 => ⟨S8192x1, .f32⟩
  | 73 => ⟨S8192x1, .f32⟩
  | 74 => ⟨S8192x1, .f32⟩
  | 75 => ⟨S8192x4096, .f32⟩
  | 76 => ⟨S8192x4096, .f32⟩
  | 77 => ⟨S1x4096, .f32⟩
  | 78 => ⟨S8192x4096, .f32⟩
  | 79 => ⟨S8192x4096, .f32⟩
  | 80 => ⟨S1x4096, .f32⟩
  | 81 => ⟨S8192x4096, .f32⟩
  | 82 => ⟨S8192x4096, .f32⟩
  | 83 => ⟨S8192x4096, .f32⟩
  | 84 => ⟨S8192x1024, .f32⟩
  | 85 => ⟨S8192x1024, .f32⟩
  | 86 => ⟨S8192x1024, .f32⟩
  | 87 => ⟨S8192x1024, .f32⟩
  | 88 => ⟨S_, .f32⟩
  | 89 => ⟨S8192, .f32⟩
  | 90 => ⟨S8192x1, .f32⟩
  | 91 => ⟨S_, .f32⟩
  | 92 => ⟨S8192x1, .f32⟩
  | 93 => ⟨S8192x1, .f32⟩
  | 94 => ⟨S8192x1024, .f32⟩
  | 95 => ⟨S8192x1024, .f32⟩
  | 96 => ⟨S_, .f32⟩
  | 97 => ⟨S_, .f32⟩
  | 98 => ⟨S_, .f32⟩
  | 99 => ⟨S8192x1024, .f32⟩
  | 100 => ⟨S8192x1024, .f32⟩
  | 101 => ⟨S_, .f32⟩
  | 102 => ⟨S8192x1024, .f32⟩
  | 103 => ⟨S8192x1024, .f32⟩
  | 104 => ⟨S8192x1024, .f32⟩
  | 105 => ⟨S_, .f32⟩
  | 106 => ⟨S8192, .f32⟩
  | 107 => ⟨S8192x1, .f32⟩
  | 108 => ⟨S_, .f32⟩
  | 109 => ⟨S8192x1, .f32⟩
  | 110 => ⟨S8192x1, .f32⟩
  | 111 => ⟨S8192x1024, .f32⟩
  | 112 => ⟨S8192x1024, .f32⟩
  | 113 => ⟨S_, .f32⟩
  | 114 => ⟨S8192, .f32⟩
  | 115 => ⟨S8192x1, .f32⟩
  | 116 => ⟨S_, .f32⟩
  | 117 => ⟨S8192x1, .f32⟩
  | 118 => ⟨S8192x1, .f32⟩
  | 119 => ⟨S8192x1024, .f32⟩
  | 120 => ⟨S8192x1024, .f32⟩
  | 121 => ⟨S_, .f32⟩
  | 122 => ⟨S_, .f32⟩
  | 123 => ⟨S_, .f32⟩
  | 124 => ⟨S8192x1024, .f32⟩
  | 125 => ⟨S8192x1024, .f32⟩
  | 126 => ⟨S_, .f32⟩
  | 127 => ⟨S8192x1024, .f32⟩
  | _ => ⟨S8192x512, .f32⟩

abbrev hbmTy0_1 (i : Nat) : BufTy := match i % 128 with
  | 0 => ⟨S8192x1024, .f32⟩
  | 1 => ⟨S8192x1024, .f32⟩
  | 2 => ⟨S_, .f32⟩
  | 3 => ⟨S8192, .f32⟩
  | 4 => ⟨S8192x1, .f32⟩
  | 5 => ⟨S_, .f32⟩
  | 6 => ⟨S8192x1, .f32⟩
  | 7 => ⟨S8192x1, .f32⟩
  | 8 => ⟨S8192x1024, .f32⟩
  | 9 => ⟨S8192x1024, .f32⟩
  | 10 => ⟨S8192x1024, .f32⟩
  | 11 => ⟨S_, .f32⟩
  | 12 => ⟨S8192x1024, .f32⟩
  | 13 => ⟨S8192x1024, .f32⟩
  | 14 => ⟨S8192x1024, .f32⟩
  | 15 => ⟨S_, .f32⟩
  | 16 => ⟨S8192x1024, .f32⟩
  | 17 => ⟨S8192x1024, .f32⟩
  | 18 => ⟨S8192x1024, .f32⟩
  | 19 => ⟨S8192x1024, .f32⟩
  | 20 => ⟨S8192x1024, .f32⟩
  | 21 => ⟨S8192x1024, .f32⟩
  | 22 => ⟨S8192x1024, .f32⟩
  | 23 => ⟨S_, .f32⟩
  | 24 => ⟨S8192, .f32⟩
  | 25 => ⟨S8192x1, .f32⟩
  | 26 => ⟨S_, .f32⟩
  | 27 => ⟨S8192x1, .f32⟩
  | 28 => ⟨S8192x1, .f32⟩
  | 29 => ⟨S8192x1024, .f32⟩
  | 30 => ⟨S8192x1024, .f32⟩
  | 31 => ⟨S8192x1024, .f32⟩
  | 32 => ⟨S_, .f32⟩
  | 33 => ⟨S8192, .f32⟩
  | 34 => ⟨S8192x1, .f32⟩
  | 35 => ⟨S_, .f32⟩
  | 36 => ⟨S8192x1, .f32⟩
  | 37 => ⟨S8192x1, .f32⟩
  | 38 => ⟨S8192x1024, .f32⟩
  | 39 => ⟨S8192x1024, .f32⟩
  | 40 => ⟨S_, .f32⟩
  | 41 => ⟨S8192x1, .f32⟩
  | 42 => ⟨S8192x1, .f32⟩
  | 43 => ⟨S8192x1, .f32⟩
  | 44 => ⟨S8192x1024, .f32⟩
  | 45 => ⟨S8192x1024, .f32⟩
  | 46 => ⟨S1x1024, .f32⟩
  | 47 => ⟨S8192x1024, .f32⟩
  | 48 => ⟨S8192x1024, .f32⟩
  | 49 => ⟨S1x1024, .f32⟩
  | 50 => ⟨S8192x1024, .f32⟩
  | 51 => ⟨S8192x1024, .f32⟩
  | 52 => ⟨S8192x1024, .f32⟩
  | 53 => ⟨S8192x1024, .f32⟩
  | 54 => ⟨S_, .f32⟩
  | 55 => ⟨S8192x1024, .f32⟩
  | 56 => ⟨S8192x1024, .f32⟩
  | 57 => ⟨S_, .f32⟩
  | 58 => ⟨S8192x1024, .f32⟩
  | 59 => ⟨S8192x1024, .f32⟩
  | 60 => ⟨S8192x1024, .f32⟩
  | 61 => ⟨S_, .f32⟩
  | 62 => ⟨S8192, .f32⟩
  | 63 => ⟨S8192x1, .f32⟩
  | 64 => ⟨S_, .f32⟩
  | 65 => ⟨S8192x1, .f32⟩
  | 66 => ⟨S8192x1, .f32⟩
  | 67 => ⟨S8192x1024, .f32⟩
  | 68 => ⟨S8192x1024, .f32⟩
  | 69 => ⟨S8192x1024, .f32⟩
  | 70 => ⟨S_, .f32⟩
  | 71 => ⟨S8192, .f32⟩
  | 72 => ⟨S8192x1, .f32⟩
  | 73 => ⟨S_, .f32⟩
  | 74 => ⟨S8192x1, .f32⟩
  | 75 => ⟨S8192x1, .f32⟩
  | 76 => ⟨S8192x1024, .f32⟩
  | 77 => ⟨S8192x1024, .f32⟩
  | 78 => ⟨S_, .f32⟩
  | 79 => ⟨S8192x1, .f32⟩
  | 80 => ⟨S8192x1, .f32⟩
  | 81 => ⟨S8192x1, .f32⟩
  | 82 => ⟨S8192x1024, .f32⟩
  | 83 => ⟨S8192x1024, .f32⟩
  | 84 => ⟨S1x1024, .f32⟩
  | 85 => ⟨S8192x1024, .f32⟩
  | 86 => ⟨S8192x1024, .f32⟩
  | 87 => ⟨S1x1024, .f32⟩
  | 88 => ⟨S8192x1024, .f32⟩
  | 89 => ⟨S8192x1024, .f32⟩
  | 90 => ⟨S8192x1024, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_v6 : Ref sig .tc := ⟨.hbm, 22, rfl⟩
abbrev main_cst_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_4 : Ref sig .tc := ⟨.hbm, 54, rfl⟩
abbrev main_v34 : Ref sig .tc := ⟨.hbm, 55, rfl⟩
abbrev main_v35 : Ref sig .tc := ⟨.hbm, 56, rfl⟩
abbrev main_cst_5 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_6 : Ref sig .tc := ⟨.hbm, 63, rfl⟩
abbrev main_v41 : Ref sig .tc := ⟨.hbm, 64, rfl⟩
abbrev main_v42 : Ref sig .tc := ⟨.hbm, 65, rfl⟩
abbrev main_cst_7 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_8 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_9 : Ref sig .tc := ⟨.hbm, 88, rfl⟩
abbrev main_v63 : Ref sig .tc := ⟨.hbm, 89, rfl⟩
abbrev main_v64 : Ref sig .tc := ⟨.hbm, 90, rfl⟩
abbrev main_cst_10 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_11 : Ref sig .tc := ⟨.hbm, 96, rfl⟩
abbrev main_cst_12 : Ref sig .tc := ⟨.hbm, 97, rfl⟩
abbrev main_call0_v0 : Ref sig .tc := ⟨.hbm, 98, rfl⟩
abbrev main_call0_v1 : Ref sig .tc := ⟨.hbm, 99, rfl⟩
abbrev main_call0_v2 : Ref sig .tc := ⟨.hbm, 100, rfl⟩
abbrev main_call0_v3 : Ref sig .tc := ⟨.hbm, 101, rfl⟩
abbrev main_call0_v4 : Ref sig .tc := ⟨.hbm, 102, rfl⟩
abbrev main_v69 : Ref sig .tc := ⟨.hbm, 103, rfl⟩
abbrev main_v70 : Ref sig .tc := ⟨.hbm, 104, rfl⟩
abbrev main_cst_13 : Ref sig .tc := ⟨.hbm, 105, rfl⟩
abbrev main_v71 : Ref sig .tc := ⟨.hbm, 106, rfl⟩
abbrev main_v72 : Ref sig .tc := ⟨.hbm, 107, rfl⟩
abbrev main_cst_14 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_cst_15 : Ref sig .tc := ⟨.hbm, 113, rfl⟩
abbrev main_v77 : Ref sig .tc := ⟨.hbm, 114, rfl⟩
abbrev main_v78 : Ref sig .tc := ⟨.hbm, 115, rfl⟩
abbrev main_cst_16 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_cst_17 : Ref sig .tc := ⟨.hbm, 121, rfl⟩
abbrev main_cst_18 : Ref sig .tc := ⟨.hbm, 122, rfl⟩
abbrev main_call1_v0 : Ref sig .tc := ⟨.hbm, 123, rfl⟩
abbrev main_call1_v1 : Ref sig .tc := ⟨.hbm, 124, rfl⟩
abbrev main_call1_v2 : Ref sig .tc := ⟨.hbm, 125, rfl⟩
abbrev main_call1_v3 : Ref sig .tc := ⟨.hbm, 126, rfl⟩
abbrev main_call1_v4 : Ref sig .tc := ⟨.hbm, 127, rfl⟩
abbrev main_v83 : Ref sig .tc := ⟨.hbm, 128, rfl⟩
abbrev main_v84 : Ref sig .tc := ⟨.hbm, 129, rfl⟩
abbrev main_cst_19 : Ref sig .tc := ⟨.hbm, 130, rfl⟩
abbrev main_v85 : Ref sig .tc := ⟨.hbm, 131, rfl⟩
abbrev main_v86 : Ref sig .tc := ⟨.hbm, 132, rfl⟩
abbrev main_cst_20 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_cst_21 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_cst_22 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_cst_23 : Ref sig .tc := ⟨.hbm, 151, rfl⟩
abbrev main_v102 : Ref sig .tc := ⟨.hbm, 152, rfl⟩
abbrev main_v103 : Ref sig .tc := ⟨.hbm, 153, rfl⟩
abbrev main_cst_24 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_cst_25 : Ref sig .tc := ⟨.hbm, 160, rfl⟩
abbrev main_v109 : Ref sig .tc := ⟨.hbm, 161, rfl⟩
abbrev main_v110 : Ref sig .tc := ⟨.hbm, 162, rfl⟩
abbrev main_cst_26 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_cst_27 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_cst_28 : Ref sig .tc := ⟨.hbm, 182, rfl⟩
abbrev main_v128 : Ref sig .tc := ⟨.hbm, 183, rfl⟩
abbrev main_v129 : Ref sig .tc := ⟨.hbm, 184, rfl⟩
abbrev main_cst_29 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_cst_30 : Ref sig .tc := ⟨.hbm, 189, rfl⟩
abbrev main_v133 : Ref sig .tc := ⟨.hbm, 190, rfl⟩
abbrev main_v134 : Ref sig .tc := ⟨.hbm, 191, rfl⟩
abbrev main_cst_31 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_cst_32 : Ref sig .tc := ⟨.hbm, 198, rfl⟩
abbrev main_v140 : Ref sig .tc := ⟨.hbm, 199, rfl⟩
abbrev main_v141 : Ref sig .tc := ⟨.hbm, 200, rfl⟩
abbrev main_cst_33 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_cst_34 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩

abbrev nD : Nat := 1
abbrev τ : Topo := Topo.v7x

variable {F : FTy → Type} [FloatOps F]

class Facts₀ : Prop where
  transposes_S4096x512_S512x4096_1_0 : S4096x512.Transposes [1, 0] S512x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  reducesTo_S8192x4096_S8192_d1 : S8192x4096.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)
  transposes_S4096x1024_S1024x4096_1_0 : S4096x1024.Transposes [1, 0] S1024x4096
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  reducesTo_S8192x1024_S8192_d1 : S8192x1024.ReducesTo [1] S8192
  bcast_S8192x1_S8192x1024_0_1 : S8192x1.BroadcastsInDim S8192x1024 (![0, 1] : Fin 2 → Fin S8192x1024.rank)
  bcast_S_S8192x1024 : S_.BroadcastsInDim S8192x1024 (![] : Fin 0 → Fin S8192x1024.rank)
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  dot_S8192x512_S512x4096_S8192x4096_1_0_0_1_n_n_wf : DotDims.WF S8192x512 S512x4096 S8192x4096 [1] [0] [0] [1] [] []
  dot_S8192x1024_S1024x4096_S8192x4096_1_0_0_1_n_n_wf : DotDims.WF S8192x1024 S1024x4096 S8192x4096 [1] [0] [0] [1] [] []

variable [Facts₀]

def dot_S8192x512_S512x4096_S8192x4096_1_0_0_1_n_n : DotDims S8192x512 S512x4096 S8192x4096 where
  lhsContracting := [1]
  rhsContracting := [0]
  lhsNonContracting := [0]
  rhsNonContracting := [1]
  lhsBatch := []
  rhsBatch := []
  wf := dot_S8192x512_S512x4096_S8192x4096_1_0_0_1_n_n_wf
def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf

class Facts : Prop extends Facts₀ where

variable [Facts]
-- ==== Proof.LibColRowBroadcast.lean ====
/-
  Four re-layings of a vector read at one entry, over any sizes and any element type.

  * A vector of `a` entries cast to a column [a, 1]: the column at (p, 0) is entry p.
  * A vector of `b` entries cast to a row [1, b]: the row at (0, q) is entry q.
  * A column [a, 1] broadcast along the lanes to [a, b]: the result at (p, q) is the column at (p, 0).
  * A row [1, b] broadcast down the sublanes to [a, b]: the result at (p, q) is the row at (0, q).

  Between a cast and a broadcast a kernel may apply pointwise operations to the column (a square root, a clamp, a
  reciprocal); reading the two steps separately lets those be read at (p, 0) in between.
-/
import Idealize.ShloMosaic.Lib.Pipeline.Value
import Idealize.ShloMosaic.Lib.ValueIdx

noncomputable section

namespace Cert.ColRowBroadcast

open Idealize.ShloMosaic Idealize.ShloMosaic.ValueIdx

/-- A vector of `a` entries cast to a column reads, at (p, 0), entry `p`. -/
theorem colCast_apply {α : Type} {a : ℕ} (u : (⟨1, ![a]⟩ : Shape).Idx → α)
    (hc : (⟨1, ![a]⟩ : Shape).ShapeCasts ⟨2, ![a, 1]⟩) (p : Fin a) (z : Fin 1) :
    shapeCast ⟨2, ![a, 1]⟩ u hc (ix2 p z) = u (ix1 p) := by
  refine shapeCast_apply u hc (ix2 p z) (ix1 p) ?_
  rw [Shape.rowMajor_val_one, Shape.rowMajor_val_two]
  show p.val = p.val * 1 + z.val
  have := z.isLt
  omega

/-- A vector of `b` entries cast to a row reads, at (0, q), entry `q`. -/
theorem rowCast_apply {α : Type} {b : ℕ} (u : (⟨1, ![b]⟩ : Shape).Idx → α)
    (hc : (⟨1, ![b]⟩ : Shape).ShapeCasts ⟨2, ![1, b]⟩) (z : Fin 1) (q : Fin b) :
    shapeCast ⟨2, ![1, b]⟩ u hc (ix2 z q) = u (ix1 q) := by
  refine shapeCast_apply u hc (ix2 z q) (ix1 q) ?_
  rw [Shape.rowMajor_val_one, Shape.rowMajor_val_two]
  show q.val = z.val * b + q.val
  have hz : z.val = 0 := by have := z.isLt; omega
  rw [hz, Nat.zero_mul, Nat.zero_add]

/-- A column broadcast along the lanes reads, at (p, q), the column at (p, 0). -/
theorem colBroadcast_apply {α : Type} {a b : ℕ} (w : (⟨2, ![a, 1]⟩ : Shape).Idx → α)
    (hb : (⟨2, ![a, 1]⟩ : Shape).Broadcasts ⟨2, ![a, b]⟩) (p : Fin a) (q : Fin b) :
    broadcastTo ⟨2, ![a, b]⟩ w hb (ix2 p q) = w (ix2 p (0 : Fin 1)) := by
  refine broadcastTo_apply w hb (ix2 p q) (ix2 p (0 : Fin 1)) fun c => ?_
  match c with
  | ⟨0, _⟩ =>
    show p.val = if a = 1 then 0 else p.val
    split
    · have := p.isLt; omega
    · rfl
  | ⟨1, _⟩ =>
    exact (if_pos rfl).symm

/-- A row broadcast down the sublanes reads, at (p, q), the row at (0, q). -/
theorem rowBroadcast_apply {α : Type} {a b : ℕ} (w : (⟨2, ![1, b]⟩ : Shape).Idx → α)
    (hb : (⟨2, ![1, b]⟩ : Shape).Broadcasts ⟨2, ![a, b]⟩) (p : Fin a) (q : Fin b) :
    broadcastTo ⟨2, ![a, b]⟩ w hb (ix2 p q) = w (ix2 (0 : Fin 1) q) := by
  refine broadcastTo_apply w hb (ix2 p q) (ix2 (0 : Fin 1) q) fun c => ?_
  match c with
  | ⟨0, _⟩ =>
    exact (if_pos rfl).symm
  | ⟨1, _⟩ =>
    show q.val = if b = 1 then 0 else q.val
    split
    · have := q.isLt; omega
    · rfl

end Cert.ColRowBroadcast

end
-- ==== Proof.LibRmsNorm.lean ====
/-
  Root-mean-square normalisation of the rows of a matrix, read one row at a time on the extended reals, over any sizes.

  A row r of N entries is scaled by s(r) = rsqrt((Σ_k r_k · r_k) / c + e), where c and e are the numbers two given 32-bit
  words encode (the row length and a small offset, as the program spells them), and then multiplied entry by entry
  by a gain row g:   rowNorm r g q = r_q · s(r) · g_q.

  The same function is computed two ways. On the vector unit: square, sum along the lanes from zero, lay the sums
  out as a column, divide, add, take the reciprocal square root, spread the column along the lanes, multiply; the
  gain row laid out as a row and spread down the sublanes. On the host: square, reduce-add over the last axis from a
  scalar zero, broadcast to a column, divide by a broadcast scalar, add a broadcast scalar, reciprocal square root,
  broadcast along the last axis, multiply; the gain broadcast to a row and then down the rows. Both, read at
  row p, are rowNorm of row p of the operand. Nothing here needs the entries to be finite: both sides apply the same
  operations to the same sums.

  Also here: the vocabulary of rows (row p of a matrix, a vector as a function of its coordinate, a matrix as a function
  of two coordinates), and a row times a matrix.
-/
import Idealize.ShloMosaic.PureOps.Ideal.Laws
import Idealize.ShloMosaic.Lib.Pipeline.Value
import Idealize.ShloMosaic.Lib.ValueIdx
import proofs.«137666_j15461882265859_1_alg».proof.Proof.LibColRowBroadcast

noncomputable section

open scoped BigOperators

namespace Cert.RmsNorm

open Idealize.ShloMosaic Idealize.ShloMosaic.ValueIdx

/-! ## Rows -/

/-- Row `p` of a matrix, as a function of the column. -/
def row {M N : ℕ} (a : (⟨2, ![M, N]⟩ : Shape).Idx → EReal) (p : Fin M) : Fin N → EReal := fun k => a (ix2 p k)

/-- A vector as a function of its coordinate. -/
def vec {N : ℕ} (g : (⟨1, ![N]⟩ : Shape).Idx → EReal) : Fin N → EReal := fun k => g (ix1 k)

/-- A matrix as a function of its two coordinates. -/
def mat {K N : ℕ} (w : (⟨2, ![K, N]⟩ : Shape).Idx → EReal) : Fin K → Fin N → EReal := fun k q => w (ix2 k q)

/-- A row times a matrix: entry q is Σ_k r_k · w_{k q}. -/
def rowMat {K N : ℕ} (r : Fin K → EReal) (w : Fin K → Fin N → EReal) : Fin N → EReal := fun q => ∑ k, r k * w k q

/-- The scale of a row: the reciprocal square root of (Σ_k r_k² divided by the number `cN` encodes, plus the number
    `ce` encodes). -/
def scale {N : ℕ} (cN ce : BitVec 32) (r : Fin N → EReal) : EReal :=
  Ideal.rsqrt (Ideal.div (∑ k, r k * r k) (Ideal.ofBits .f32 cN) + Ideal.ofBits .f32 ce)

/-- A row normalised by its scale and multiplied entry by entry by a gain row. -/
def rowNorm {N : ℕ} (cN ce : BitVec 32) (r g : Fin N → EReal) : Fin N → EReal := fun q => r q * scale cN ce r * g q

/-- Rows of equal matrices' sums: row p of a pointwise sum is the sum of the rows. -/
theorem row_addf {M N : ℕ} (a b : FVec Ideal ⟨2, ![M, N]⟩ .f32) (p : Fin M) :
    row (addf a b) p = fun q => row a p q + row b p q := rfl

/-! ## On the vector unit -/

/-- The reduced index `p` with lane `k` put back is (p, k). -/
theorem lift_lane {M N : ℕ} (h : (⟨2, ![M, N]⟩ : Shape).Reduces [1] (⟨1, ![M]⟩ : Shape)) (p : Fin M)
    (k : Fin ((⟨2, ![M, N]⟩ : Shape).size 1)) : h.lift (ix1 p) k = ix2 p (⟨k.val, k.isLt⟩ : Fin N) := by
  funext c; apply Fin.ext
  fin_cases c <;> rfl

/-- A sum along the lanes from zero, at row `p`, is the sum of the row. -/
theorem laneSum_apply {M N : ℕ} (src : FVec Ideal ⟨2, ![M, N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ) (p : Fin M) :
    multiReduction .add [1] ⟨1, ![M]⟩ src 0x00000000#32 hr hφ hacc (ix1 p) = ∑ k : Fin N, src (ix2 p k) := by
  refine (Ideal.multiReduction_add_single src 0x00000000#32 hr hφ hacc (ix1 p)).trans ?_
  exact Finset.sum_congr rfl fun k _ => congrArg src (lift_lane hr p k)

/-- The column of scales as the vector unit computes it. -/
def colScale {M N : ℕ} (cN ce : BitVec 32) (a : FVec Ideal ⟨2, ![M, N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ)
    (hc : (⟨1, ![M]⟩ : Shape).ShapeCasts ⟨2, ![M, 1]⟩) : FVec Ideal ⟨2, ![M, 1]⟩ .f32 :=
  rsqrt (addf (divf (shapeCast ⟨2, ![M, 1]⟩ (multiReduction .add [1] ⟨1, ![M]⟩ (mulf a a) 0x00000000#32 hr hφ hacc) hc)
    (broadcast ⟨2, ![M, 1]⟩ (Scalar.ofBits .f32 cN))) (broadcast ⟨2, ![M, 1]⟩ (Scalar.ofBits .f32 ce)))

/-- The column of scales at row `p` is the scale of row `p`. -/
theorem colScale_apply {M N : ℕ} (cN ce : BitVec 32) (a : FVec Ideal ⟨2, ![M, N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ)
    (hc : (⟨1, ![M]⟩ : Shape).ShapeCasts ⟨2, ![M, 1]⟩) (p : Fin M) (z : Fin 1) :
    colScale cN ce a hr hφ hacc hc (ix2 p z) = scale cN ce (row a p) := by
  have h1 : shapeCast ⟨2, ![M, 1]⟩ (multiReduction .add [1] ⟨1, ![M]⟩ (mulf a a) 0x00000000#32 hr hφ hacc) hc (ix2 p z)
      = ∑ k : Fin N, row a p k * row a p k :=
    (Cert.ColRowBroadcast.colCast_apply _ hc p z).trans (laneSum_apply (mulf a a) hr hφ hacc p)
  exact congrArg (fun s => Ideal.rsqrt (Ideal.div s (Ideal.ofBits .f32 cN) + Ideal.ofBits .f32 ce)) h1

/-- Root-mean-square normalisation of the rows of `a` with gain `g`, as the vector unit computes it. -/
def vectorNorm {M N : ℕ} (cN ce : BitVec 32) (a : FVec Ideal ⟨2, ![M, N]⟩ .f32) (g : FVec Ideal ⟨1, ![N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ)
    (hc : (⟨1, ![M]⟩ : Shape).ShapeCasts ⟨2, ![M, 1]⟩) (hb : (⟨2, ![M, 1]⟩ : Shape).Broadcasts ⟨2, ![M, N]⟩)
    (hg : (⟨1, ![N]⟩ : Shape).ShapeCasts ⟨2, ![1, N]⟩) (hgb : (⟨2, ![1, N]⟩ : Shape).Broadcasts ⟨2, ![M, N]⟩) :
    FVec Ideal ⟨2, ![M, N]⟩ .f32 :=
  mulf (mulf a (broadcastTo ⟨2, ![M, N]⟩ (colScale cN ce a hr hφ hacc hc) hb))
    (broadcastTo ⟨2, ![M, N]⟩ (shapeCast ⟨2, ![1, N]⟩ g hg) hgb)

/-- Row `p` of the vector unit's normalisation is rowNorm of row `p`. -/
theorem vectorNorm_row {M N : ℕ} (cN ce : BitVec 32) (a : FVec Ideal ⟨2, ![M, N]⟩ .f32) (g : FVec Ideal ⟨1, ![N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ)
    (hc : (⟨1, ![M]⟩ : Shape).ShapeCasts ⟨2, ![M, 1]⟩) (hb : (⟨2, ![M, 1]⟩ : Shape).Broadcasts ⟨2, ![M, N]⟩)
    (hg : (⟨1, ![N]⟩ : Shape).ShapeCasts ⟨2, ![1, N]⟩) (hgb : (⟨2, ![1, N]⟩ : Shape).Broadcasts ⟨2, ![M, N]⟩) (p : Fin M) :
    row (vectorNorm cN ce a g hr hφ hacc hc hb hg hgb) p = rowNorm cN ce (row a p) (vec g) := by
  funext q
  have hs : broadcastTo ⟨2, ![M, N]⟩ (colScale cN ce a hr hφ hacc hc) hb (ix2 p q) = scale cN ce (row a p) :=
    (Cert.ColRowBroadcast.colBroadcast_apply _ hb p q).trans (colScale_apply cN ce a hr hφ hacc hc p 0)
  have hq : broadcastTo ⟨2, ![M, N]⟩ (shapeCast ⟨2, ![1, N]⟩ g hg) hgb (ix2 p q) = vec g q :=
    (Cert.ColRowBroadcast.rowBroadcast_apply _ hgb p q).trans (Cert.ColRowBroadcast.rowCast_apply g hg 0 q)
  show a (ix2 p q) * broadcastTo ⟨2, ![M, N]⟩ (colScale cN ce a hr hφ hacc hc) hb (ix2 p q)
      * broadcastTo ⟨2, ![M, N]⟩ (shapeCast ⟨2, ![1, N]⟩ g hg) hgb (ix2 p q) = _
  rw [hs, hq]
  rfl

/-! ## On the host -/

/-- The host's sum over the last axis from a scalar zero, at row `p`, is the sum of the row. -/
theorem hostSum_apply {M N : ℕ} (src : FVec Ideal ⟨2, ![M, N]⟩ .f32)
    (hrt : (⟨2, ![M, N]⟩ : Shape).ReducesTo [1] (⟨1, ![M]⟩ : Shape))
    (hr : (⟨2, ![M, N]⟩ : Shape).Reduces [1] (⟨1, ![M]⟩ : Shape)) (h0 : 0 < (⟨0, ![]⟩ : Shape).numel) (p : Fin M) :
    Host.reduceAdd src (constant (F := Ideal) ⟨0, ![]⟩ .f32 0x00000000#32) hrt h0 (ix1 p) = ∑ k : Fin N, src (ix2 p k) := by
  show Ideal.hostReduceAdd hrt src (Ideal.ofBits .f32 0x00000000#32) (ix1 p) = _
  rw [Ideal.hostReduceAdd_single hrt hr, Ideal.ofBits_zero_f32, zero_add]
  exact Finset.sum_congr rfl fun k _ => congrArg src (lift_lane hr p k)

/-- A scalar broadcast to any shape reads the scalar everywhere. -/
theorem scalarBroadcast_apply {α : Type} {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 (fun a => a.elim0)

/-- A vector of `a` entries broadcast to a column [a, 1] reads, at (p, 0), entry `p`. -/
theorem hostCol_apply {α : Type} {a : ℕ} (u : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h u (ix2 p z) = u (ix1 p) := by
  refine broadcastInDim_apply _ h u (ix2 p z) (ix1 p) fun c => ?_
  match c with
  | ⟨0, _⟩ =>
    show p.val = if a = 1 then 0 else p.val
    split
    · have := p.isLt; omega
    · rfl

/-- A column [a, 1] broadcast along the last axis to [a, b] reads, at (p, q), the column at (p, 0). -/
theorem hostColBroadcast_apply {α : Type} {a b : ℕ} (w : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h w (ix2 p q) = w (ix2 p (0 : Fin 1)) := by
  refine broadcastInDim_apply _ h w (ix2 p q) (ix2 p (0 : Fin 1)) fun c => ?_
  match c with
  | ⟨0, _⟩ =>
    show p.val = if a = 1 then 0 else p.val
    split
    · have := p.isLt; omega
    · rfl
  | ⟨1, _⟩ =>
    exact (if_pos rfl).symm

/-- A vector of `b` entries broadcast to a row [1, b] reads, at (0, q), entry `q`. -/
theorem hostRow_apply {α : Type} {b : ℕ} (u : (⟨1, ![b]⟩ : Shape).Idx → α)
    (h : (⟨1, ![b]⟩ : Shape).BroadcastsInDim ⟨2, ![1, b]⟩ ![1]) (z : Fin 1) (q : Fin b) :
    broadcastInDim ⟨2, ![1, b]⟩ ![1] h u (ix2 z q) = u (ix1 q) := by
  refine broadcastInDim_apply _ h u (ix2 z q) (ix1 q) fun c => ?_
  match c with
  | ⟨0, _⟩ =>
    show q.val = if b = 1 then 0 else q.val
    split
    · have := q.isLt; omega
    · rfl

/-- A row [1, b] broadcast down the first axis to [a, b] reads, at (p, q), the row at (0, q). -/
theorem hostRowBroadcast_apply {α : Type} {a b : ℕ} (w : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h w (ix2 p q) = w (ix2 (0 : Fin 1) q) := by
  refine broadcastInDim_apply _ h w (ix2 p q) (ix2 (0 : Fin 1) q) fun c => ?_
  match c with
  | ⟨0, _⟩ =>
    exact (if_pos rfl).symm
  | ⟨1, _⟩ =>
    show q.val = if b = 1 then 0 else q.val
    split
    · have := q.isLt; omega
    · rfl

/-- The column of scales as the host computes it. -/
def hostColScale {M N : ℕ} (cN ce : BitVec 32) (a : FVec Ideal ⟨2, ![M, N]⟩ .f32)
    (hrt : (⟨2, ![M, N]⟩ : Shape).ReducesTo [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![]) : FVec Ideal ⟨2, ![M, 1]⟩ .f32 :=
  Host.rsqrt (addf (Host.divf
      (broadcastInDim ⟨2, ![M, 1]⟩ ![0] hb1 (Host.reduceAdd (mulf a a) (constant (F := Ideal) ⟨0, ![]⟩ .f32 0x00000000#32) hrt h0))
      (broadcastInDim ⟨2, ![M, 1]⟩ ![] hbs (constant (F := Ideal) ⟨0, ![]⟩ .f32 cN)))
    (broadcastInDim ⟨2, ![M, 1]⟩ ![] hbs (constant (F := Ideal) ⟨0, ![]⟩ .f32 ce)))

/-- The host's column of scales at row `p` is the scale of row `p`. -/
theorem hostColScale_apply {M N : ℕ} (cN ce : BitVec 32) (a : FVec Ideal ⟨2, ![M, N]⟩ .f32)
    (hrt : (⟨2, ![M, N]⟩ : Shape).ReducesTo [1] (⟨1, ![M]⟩ : Shape))
    (hr : (⟨2, ![M, N]⟩ : Shape).Reduces [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![]) (p : Fin M) (z : Fin 1) :
    hostColScale cN ce a hrt h0 hb1 hbs (ix2 p z) = scale cN ce (row a p) := by
  have h1 : broadcastInDim ⟨2, ![M, 1]⟩ ![0] hb1
        (Host.reduceAdd (mulf a a) (constant (F := Ideal) ⟨0, ![]⟩ .f32 0x00000000#32) hrt h0) (ix2 p z)
      = ∑ k : Fin N, row a p k * row a p k :=
    (hostCol_apply _ hb1 p z).trans (hostSum_apply (mulf a a) hrt hr h0 p)
  have h2 : broadcastInDim ⟨2, ![M, 1]⟩ ![] hbs (constant (F := Ideal) ⟨0, ![]⟩ .f32 cN) (ix2 p z) = Ideal.ofBits .f32 cN :=
    scalarBroadcast_apply _ hbs (ix2 p z)
  have h3 : broadcastInDim ⟨2, ![M, 1]⟩ ![] hbs (constant (F := Ideal) ⟨0, ![]⟩ .f32 ce) (ix2 p z) = Ideal.ofBits .f32 ce :=
    scalarBroadcast_apply _ hbs (ix2 p z)
  show Ideal.rsqrt (Ideal.div
      (broadcastInDim ⟨2, ![M, 1]⟩ ![0] hb1 (Host.reduceAdd (mulf a a) (constant (F := Ideal) ⟨0, ![]⟩ .f32 0x00000000#32) hrt h0) (ix2 p z))
      (broadcastInDim ⟨2, ![M, 1]⟩ ![] hbs (constant (F := Ideal) ⟨0, ![]⟩ .f32 cN) (ix2 p z))
    + broadcastInDim ⟨2, ![M, 1]⟩ ![] hbs (constant (F := Ideal) ⟨0, ![]⟩ .f32 ce) (ix2 p z)) = _
  rw [h1, h2, h3]
  rfl

/-- Root-mean-square normalisation of the rows of `a` with gain `g`, as the host computes it. -/
def hostNorm {M N : ℕ} (cN ce : BitVec 32) (a : FVec Ideal ⟨2, ![M, N]⟩ .f32) (g : FVec Ideal ⟨1, ![N]⟩ .f32)
    (hrt : (⟨2, ![M, N]⟩ : Shape).ReducesTo [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![])
    (hbc : (⟨2, ![M, 1]⟩ : Shape).BroadcastsInDim ⟨2, ![M, N]⟩ ![0, 1])
    (hg : (⟨1, ![N]⟩ : Shape).BroadcastsInDim ⟨2, ![1, N]⟩ ![1])
    (hgb : (⟨2, ![1, N]⟩ : Shape).BroadcastsInDim ⟨2, ![M, N]⟩ ![0, 1]) : FVec Ideal ⟨2, ![M, N]⟩ .f32 :=
  mulf (mulf a (broadcastInDim ⟨2, ![M, N]⟩ ![0, 1] hbc (hostColScale cN ce a hrt h0 hb1 hbs)))
    (broadcastInDim ⟨2, ![M, N]⟩ ![0, 1] hgb (broadcastInDim ⟨2, ![1, N]⟩ ![1] hg g))

/-- Row `p` of the host's normalisation is rowNorm of row `p`. -/
theorem hostNorm_row {M N : ℕ} (cN ce : BitVec 32) (a : FVec Ideal ⟨2, ![M, N]⟩ .f32) (g : FVec Ideal ⟨1, ![N]⟩ .f32)
    (hrt : (⟨2, ![M, N]⟩ : Shape).ReducesTo [1] (⟨1, ![M]⟩ : Shape))
    (hr : (⟨2, ![M, N]⟩ : Shape).Reduces [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![])
    (hbc : (⟨2, ![M, 1]⟩ : Shape).BroadcastsInDim ⟨2, ![M, N]⟩ ![0, 1])
    (hg : (⟨1, ![N]⟩ : Shape).BroadcastsInDim ⟨2, ![1, N]⟩ ![1])
    (hgb : (⟨2, ![1, N]⟩ : Shape).BroadcastsInDim ⟨2, ![M, N]⟩ ![0, 1]) (p : Fin M) :
    row (hostNorm cN ce a g hrt h0 hb1 hbs hbc hg hgb) p = rowNorm cN ce (row a p) (vec g) := by
  funext q
  have hs : broadcastInDim ⟨2, ![M, N]⟩ ![0, 1] hbc (hostColScale cN ce a hrt h0 hb1 hbs) (ix2 p q) = scale cN ce (row a p) :=
    (hostColBroadcast_apply _ hbc p q).trans (hostColScale_apply cN ce a hrt hr h0 hb1 hbs p 0)
  have hq : broadcastInDim ⟨2, ![M, N]⟩ ![0, 1] hgb (broadcastInDim ⟨2, ![1, N]⟩ ![1] hg g) (ix2 p q) = vec g q :=
    (hostRowBroadcast_apply _ hgb p q).trans (hostRow_apply g hg 0 q)
  show a (ix2 p q) * broadcastInDim ⟨2, ![M, N]⟩ ![0, 1] hbc (hostColScale cN ce a hrt h0 hb1 hbs) (ix2 p q)
      * broadcastInDim ⟨2, ![M, N]⟩ ![0, 1] hgb (broadcastInDim ⟨2, ![1, N]⟩ ![1] hg g) (ix2 p q) = _
  rw [hs, hq]
  rfl

end Cert.RmsNorm

end
-- ==== Proof.LibLayerNorm.lean ====
/-
  Layer normalisation of the rows of a matrix, read one row at a time on the extended reals, over any sizes.

  A row r of N entries has mean μ(r) = (Σ_k r_k) / c, where c is the number a given 32-bit word encodes (the row length as
  the program spells it); the centred row is d_k = r_k − μ(r); and with the scale s(d) = rsqrt((Σ_k d_k · d_k) / c + e) of the
  centred row (e a second word: the small offset), a gain row g and a bias row b,

      rowLN r g b q = d_q · s(d) · g_q + b_q.

  The same function is computed two ways. On the vector unit: sum along the lanes from zero, lay the sums out as a
  column, divide, spread the column along the lanes and subtract; square, sum, divide, add the offset, take the
  reciprocal square root, spread, multiply; the gain and bias given as one-row matrices and spread down the sublanes.
  On the host: reduce-add over the last axis from a scalar zero, broadcast to a column, divide by a broadcast scalar,
  broadcast along the last axis and subtract; and so on; the gain and bias vectors broadcast to a row and then down the
  rows. Both, read at row p, are rowLN of row p of the operand. Nothing here needs the entries to be finite: both
  sides apply the same operations to the same sums.
-/
import Idealize.ShloMosaic.PureOps.Ideal.Laws
import Idealize.ShloMosaic.Lib.Pipeline.Value
import Idealize.ShloMosaic.Lib.ValueIdx
import proofs.«137666_j15461882265859_1_alg».proof.Proof.LibColRowBroadcast
import proofs.«137666_j15461882265859_1_alg».proof.Proof.LibRmsNorm

noncomputable section

open scoped BigOperators

namespace Cert.LayerNorm

open Idealize.ShloMosaic Idealize.ShloMosaic.ValueIdx Cert.RmsNorm

/-! ## The function -/

/-- The mean of a row: its sum divided by the number `cN` encodes. -/
def mean {N : ℕ} (cN : BitVec 32) (r : Fin N → EReal) : EReal := Ideal.div (∑ k, r k) (Ideal.ofBits .f32 cN)

/-- A row with its mean subtracted from every entry. -/
def centred {N : ℕ} (cN : BitVec 32) (r : Fin N → EReal) : Fin N → EReal := fun k => r k - mean cN r

/-- Layer normalisation of a row: the centred row times its scale, times the gain, plus the bias. -/
def rowLN {N : ℕ} (cN ce : BitVec 32) (r g b : Fin N → EReal) : Fin N → EReal :=
  fun q => centred cN r q * scale cN ce (centred cN r) * g q + b q

/-! ## On the vector unit -/

/-- The column of means as the vector unit computes it. -/
def colMean {M N : ℕ} (cN : BitVec 32) (a : FVec Ideal ⟨2, ![M, N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ)
    (hc : (⟨1, ![M]⟩ : Shape).ShapeCasts ⟨2, ![M, 1]⟩) : FVec Ideal ⟨2, ![M, 1]⟩ .f32 :=
  divf (shapeCast ⟨2, ![M, 1]⟩ (multiReduction .add [1] ⟨1, ![M]⟩ a 0x00000000#32 hr hφ hacc) hc)
    (broadcast ⟨2, ![M, 1]⟩ (Scalar.ofBits .f32 cN))

/-- The column of means at row `p` is the mean of row `p`. -/
theorem colMean_apply {M N : ℕ} (cN : BitVec 32) (a : FVec Ideal ⟨2, ![M, N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ)
    (hc : (⟨1, ![M]⟩ : Shape).ShapeCasts ⟨2, ![M, 1]⟩) (p : Fin M) (z : Fin 1) :
    colMean cN a hr hφ hacc hc (ix2 p z) = mean cN (row a p) := by
  have h1 : shapeCast ⟨2, ![M, 1]⟩ (multiReduction .add [1] ⟨1, ![M]⟩ a 0x00000000#32 hr hφ hacc) hc (ix2 p z)
      = ∑ k : Fin N, row a p k :=
    (Cert.ColRowBroadcast.colCast_apply _ hc p z).trans (laneSum_apply a hr hφ hacc p)
  exact congrArg (fun s => Ideal.div s (Ideal.ofBits .f32 cN)) h1

/-- The matrix with each row's mean subtracted, as the vector unit computes it. -/
def vectorCentred {M N : ℕ} (cN : BitVec 32) (a : FVec Ideal ⟨2, ![M, N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ)
    (hc : (⟨1, ![M]⟩ : Shape).ShapeCasts ⟨2, ![M, 1]⟩) (hb : (⟨2, ![M, 1]⟩ : Shape).Broadcasts ⟨2, ![M, N]⟩) :
    FVec Ideal ⟨2, ![M, N]⟩ .f32 :=
  subf a (broadcastTo ⟨2, ![M, N]⟩ (colMean cN a hr hφ hacc hc) hb)

/-- Row `p` of it is row `p` centred. -/
theorem vectorCentred_row {M N : ℕ} (cN : BitVec 32) (a : FVec Ideal ⟨2, ![M, N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ)
    (hc : (⟨1, ![M]⟩ : Shape).ShapeCasts ⟨2, ![M, 1]⟩) (hb : (⟨2, ![M, 1]⟩ : Shape).Broadcasts ⟨2, ![M, N]⟩) (p : Fin M) :
    row (vectorCentred cN a hr hφ hacc hc hb) p = centred cN (row a p) := by
  funext q
  have hm : broadcastTo ⟨2, ![M, N]⟩ (colMean cN a hr hφ hacc hc) hb (ix2 p q) = mean cN (row a p) :=
    (Cert.ColRowBroadcast.colBroadcast_apply _ hb p q).trans (colMean_apply cN a hr hφ hacc hc p 0)
  show a (ix2 p q) - broadcastTo ⟨2, ![M, N]⟩ (colMean cN a hr hφ hacc hc) hb (ix2 p q) = _
  rw [hm]
  rfl

/-- Layer normalisation of the rows of `a` with gain `g` and bias `bb` (one-row matrices), as the vector unit computes
    it. -/
def vectorLN {M N : ℕ} (cN ce : BitVec 32) (a : FVec Ideal ⟨2, ![M, N]⟩ .f32) (g bb : FVec Ideal ⟨2, ![1, N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ)
    (hc : (⟨1, ![M]⟩ : Shape).ShapeCasts ⟨2, ![M, 1]⟩) (hb : (⟨2, ![M, 1]⟩ : Shape).Broadcasts ⟨2, ![M, N]⟩)
    (hgb : (⟨2, ![1, N]⟩ : Shape).Broadcasts ⟨2, ![M, N]⟩) : FVec Ideal ⟨2, ![M, N]⟩ .f32 :=
  addf (mulf (mulf (vectorCentred cN a hr hφ hacc hc hb)
      (broadcastTo ⟨2, ![M, N]⟩ (colScale cN ce (vectorCentred cN a hr hφ hacc hc hb) hr hφ hacc hc) hb))
      (broadcastTo ⟨2, ![M, N]⟩ g hgb))
    (broadcastTo ⟨2, ![M, N]⟩ bb hgb)

/-- Row `p` of the vector unit's layer normalisation is rowLN of row `p`. -/
theorem vectorLN_row {M N : ℕ} (cN ce : BitVec 32) (a : FVec Ideal ⟨2, ![M, N]⟩ .f32) (g bb : FVec Ideal ⟨2, ![1, N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ)
    (hc : (⟨1, ![M]⟩ : Shape).ShapeCasts ⟨2, ![M, 1]⟩) (hb : (⟨2, ![M, 1]⟩ : Shape).Broadcasts ⟨2, ![M, N]⟩)
    (hgb : (⟨2, ![1, N]⟩ : Shape).Broadcasts ⟨2, ![M, N]⟩) (p : Fin M) :
    row (vectorLN cN ce a g bb hr hφ hacc hc hb hgb) p = rowLN cN ce (row a p) (row g 0) (row bb 0) := by
  funext q
  have hd : row (vectorCentred cN a hr hφ hacc hc hb) p = centred cN (row a p) := vectorCentred_row cN a hr hφ hacc hc hb p
  have hs : broadcastTo ⟨2, ![M, N]⟩ (colScale cN ce (vectorCentred cN a hr hφ hacc hc hb) hr hφ hacc hc) hb (ix2 p q)
      = scale cN ce (centred cN (row a p)) := by
    rw [Cert.ColRowBroadcast.colBroadcast_apply _ hb p q, colScale_apply cN ce _ hr hφ hacc hc p 0, hd]
  have hg : broadcastTo ⟨2, ![M, N]⟩ g hgb (ix2 p q) = row g 0 q := Cert.ColRowBroadcast.rowBroadcast_apply _ hgb p q
  have hbb : broadcastTo ⟨2, ![M, N]⟩ bb hgb (ix2 p q) = row bb 0 q := Cert.ColRowBroadcast.rowBroadcast_apply _ hgb p q
  show row (vectorCentred cN a hr hφ hacc hc hb) p q
      * broadcastTo ⟨2, ![M, N]⟩ (colScale cN ce (vectorCentred cN a hr hφ hacc hc hb) hr hφ hacc hc) hb (ix2 p q)
      * broadcastTo ⟨2, ![M, N]⟩ g hgb (ix2 p q) + broadcastTo ⟨2, ![M, N]⟩ bb hgb (ix2 p q) = _
  rw [hs, hg, hbb, hd]
  rfl

/-! ## On the host -/

/-- The column of means as the host computes it. -/
def hostColMean {M N : ℕ} (cN : BitVec 32) (a : FVec Ideal ⟨2, ![M, N]⟩ .f32)
    (hrt : (⟨2, ![M, N]⟩ : Shape).ReducesTo [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![]) : FVec Ideal ⟨2, ![M, 1]⟩ .f32 :=
  Host.divf
    (broadcastInDim ⟨2, ![M, 1]⟩ ![0] hb1 (Host.reduceAdd a (constant (F := Ideal) ⟨0, ![]⟩ .f32 0x00000000#32) hrt h0))
    (broadcastInDim ⟨2, ![M, 1]⟩ ![] hbs (constant (F := Ideal) ⟨0, ![]⟩ .f32 cN))

/-- The host's column of means at row `p` is the mean of row `p`. -/
theorem hostColMean_apply {M N : ℕ} (cN : BitVec 32) (a : FVec Ideal ⟨2, ![M, N]⟩ .f32)
    (hrt : (⟨2, ![M, N]⟩ : Shape).ReducesTo [1] (⟨1, ![M]⟩ : Shape))
    (hr : (⟨2, ![M, N]⟩ : Shape).Reduces [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![]) (p : Fin M) (z : Fin 1) :
    hostColMean cN a hrt h0 hb1 hbs (ix2 p z) = mean cN (row a p) := by
  have h1 : broadcastInDim ⟨2, ![M, 1]⟩ ![0] hb1
        (Host.reduceAdd a (constant (F := Ideal) ⟨0, ![]⟩ .f32 0x00000000#32) hrt h0) (ix2 p z)
      = ∑ k : Fin N, row a p k :=
    (hostCol_apply _ hb1 p z).trans (hostSum_apply a hrt hr h0 p)
  have h2 : broadcastInDim ⟨2, ![M, 1]⟩ ![] hbs (constant (F := Ideal) ⟨0, ![]⟩ .f32 cN) (ix2 p z) = Ideal.ofBits .f32 cN :=
    scalarBroadcast_apply _ hbs (ix2 p z)
  show Ideal.div
      (broadcastInDim ⟨2, ![M, 1]⟩ ![0] hb1 (Host.reduceAdd a (constant (F := Ideal) ⟨0, ![]⟩ .f32 0x00000000#32) hrt h0) (ix2 p z))
      (broadcastInDim ⟨2, ![M, 1]⟩ ![] hbs (constant (F := Ideal) ⟨0, ![]⟩ .f32 cN) (ix2 p z)) = _
  rw [h1, h2]
  rfl

/-- The matrix with each row's mean subtracted, as the host computes it. -/
def hostCentred {M N : ℕ} (cN : BitVec 32) (a : FVec Ideal ⟨2, ![M, N]⟩ .f32)
    (hrt : (⟨2, ![M, N]⟩ : Shape).ReducesTo [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![])
    (hbc : (⟨2, ![M, 1]⟩ : Shape).BroadcastsInDim ⟨2, ![M, N]⟩ ![0, 1]) : FVec Ideal ⟨2, ![M, N]⟩ .f32 :=
  subf a (broadcastInDim ⟨2, ![M, N]⟩ ![0, 1] hbc (hostColMean cN a hrt h0 hb1 hbs))

/-- Row `p` of it is row `p` centred. -/
theorem hostCentred_row {M N : ℕ} (cN : BitVec 32) (a : FVec Ideal ⟨2, ![M, N]⟩ .f32)
    (hrt : (⟨2, ![M, N]⟩ : Shape).ReducesTo [1] (⟨1, ![M]⟩ : Shape))
    (hr : (⟨2, ![M, N]⟩ : Shape).Reduces [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![])
    (hbc : (⟨2, ![M, 1]⟩ : Shape).BroadcastsInDim ⟨2, ![M, N]⟩ ![0, 1]) (p : Fin M) :
    row (hostCentred cN a hrt h0 hb1 hbs hbc) p = centred cN (row a p) := by
  funext q
  have hm : broadcastInDim ⟨2, ![M, N]⟩ ![0, 1] hbc (hostColMean cN a hrt h0 hb1 hbs) (ix2 p q) = mean cN (row a p) :=
    (hostColBroadcast_apply _ hbc p q).trans (hostColMean_apply cN a hrt hr h0 hb1 hbs p 0)
  show a (ix2 p q) - broadcastInDim ⟨2, ![M, N]⟩ ![0, 1] hbc (hostColMean cN a hrt h0 hb1 hbs) (ix2 p q) = _
  rw [hm]
  rfl

/-- Layer normalisation of the rows of `a` with gain `g` and bias `bb` (vectors), as the host computes it. -/
def hostLN {M N : ℕ} (cN ce : BitVec 32) (a : FVec Ideal ⟨2, ![M, N]⟩ .f32) (g bb : FVec Ideal ⟨1, ![N]⟩ .f32)
    (hrt : (⟨2, ![M, N]⟩ : Shape).ReducesTo [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![])
    (hbc : (⟨2, ![M, 1]⟩ : Shape).BroadcastsInDim ⟨2, ![M, N]⟩ ![0, 1])
    (hg : (⟨1, ![N]⟩ : Shape).BroadcastsInDim ⟨2, ![1, N]⟩ ![1])
    (hgb : (⟨2, ![1, N]⟩ : Shape).BroadcastsInDim ⟨2, ![M, N]⟩ ![0, 1]) : FVec Ideal ⟨2, ![M, N]⟩ .f32 :=
  addf (mulf (mulf (hostCentred cN a hrt h0 hb1 hbs hbc)
      (broadcastInDim ⟨2, ![M, N]⟩ ![0, 1] hbc (hostColScale cN ce (hostCentred cN a hrt h0 hb1 hbs hbc) hrt h0 hb1 hbs)))
      (broadcastInDim ⟨2, ![M, N]⟩ ![0, 1] hgb (broadcastInDim ⟨2, ![1, N]⟩ ![1] hg g)))
    (broadcastInDim ⟨2, ![M, N]⟩ ![0, 1] hgb (broadcastInDim ⟨2, ![1, N]⟩ ![1] hg bb))

/-- Row `p` of the host's layer normalisation is rowLN of row `p`. -/
theorem hostLN_row {M N : ℕ} (cN ce : BitVec 32) (a : FVec Ideal ⟨2, ![M, N]⟩ .f32) (g bb : FVec Ideal ⟨1, ![N]⟩ .f32)
    (hrt : (⟨2, ![M, N]⟩ : Shape).ReducesTo [1] (⟨1, ![M]⟩ : Shape))
    (hr : (⟨2, ![M, N]⟩ : Shape).Reduces [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![])
    (hbc : (⟨2, ![M, 1]⟩ : Shape).BroadcastsInDim ⟨2, ![M, N]⟩ ![0, 1])
    (hg : (⟨1, ![N]⟩ : Shape).BroadcastsInDim ⟨2, ![1, N]⟩ ![1])
    (hgb : (⟨2, ![1, N]⟩ : Shape).BroadcastsInDim ⟨2, ![M, N]⟩ ![0, 1]) (p : Fin M) :
    row (hostLN cN ce a g bb hrt h0 hb1 hbs hbc hg hgb) p = rowLN cN ce (row a p) (vec g) (vec bb) := by
  funext q
  have hd : row (hostCentred cN a hrt h0 hb1 hbs hbc) p = centred cN (row a p) := hostCentred_row cN a hrt hr h0 hb1 hbs hbc p
  have hs : broadcastInDim ⟨2, ![M, N]⟩ ![0, 1] hbc (hostColScale cN ce (hostCentred cN a hrt h0 hb1 hbs hbc) hrt h0 hb1 hbs) (ix2 p q)
      = scale cN ce (centred cN (row a p)) := by
    rw [hostColBroadcast_apply _ hbc p q, hostColScale_apply cN ce _ hrt hr h0 hb1 hbs p 0, hd]
  have hq : broadcastInDim ⟨2, ![M, N]⟩ ![0, 1] hgb (broadcastInDim ⟨2, ![1, N]⟩ ![1] hg g) (ix2 p q) = vec g q :=
    (hostRowBroadcast_apply _ hgb p q).trans (hostRow_apply g hg 0 q)
  have hbq : broadcastInDim ⟨2, ![M, N]⟩ ![0, 1] hgb (broadcastInDim ⟨2, ![1, N]⟩ ![1] hg bb) (ix2 p q) = vec bb q :=
    (hostRowBroadcast_apply _ hgb p q).trans (hostRow_apply bb hg 0 q)
  show row (hostCentred cN a hrt h0 hb1 hbs hbc) p q
      * broadcastInDim ⟨2, ![M, N]⟩ ![0, 1] hbc (hostColScale cN ce (hostCentred cN a hrt h0 hb1 hbs hbc) hrt h0 hb1 hbs) (ix2 p q)
      * broadcastInDim ⟨2, ![M, N]⟩ ![0, 1] hgb (broadcastInDim ⟨2, ![1, N]⟩ ![1] hg g) (ix2 p q)
      + broadcastInDim ⟨2, ![M, N]⟩ ![0, 1] hgb (broadcastInDim ⟨2, ![1, N]⟩ ![1] hg bb) (ix2 p q) = _
  rw [hs, hq, hbq, hd]
  rfl

end Cert.LayerNorm

end
-- ==== Proof.LibNormExpGate.lean ====
/-
  A normalised exponential gate on the rows of a matrix, read one row at a time on the extended reals, over any sizes.

  A row r of N entries is centred by its mean μ(r) = (Σ_k r_k) / c (c the number a given 32-bit word encodes); each
  centred entry is clamped between two numbers lo and hi (two more words) and exponentiated,

      e_k = exp (min hi (max lo (r_k − μ(r)))),

  and the row of exponentials is divided by its own sum plus a small offset ε (a fourth word):

      gate r q = e_q / (Σ_k e_k + ε).

  The same function is computed two ways. On the vector unit: the centred matrix (a lane sum laid out as a column,
  divided, spread along the lanes, subtracted), the maximum with a splat lo, the minimum with a splat hi, the
  exponential, a lane sum laid out as a column plus a splat ε, spread along the lanes, and a division. On the host:
  the same steps with reduce-add over the last axis, broadcast_in_dim, and rank-zero constants broadcast to the whole
  shape for lo and hi. Both, read at row p, are the gate of row p of the operand. Nothing here needs finite entries:
  both sides apply the same operations to the same sums.
-/
import Idealize.ShloMosaic.PureOps.Ideal.Laws
import Idealize.ShloMosaic.Lib.Pipeline.Value
import Idealize.ShloMosaic.Lib.ValueIdx
import proofs.«137666_j15461882265859_1_alg».proof.Proof.LibColRowBroadcast
import proofs.«137666_j15461882265859_1_alg».proof.Proof.LibRmsNorm
import proofs.«137666_j15461882265859_1_alg».proof.Proof.LibLayerNorm

noncomputable section

open scoped BigOperators

namespace Cert.NormExpGate

open Idealize.ShloMosaic Idealize.ShloMosaic.ValueIdx Cert.RmsNorm Cert.LayerNorm

/-! ## The function -/

/-- The clamped exponentials of a centred row: e_k = exp (min hi (max lo (r_k − mean r))). -/
def clampExp {N : ℕ} (cN lo hi : BitVec 32) (r : Fin N → EReal) : Fin N → EReal :=
  fun k => Ideal.exp (min (Ideal.ofBits .f32 hi) (max (Ideal.ofBits .f32 lo) (centred cN r k)))

/-- The gate of a row: its clamped exponentials divided by their sum plus the offset. -/
def gate {N : ℕ} (cN lo hi ce : BitVec 32) (r : Fin N → EReal) : Fin N → EReal :=
  fun q => Ideal.div (clampExp cN lo hi r q) ((∑ k, clampExp cN lo hi r k) + Ideal.ofBits .f32 ce)

/-! ## On the vector unit -/

/-- The matrix of clamped exponentials as the vector unit computes it. -/
def vectorClampExp {M N : ℕ} (cN lo hi : BitVec 32) (a : FVec Ideal ⟨2, ![M, N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ)
    (hc : (⟨1, ![M]⟩ : Shape).ShapeCasts ⟨2, ![M, 1]⟩) (hb : (⟨2, ![M, 1]⟩ : Shape).Broadcasts ⟨2, ![M, N]⟩) :
    FVec Ideal ⟨2, ![M, N]⟩ .f32 :=
  exp (minimumf (broadcast ⟨2, ![M, N]⟩ (Scalar.ofBits .f32 hi))
    (maximumf (broadcast ⟨2, ![M, N]⟩ (Scalar.ofBits .f32 lo)) (vectorCentred cN a hr hφ hacc hc hb)))

/-- Row `p` of it is the clamped exponentials of row `p`. -/
theorem vectorClampExp_row {M N : ℕ} (cN lo hi : BitVec 32) (a : FVec Ideal ⟨2, ![M, N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ)
    (hc : (⟨1, ![M]⟩ : Shape).ShapeCasts ⟨2, ![M, 1]⟩) (hb : (⟨2, ![M, 1]⟩ : Shape).Broadcasts ⟨2, ![M, N]⟩) (p : Fin M) :
    row (vectorClampExp cN lo hi a hr hφ hacc hc hb) p = clampExp cN lo hi (row a p) := by
  funext q
  have hd : row (vectorCentred cN a hr hφ hacc hc hb) p = centred cN (row a p) := vectorCentred_row cN a hr hφ hacc hc hb p
  show Ideal.exp (min (Ideal.ofBits .f32 hi) (max (Ideal.ofBits .f32 lo) (row (vectorCentred cN a hr hφ hacc hc hb) p q))) = _
  rw [hd]
  rfl

/-- The gate of the rows of `a` as the vector unit computes it. -/
def vectorGate {M N : ℕ} (cN lo hi ce : BitVec 32) (a : FVec Ideal ⟨2, ![M, N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ)
    (hc : (⟨1, ![M]⟩ : Shape).ShapeCasts ⟨2, ![M, 1]⟩) (hb : (⟨2, ![M, 1]⟩ : Shape).Broadcasts ⟨2, ![M, N]⟩) :
    FVec Ideal ⟨2, ![M, N]⟩ .f32 :=
  divf (vectorClampExp cN lo hi a hr hφ hacc hc hb)
    (broadcastTo ⟨2, ![M, N]⟩
      (addf (shapeCast ⟨2, ![M, 1]⟩
          (multiReduction .add [1] ⟨1, ![M]⟩ (vectorClampExp cN lo hi a hr hφ hacc hc hb) 0x00000000#32 hr hφ hacc) hc)
        (broadcast ⟨2, ![M, 1]⟩ (Scalar.ofBits .f32 ce))) hb)

/-- Row `p` of the vector unit's gate is the gate of row `p`. -/
theorem vectorGate_row {M N : ℕ} (cN lo hi ce : BitVec 32) (a : FVec Ideal ⟨2, ![M, N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ)
    (hc : (⟨1, ![M]⟩ : Shape).ShapeCasts ⟨2, ![M, 1]⟩) (hb : (⟨2, ![M, 1]⟩ : Shape).Broadcasts ⟨2, ![M, N]⟩) (p : Fin M) :
    row (vectorGate cN lo hi ce a hr hφ hacc hc hb) p = gate cN lo hi ce (row a p) := by
  funext q
  have he : row (vectorClampExp cN lo hi a hr hφ hacc hc hb) p = clampExp cN lo hi (row a p) :=
    vectorClampExp_row cN lo hi a hr hφ hacc hc hb p
  have hs : broadcastTo ⟨2, ![M, N]⟩
        (addf (shapeCast ⟨2, ![M, 1]⟩
            (multiReduction .add [1] ⟨1, ![M]⟩ (vectorClampExp cN lo hi a hr hφ hacc hc hb) 0x00000000#32 hr hφ hacc) hc)
          (broadcast ⟨2, ![M, 1]⟩ (Scalar.ofBits .f32 ce))) hb (ix2 p q)
      = (∑ k : Fin N, row (vectorClampExp cN lo hi a hr hφ hacc hc hb) p k) + Ideal.ofBits .f32 ce := by
    rw [Cert.ColRowBroadcast.colBroadcast_apply _ hb p q]
    show shapeCast ⟨2, ![M, 1]⟩
        (multiReduction .add [1] ⟨1, ![M]⟩ (vectorClampExp cN lo hi a hr hφ hacc hc hb) 0x00000000#32 hr hφ hacc) hc (ix2 p 0)
      + Ideal.ofBits .f32 ce = _
    rw [Cert.ColRowBroadcast.colCast_apply _ hc p 0, laneSum_apply _ hr hφ hacc p]
    rfl
  show Ideal.div (row (vectorClampExp cN lo hi a hr hφ hacc hc hb) p q)
      (broadcastTo ⟨2, ![M, N]⟩
        (addf (shapeCast ⟨2, ![M, 1]⟩
            (multiReduction .add [1] ⟨1, ![M]⟩ (vectorClampExp cN lo hi a hr hφ hacc hc hb) 0x00000000#32 hr hφ hacc) hc)
          (broadcast ⟨2, ![M, 1]⟩ (Scalar.ofBits .f32 ce))) hb (ix2 p q)) = _
  rw [hs, he]
  rfl

/-! ## On the host -/

/-- The matrix of clamped exponentials as the host computes it. -/
def hostClampExp {M N : ℕ} (cN lo hi : BitVec 32) (a : FVec Ideal ⟨2, ![M, N]⟩ .f32)
    (hrt : (⟨2, ![M, N]⟩ : Shape).ReducesTo [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![])
    (hbc : (⟨2, ![M, 1]⟩ : Shape).BroadcastsInDim ⟨2, ![M, N]⟩ ![0, 1])
    (hbf : (⟨0, ![]⟩ : Shape).BroadcastsInDim ⟨2, ![M, N]⟩ ![]) : FVec Ideal ⟨2, ![M, N]⟩ .f32 :=
  Host.exp (minimumf (broadcastInDim ⟨2, ![M, N]⟩ ![] hbf (constant (F := Ideal) ⟨0, ![]⟩ .f32 hi))
    (maximumf (broadcastInDim ⟨2, ![M, N]⟩ ![] hbf (constant (F := Ideal) ⟨0, ![]⟩ .f32 lo))
      (hostCentred cN a hrt h0 hb1 hbs hbc)))

/-- Row `p` of it is the clamped exponentials of row `p`. -/
theorem hostClampExp_row {M N : ℕ} (cN lo hi : BitVec 32) (a : FVec Ideal ⟨2, ![M, N]⟩ .f32)
    (hrt : (⟨2, ![M, N]⟩ : Shape).ReducesTo [1] (⟨1, ![M]⟩ : Shape))
    (hr : (⟨2, ![M, N]⟩ : Shape).Reduces [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![])
    (hbc : (⟨2, ![M, 1]⟩ : Shape).BroadcastsInDim ⟨2, ![M, N]⟩ ![0, 1])
    (hbf : (⟨0, ![]⟩ : Shape).BroadcastsInDim ⟨2, ![M, N]⟩ ![]) (p : Fin M) :
    row (hostClampExp cN lo hi a hrt h0 hb1 hbs hbc hbf) p = clampExp cN lo hi (row a p) := by
  funext q
  have hd : row (hostCentred cN a hrt h0 hb1 hbs hbc) p = centred cN (row a p) := hostCentred_row cN a hrt hr h0 hb1 hbs hbc p
  have hh : broadcastInDim ⟨2, ![M, N]⟩ ![] hbf (constant (F := Ideal) ⟨0, ![]⟩ .f32 hi) (ix2 p q) = Ideal.ofBits .f32 hi :=
    scalarBroadcast_apply _ hbf (ix2 p q)
  have hl : broadcastInDim ⟨2, ![M, N]⟩ ![] hbf (constant (F := Ideal) ⟨0, ![]⟩ .f32 lo) (ix2 p q) = Ideal.ofBits .f32 lo :=
    scalarBroadcast_apply _ hbf (ix2 p q)
  show Ideal.exp (min (broadcastInDim ⟨2, ![M, N]⟩ ![] hbf (constant (F := Ideal) ⟨0, ![]⟩ .f32 hi) (ix2 p q))
      (max (broadcastInDim ⟨2, ![M, N]⟩ ![] hbf (constant (F := Ideal) ⟨0, ![]⟩ .f32 lo) (ix2 p q))
        (row (hostCentred cN a hrt h0 hb1 hbs hbc) p q))) = _
  rw [hh, hl, hd]
  rfl

/-- The gate of the rows of `a` as the host computes it. -/
def hostGate {M N : ℕ} (cN lo hi ce : BitVec 32) (a : FVec Ideal ⟨2, ![M, N]⟩ .f32)
    (hrt : (⟨2, ![M, N]⟩ : Shape).ReducesTo [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![])
    (hbc : (⟨2, ![M, 1]⟩ : Shape).BroadcastsInDim ⟨2, ![M, N]⟩ ![0, 1])
    (hbf : (⟨0, ![]⟩ : Shape).BroadcastsInDim ⟨2, ![M, N]⟩ ![]) : FVec Ideal ⟨2, ![M, N]⟩ .f32 :=
  Host.divf (hostClampExp cN lo hi a hrt h0 hb1 hbs hbc hbf)
    (broadcastInDim ⟨2, ![M, N]⟩ ![0, 1] hbc
      (addf (broadcastInDim ⟨2, ![M, 1]⟩ ![0] hb1
          (Host.reduceAdd (hostClampExp cN lo hi a hrt h0 hb1 hbs hbc hbf) (constant (F := Ideal) ⟨0, ![]⟩ .f32 0x00000000#32) hrt h0))
        (broadcastInDim ⟨2, ![M, 1]⟩ ![] hbs (constant (F := Ideal) ⟨0, ![]⟩ .f32 ce))))

/-- Row `p` of the host's gate is the gate of row `p`. -/
theorem hostGate_row {M N : ℕ} (cN lo hi ce : BitVec 32) (a : FVec Ideal ⟨2, ![M, N]⟩ .f32)
    (hrt : (⟨2, ![M, N]⟩ : Shape).ReducesTo [1] (⟨1, ![M]⟩ : Shape))
    (hr : (⟨2, ![M, N]⟩ : Shape).Reduces [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![])
    (hbc : (⟨2, ![M, 1]⟩ : Shape).BroadcastsInDim ⟨2, ![M, N]⟩ ![0, 1])
    (hbf : (⟨0, ![]⟩ : Shape).BroadcastsInDim ⟨2, ![M, N]⟩ ![]) (p : Fin M) :
    row (hostGate cN lo hi ce a hrt h0 hb1 hbs hbc hbf) p = gate cN lo hi ce (row a p) := by
  funext q
  have he : row (hostClampExp cN lo hi a hrt h0 hb1 hbs hbc hbf) p = clampExp cN lo hi (row a p) :=
    hostClampExp_row cN lo hi a hrt hr h0 hb1 hbs hbc hbf p
  have hs : broadcastInDim ⟨2, ![M, N]⟩ ![0, 1] hbc
        (addf (broadcastInDim ⟨2, ![M, 1]⟩ ![0] hb1
            (Host.reduceAdd (hostClampExp cN lo hi a hrt h0 hb1 hbs hbc hbf) (constant (F := Ideal) ⟨0, ![]⟩ .f32 0x00000000#32) hrt h0))
          (broadcastInDim ⟨2, ![M, 1]⟩ ![] hbs (constant (F := Ideal) ⟨0, ![]⟩ .f32 ce))) (ix2 p q)
      = (∑ k : Fin N, row (hostClampExp cN lo hi a hrt h0 hb1 hbs hbc hbf) p k) + Ideal.ofBits .f32 ce := by
    rw [hostColBroadcast_apply _ hbc p q]
    show broadcastInDim ⟨2, ![M, 1]⟩ ![0] hb1
          (Host.reduceAdd (hostClampExp cN lo hi a hrt h0 hb1 hbs hbc hbf) (constant (F := Ideal) ⟨0, ![]⟩ .f32 0x00000000#32) hrt h0) (ix2 p 0)
        + broadcastInDim ⟨2, ![M, 1]⟩ ![] hbs (constant (F := Ideal) ⟨0, ![]⟩ .f32 ce) (ix2 p 0) = _
    rw [hostCol_apply _ hb1 p 0, hostSum_apply _ hrt hr h0 p, scalarBroadcast_apply _ hbs (ix2 p 0)]
    rfl
  show Ideal.div (row (hostClampExp cN lo hi a hrt h0 hb1 hbs hbc hbf) p q)
      (broadcastInDim ⟨2, ![M, N]⟩ ![0, 1] hbc
        (addf (broadcastInDim ⟨2, ![M, 1]⟩ ![0] hb1
            (Host.reduceAdd (hostClampExp cN lo hi a hrt h0 hb1 hbs hbc hbf) (constant (F := Ideal) ⟨0, ![]⟩ .f32 0x00000000#32) hrt h0))
          (broadcastInDim ⟨2, ![M, 1]⟩ ![] hbs (constant (F := Ideal) ⟨0, ![]⟩ .f32 ce))) (ix2 p q)) = _
  rw [hs, he]
  rfl

end Cert.NormExpGate

end
-- ==== Proof.LibPlainMatmul.lean ====
/-
  A matrix product of an M × K by a K × N matrix into a zero accumulator, read at one entry on the extended
  reals: entry (i, j) is Σ_k lhs (i, k) · rhs (k, j). No rounding and no order of accumulation is left in it.
-/
import Idealize.ShloMosaic.PureOps.Ideal.Laws
import Idealize.ShloMosaic.Lib.ValueIdx

noncomputable section

namespace Cert.PlainMatmul

open Idealize.ShloMosaic Idealize.ShloMosaic.ValueIdx

/-- Entry (i, j) of the product of `lhs` (M × K) and `rhs` (K × N) accumulated into zeros. -/
theorem matmul_zero_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.PlainMatmul

end
-- ==== Proof.Cell.lean ====
/-
  One step of a gated recurrent cell with normalised exponential input and forget gates, on one row of the batch,
  as a function on the extended reals.

  From a row x (512 entries), a hidden row h and a cell row c (1024 entries each) and the parameters P:

    pre     = LN₄₀₉₆(x·Wx + bx; g_in, b_in) + LN₄₀₉₆(h·Wh + bh; g_hu, b_hu)          (4096 entries, four parts of 1024)
    i₀, f₀  = the normalised exponential gates of parts 0 and 1
    i, f    = i₀ / (i₀ + f₀ + ε),  f₀ / (i₀ + f₀ + ε)
    c'      = f · c + i · tanh(part 2)
    cOut    = LN₁₀₂₄(c'; g_c, b_c)
    hOut    = logistic(part 3) · LN₁₀₂₄(tanh(cOut); g_h, b_h)

  LN is layer normalisation of a row (mean subtracted, scaled by the reciprocal square root of the variance plus a
  small offset, gain and bias applied), the gate is exp of the centred row clamped to [-5, 5] divided by the sum of
  those exponentials plus ε. The numbers 4096, 1024, 1e-5, 1e-6, -5, 5 enter as the 32-bit words the programs spell.
-/
import Idealize.ShloMosaic.PureOps.Ideal.Laws
import Idealize.ShloMosaic.Lib.ValueIdx
import proofs.«137666_j15461882265859_1_alg».proof.Proof.LibRmsNorm
import proofs.«137666_j15461882265859_1_alg».proof.Proof.LibLayerNorm
import proofs.«137666_j15461882265859_1_alg».proof.Proof.LibNormExpGate

noncomputable section

open scoped BigOperators

namespace Cert.Slstm

open Idealize.ShloMosaic Idealize.ShloMosaic.ValueIdx Cert.RmsNorm Cert.LayerNorm Cert.NormExpGate

/-- The word of 4096.0. -/
abbrev w4096 : BitVec 32 := 0x45800000#32
/-- The word of 1024.0. -/
abbrev w1024 : BitVec 32 := 0x44800000#32
/-- The word of the normalisation offset (the single-precision number nearest 1e-5). -/
abbrev wLnEps : BitVec 32 := 0x3727C5AC#32
/-- The word of the gate offset (the single-precision number nearest 1e-6). -/
abbrev wEps : BitVec 32 := 0x358637BD#32
/-- The word of -5.0. -/
abbrev wLo : BitVec 32 := 0xC0A00000#32
/-- The word of 5.0. -/
abbrev wHi : BitVec 32 := 0x40A00000#32

/-- The parameters of the cell, as functions of their coordinates: the two weight matrices laid out input-major
    (entry (k, q) multiplies input k into pre-activation q), the two bias rows, and the four pairs of gain and bias. -/
structure Params where
  wx : Fin 512 → Fin 4096 → EReal
  wh : Fin 1024 → Fin 4096 → EReal
  bx : Fin 4096 → EReal
  bh : Fin 4096 → EReal
  gIn : Fin 4096 → EReal
  bIn : Fin 4096 → EReal
  gHu : Fin 4096 → EReal
  bHu : Fin 4096 → EReal
  gC : Fin 1024 → EReal
  bC : Fin 1024 → EReal
  gH : Fin 1024 → EReal
  bH : Fin 1024 → EReal

/-- A row times a matrix plus a bias row. -/
def affine {K N : ℕ} (r : Fin K → EReal) (w : Fin K → Fin N → EReal) (b : Fin N → EReal) : Fin N → EReal :=
  fun q => rowMat r w q + b q

/-- Entries off … off + 1023 of a row of 4096. -/
def part (off : ℕ) (h : off + 1024 ≤ 4096) (g : Fin 4096 → EReal) : Fin 1024 → EReal :=
  fun q => g ⟨off + q.val, by have := q.isLt; omega⟩

/-- The four gate pre-activations of a row: the sum of the two normalised affine maps. -/
def pre (P : Params) (x : Fin 512 → EReal) (h : Fin 1024 → EReal) : Fin 4096 → EReal :=
  fun q => rowLN w4096 wLnEps (affine x P.wx P.bx) P.gIn P.bIn q + rowLN w4096 wLnEps (affine h P.wh P.bh) P.gHu P.bHu q

/-- The input gate before the joint normalisation. -/
def iGate (g : Fin 4096 → EReal) : Fin 1024 → EReal := gate w1024 wLo wHi wEps (part 0 (by omega) g)

/-- The forget gate before the joint normalisation. -/
def fGate (g : Fin 4096 → EReal) : Fin 1024 → EReal := gate w1024 wLo wHi wEps (part 1024 (by omega) g)

/-- The new cell row before its normalisation: f · c + i · tanh(part 2), with i and f normalised by i₀ + f₀ + ε. -/
def cNew (g : Fin 4096 → EReal) (c : Fin 1024 → EReal) : Fin 1024 → EReal := fun q =>
  Ideal.div (fGate g q) (iGate g q + fGate g q + Ideal.ofBits .f32 wEps) * c q
    + Ideal.div (iGate g q) (iGate g q + fGate g q + Ideal.ofBits .f32 wEps) * Ideal.tanh (part 2048 (by omega) g q)

/-- The cell row the step returns. -/
def cOut (P : Params) (x : Fin 512 → EReal) (h c : Fin 1024 → EReal) : Fin 1024 → EReal :=
  rowLN w1024 wLnEps (cNew (pre P x h) c) P.gC P.bC

/-- The hidden row the step returns. -/
def hOut (P : Params) (x : Fin 512 → EReal) (h c : Fin 1024 → EReal) : Fin 1024 → EReal := fun q =>
  Ideal.logistic (part 3072 (by omega) (pre P x h) q)
    * rowLN w1024 wLnEps (fun k => Ideal.tanh (cOut P x h c k)) P.gH P.bH q

/-- The parameters as whole arrays hold them: the two weight arrays output-major (entry (q, k) of the array multiplies
    input k into pre-activation q), the ten vectors. -/
def arrParams (W3 : (⟨2, ![4096, 512]⟩ : Shape).Idx → EReal) (b4 : (⟨1, ![4096]⟩ : Shape).Idx → EReal)
    (W5 : (⟨2, ![4096, 1024]⟩ : Shape).Idx → EReal) (b6 g7 b8 g9 b10 : (⟨1, ![4096]⟩ : Shape).Idx → EReal)
    (g11 b12 g13 b14 : (⟨1, ![1024]⟩ : Shape).Idx → EReal) : Params where
  wx := fun k q => W3 (ix2 q k)
  wh := fun k q => W5 (ix2 q k)
  bx := vec b4
  bh := vec b6
  gIn := vec g7
  bIn := vec b8
  gHu := vec g9
  bHu := vec b10
  gC := vec g11
  bC := vec b12
  gH := vec g13
  bH := vec b14

/-- The cell array of a whole batch: row r is the cell step of row r of the three batch arrays. -/
def cellArr (P : Params) (X : (⟨2, ![8192, 512]⟩ : Shape).Idx → EReal) (H C : (⟨2, ![8192, 1024]⟩ : Shape).Idx → EReal) :
    (⟨2, ![8192, 1024]⟩ : Shape).Idx → EReal :=
  fun i => cOut P (row X (i 0)) (row H (i 0)) (row C (i 0)) (i 1)

/-- The hidden array of a whole batch. -/
def hiddenArr (P : Params) (X : (⟨2, ![8192, 512]⟩ : Shape).Idx → EReal) (H C : (⟨2, ![8192, 1024]⟩ : Shape).Idx → EReal) :
    (⟨2, ![8192, 1024]⟩ : Shape).Idx → EReal :=
  fun i => hOut P (row X (i 0)) (row H (i 0)) (row C (i 0)) (i 1)

end Cert.Slstm

end
-- ==== Proof.KernelRows.lean ====
/-
  The vector unit's body on one block of 128 batch rows, read one row at a time.

  Each stage of the body acts on the rows of its block independently: the two matrix products with a bias row, the
  four layer normalisations, the two normalised exponential gates, the slices of the 4096 pre-activations into four
  parts, and the pointwise arithmetic between them. So row p of each of the two blocks the body stores is the cell
  step (Cell.lean) of row p of the three batch blocks, with the parameters read off the resident blocks: the weight
  blocks as matrices, the one-row blocks as rows.
-/
import proofs.«137666_j15461882265859_1_alg».proof.Proof.Gen.KernelIdeal.Frame
import Idealize.ShloMosaic.PureOps.Ideal.Laws
import Idealize.ShloMosaic.Lib.Pipeline.Value
import Idealize.ShloMosaic.Lib.ValueIdx
import proofs.«137666_j15461882265859_1_alg».proof.Proof.LibColRowBroadcast
import proofs.«137666_j15461882265859_1_alg».proof.Proof.LibRmsNorm
import proofs.«137666_j15461882265859_1_alg».proof.Proof.LibLayerNorm
import proofs.«137666_j15461882265859_1_alg».proof.Proof.LibNormExpGate
import proofs.«137666_j15461882265859_1_alg».proof.Proof.LibPlainMatmul
import proofs.«137666_j15461882265859_1_alg».proof.Proof.Cell

noncomputable section

open scoped BigOperators

namespace Cert.Slstm.KernelRows

open Idealize.ShloMosaic Idealize.ShloMosaic.ValueIdx Cert.KernelIdeal Cert.KernelIdeal.Gen
open Cert.RmsNorm Cert.LayerNorm Cert.NormExpGate Cert.Slstm

/-- The parameters as a block's resident operands hold them. -/
def blockParams (x3 : FVec Ideal S512x4096 .bf16) (x4 : FVec Ideal S1024x4096 .bf16)
    (x5 x6 x7 x8 x9 x10 : FVec Ideal S1x4096 .f32) (x11 x12 x13 x14 : FVec Ideal S1x1024 .f32) : Params where
  wx := mat x3
  wh := mat x4
  bx := row x5 0
  bh := row x6 0
  gIn := row x7 0
  bIn := row x8 0
  gHu := row x9 0
  bHu := row x10 0
  gC := row x11 0
  bC := row x12 0
  gH := row x13 0
  bH := row x14 0

theorem dot_x_eq : dot_S128x512_S512x4096_S128x4096_1_0_0_1_n_n = DotDims.plain 128 512 4096 := rfl
theorem dot_h_eq : dot_S128x1024_S1024x4096_S128x4096_1_0_0_1_n_n = DotDims.plain 128 1024 4096 := rfl

/-- Row p of a block's matrix product into zeros plus a bias row spread down the block is the row times the matrix
    plus the bias row. -/
theorem affine_row {K : ℕ} (d : DotDims ⟨2, ![128, K]⟩ ⟨2, ![K, 4096]⟩ ⟨2, ![128, 4096]⟩) (hd : d = DotDims.plain 128 K 4096)
    (x : FVec Ideal ⟨2, ![128, K]⟩ .bf16) (w : FVec Ideal ⟨2, ![K, 4096]⟩ .bf16) (b : FVec Ideal ⟨2, ![1, 4096]⟩ .f32)
    (hb : (⟨2, ![1, 4096]⟩ : Shape).Broadcasts ⟨2, ![128, 4096]⟩) (p : Fin 128) :
    row (addf (matmul d none x w (constant ⟨2, ![128, 4096]⟩ .f32 0x00000000#32)) (broadcastTo ⟨2, ![128, 4096]⟩ b hb)) p
      = affine (row x p) (mat w) (row b 0) := by
  subst hd
  funext q
  show FloatOps.matmul (DotDims.plain 128 K 4096) none x w (constant ⟨2, ![128, 4096]⟩ .f32 0x00000000#32) (ix2 p q)
      + broadcastTo ⟨2, ![128, 4096]⟩ b hb (ix2 p q) = _
  rw [Cert.PlainMatmul.matmul_zero_apply, Cert.ColRowBroadcast.rowBroadcast_apply]
  rfl

/-- The vector unit's layer normalisation of a block of 4096 columns. -/
def vLN4 (a : FVec Ideal S128x4096 .f32) (g b : FVec Ideal S1x4096 .f32) : FVec Ideal S128x4096 .f32 :=
  vectorLN w4096 wLnEps a g b reduces_S128x4096_S128 (.inl rfl) rfl shapeCasts_S128_S128x1 broadcasts_S128x1_S128x4096
    broadcasts_S1x4096_S128x4096

theorem vLN4_row (a : FVec Ideal S128x4096 .f32) (g b : FVec Ideal S1x4096 .f32) (p : Fin 128) :
    row (vLN4 a g b) p = rowLN w4096 wLnEps (row a p) (row g 0) (row b 0) :=
  vectorLN_row w4096 wLnEps a g b reduces_S128x4096_S128 (.inl rfl) rfl shapeCasts_S128_S128x1 broadcasts_S128x1_S128x4096
    broadcasts_S1x4096_S128x4096 p

/-- The vector unit's layer normalisation of a block of 1024 columns. -/
def vLN1 (a : FVec Ideal S128x1024 .f32) (g b : FVec Ideal S1x1024 .f32) : FVec Ideal S128x1024 .f32 :=
  vectorLN w1024 wLnEps a g b reduces_S128x1024_S128 (.inl rfl) rfl shapeCasts_S128_S128x1 broadcasts_S128x1_S128x1024
    broadcasts_S1x1024_S128x1024

theorem vLN1_row (a : FVec Ideal S128x1024 .f32) (g b : FVec Ideal S1x1024 .f32) (p : Fin 128) :
    row (vLN1 a g b) p = rowLN w1024 wLnEps (row a p) (row g 0) (row b 0) :=
  vectorLN_row w1024 wLnEps a g b reduces_S128x1024_S128 (.inl rfl) rfl shapeCasts_S128_S128x1 broadcasts_S128x1_S128x1024
    broadcasts_S1x1024_S128x1024 p

/-- The first normalised affine map of the body, row by row. -/
theorem pay2_row (v0 : FVec Ideal S128x512 .f32) (v2 : FVec Ideal S512x4096 .bf16) (v5 v9 v11 : FVec Ideal S1x4096 .f32) (p : Fin 128) :
    row (k0_pay2 (F := Ideal) v0 v2 v5 v9 v11) p
      = rowLN w4096 wLnEps (affine (row v0 p) (mat v2) (row v5 0)) (row v9 0) (row v11 0) := by
  have e : k0_pay2 (F := Ideal) v0 v2 v5 v9 v11 = vLN4
      (addf (matmul dot_S128x512_S512x4096_S128x4096_1_0_0_1_n_n none (truncf .bf16 v0 bitsLt_bf16_f32)
          (shapeCast S512x4096 v2 shapeCasts_S512x4096_S512x4096) (constant S128x4096 .f32 0x00000000#32))
        (broadcastTo S128x4096 (shapeCast S1x4096 v5 shapeCasts_S1x4096_S1x4096) broadcasts_S1x4096_S128x4096))
      (shapeCast S1x4096 v9 shapeCasts_S1x4096_S1x4096) (shapeCast S1x4096 v11 shapeCasts_S1x4096_S1x4096) := rfl
  rw [e, vLN4_row, shapeCast_self, shapeCast_self, shapeCast_self, shapeCast_self, affine_row _ dot_x_eq]
  rfl

/-- The sum of the two normalised affine maps, row by row. -/
theorem pay5_row (v34 : FVec Ideal S128x4096 .f32) (v36 : FVec Ideal S128x1024 .bf16) (v38 : FVec Ideal S1024x4096 .bf16)
    (v40 v44 v46 : FVec Ideal S1x4096 .f32) (p : Fin 128) :
    row (k0_pay5 (F := Ideal) v34 v36 v38 v40 v44 v46) p
      = fun q => row v34 p q + rowLN w4096 wLnEps (affine (row v36 p) (mat v38) (row v40 0)) (row v44 0) (row v46 0) q := by
  have e : k0_pay5 (F := Ideal) v34 v36 v38 v40 v44 v46 = addf v34 (vLN4
      (addf (matmul dot_S128x1024_S1024x4096_S128x4096_1_0_0_1_n_n none v36 v38 (constant S128x4096 .f32 0x00000000#32))
        (broadcastTo S128x4096 (shapeCast S1x4096 v40 shapeCasts_S1x4096_S1x4096) broadcasts_S1x4096_S128x4096))
      (shapeCast S1x4096 v44 shapeCasts_S1x4096_S1x4096) (shapeCast S1x4096 v46 shapeCasts_S1x4096_S1x4096)) := rfl
  rw [e, row_addf, vLN4_row, shapeCast_self, shapeCast_self, shapeCast_self, affine_row _ dot_h_eq]

/-- Row p of the slice of columns off … off + 1023 of a block is that part of row p. -/
theorem slice_row (off : ℕ) (h : off + 1024 ≤ 4096) (G : FVec Ideal S128x4096 .f32) (hs : S128x4096.Slices ![0, off] S128x1024)
    (p : Fin 128) : row (extractStridedSlice S128x1024 ![0, off] G hs) p = part off h (row G p) := by
  funext q
  refine extractStridedSlice_apply ![0, off] G hs (ix2 p q) (ix2 p ⟨off + q.val, by have := q.isLt; omega⟩) fun a => ?_
  match a with
  | ⟨0, _⟩ => show p.val = 0 + p.val; omega
  | ⟨1, _⟩ => rfl

/-- The vector unit's gate of a block of 1024 columns. -/
def vGate (s : FVec Ideal S128x1024 .f32) : FVec Ideal S128x1024 .f32 :=
  vectorGate w1024 wLo wHi wEps s reduces_S128x1024_S128 (.inl rfl) rfl shapeCasts_S128_S128x1 broadcasts_S128x1_S128x1024

theorem vGate_row (s : FVec Ideal S128x1024 .f32) (p : Fin 128) : row (vGate s) p = gate w1024 wLo wHi wEps (row s p) :=
  vectorGate_row w1024 wLo wHi wEps s reduces_S128x1024_S128 (.inl rfl) rfl shapeCasts_S128_S128x1 broadcasts_S128x1_S128x1024 p

/-- The new cell block before its normalisation, from the block of pre-activations and the old cell block. -/
def vNewC (G : FVec Ideal S128x4096 .f32) (c : FVec Ideal S128x1024 .f32) : FVec Ideal S128x1024 .f32 :=
  addf
    (mulf (divf (vGate (extractStridedSlice S128x1024 ![0, 1024] G slices_S128x4096_o0_1024_S128x1024))
        (addf (addf (vGate (extractStridedSlice S128x1024 ![0, 0] G slices_S128x4096_o0_0_S128x1024))
            (vGate (extractStridedSlice S128x1024 ![0, 1024] G slices_S128x4096_o0_1024_S128x1024)))
          (broadcast S128x1024 (Scalar.ofBits .f32 0x358637BD#32)))) c)
    (mulf (divf (vGate (extractStridedSlice S128x1024 ![0, 0] G slices_S128x4096_o0_0_S128x1024))
        (addf (addf (vGate (extractStridedSlice S128x1024 ![0, 0] G slices_S128x4096_o0_0_S128x1024))
            (vGate (extractStridedSlice S128x1024 ![0, 1024] G slices_S128x4096_o0_1024_S128x1024)))
          (broadcast S128x1024 (Scalar.ofBits .f32 0x358637BD#32))))
      (tanh (extractStridedSlice S128x1024 ![0, 2048] G slices_S128x4096_o0_2048_S128x1024)))

theorem vNewC_row (G : FVec Ideal S128x4096 .f32) (c : FVec Ideal S128x1024 .f32) (p : Fin 128) :
    row (vNewC G c) p = cNew (row G p) (row c p) := by
  have hI : row (vGate (extractStridedSlice S128x1024 ![0, 0] G slices_S128x4096_o0_0_S128x1024)) p = iGate (row G p) := by
    rw [vGate_row, slice_row 0 (by omega)]; rfl
  have hF : row (vGate (extractStridedSlice S128x1024 ![0, 1024] G slices_S128x4096_o0_1024_S128x1024)) p = fGate (row G p) := by
    rw [vGate_row, slice_row 1024 (by omega)]; rfl
  have h2 : row (extractStridedSlice S128x1024 ![0, 2048] G slices_S128x4096_o0_2048_S128x1024) p = part 2048 (by omega) (row G p) :=
    slice_row 2048 (by omega) G _ p
  funext q
  show Ideal.div (row (vGate (extractStridedSlice S128x1024 ![0, 1024] G slices_S128x4096_o0_1024_S128x1024)) p q)
        (row (vGate (extractStridedSlice S128x1024 ![0, 0] G slices_S128x4096_o0_0_S128x1024)) p q
          + row (vGate (extractStridedSlice S128x1024 ![0, 1024] G slices_S128x4096_o0_1024_S128x1024)) p q
          + Ideal.ofBits .f32 0x358637BD#32) * row c p q
      + Ideal.div (row (vGate (extractStridedSlice S128x1024 ![0, 0] G slices_S128x4096_o0_0_S128x1024)) p q)
        (row (vGate (extractStridedSlice S128x1024 ![0, 0] G slices_S128x4096_o0_0_S128x1024)) p q
          + row (vGate (extractStridedSlice S128x1024 ![0, 1024] G slices_S128x4096_o0_1024_S128x1024)) p q
          + Ideal.ofBits .f32 0x358637BD#32)
        * Ideal.tanh (row (extractStridedSlice S128x1024 ![0, 2048] G slices_S128x4096_o0_2048_S128x1024) p q) = _
  rw [hI, hF, h2]
  rfl

/-- The body's new cell block is that function of its block of pre-activations. -/
theorem pay10_eq (v34 : FVec Ideal S128x4096 .f32) (v36 : FVec Ideal S128x1024 .bf16) (v38 : FVec Ideal S1024x4096 .bf16)
    (v40 v44 v46 : FVec Ideal S1x4096 .f32) (c : FVec Ideal S128x1024 .f32) :
    k0_pay10 (F := Ideal) (k0_pay6 v34 v36 v38 v40 v44 v46) (k0_pay7 v34 v36 v38 v40 v44 v46) (Scalar.ofBits .f32 0x40A00000#32)
        (k0_pay9 v34 v36 v38 v40 v44 v46) c
      = vNewC (k0_pay5 (F := Ideal) v34 v36 v38 v40 v44 v46) c := rfl

/-- Layer normalisation of a block of 1024 columns whose lane sum is handed in, row by row. -/
theorem pay14_row (C : FVec Ideal S128x1024 .f32) (g b : FVec Ideal S1x1024 .f32) (p : Fin 128) :
    row (k0_pay14 (F := Ideal) C g b (multiReduction .add [1] S128 C 0x00000000#32 reduces_S128x1024_S128 (.inl rfl) rfl)) p
      = rowLN w1024 wLnEps (row C p) (row g 0) (row b 0) := by
  have e : k0_pay14 (F := Ideal) C g b (multiReduction .add [1] S128 C 0x00000000#32 reduces_S128x1024_S128 (.inl rfl) rfl)
      = vLN1 C g b := rfl
  rw [e, vLN1_row]

/-- The gated, normalised output block, row by row. -/
theorem pay1_row (s3 C : FVec Ideal S128x1024 .f32) (g b x13 x14 : FVec Ideal S1x1024 .f32) (sm : FVec Ideal S128 .f32) (p : Fin 128) :
    row (k0_pay1 (F := Ideal) (k0_pay15 s3) (k0_pay16 x14) (k0_pay17 C g b sm x13)) p
      = fun q => Ideal.logistic (row s3 p q)
          * rowLN w1024 wLnEps (fun k => Ideal.tanh (row (k0_pay14 (F := Ideal) C g b sm) p k)) (row x13 0) (row x14 0) q := by
  have e : k0_pay1 (F := Ideal) (k0_pay15 s3) (k0_pay16 x14) (k0_pay17 C g b sm x13)
      = mulf (logistic s3) (vLN1 (tanh (k0_pay14 (F := Ideal) C g b sm))
          (shapeCast S1x1024 x13 shapeCasts_S1x1024_S1x1024) (shapeCast S1x1024 x14 shapeCasts_S1x1024_S1x1024)) := rfl
  rw [e]
  funext q
  show Ideal.logistic (row s3 p q) * row (vLN1 (tanh (k0_pay14 (F := Ideal) C g b sm))
          (shapeCast S1x1024 x13 shapeCasts_S1x1024_S1x1024) (shapeCast S1x1024 x14 shapeCasts_S1x1024_S1x1024)) p q = _
  rw [vLN1_row, shapeCast_self, shapeCast_self]
  rfl

/-- Row p of the block of pre-activations the body forms is the cell's pre-activations of row p. -/
theorem pre_row (x0 : FVec Ideal S128x512 .f32) (x1 x2 : FVec Ideal S128x1024 .f32) (x3 : FVec Ideal S512x4096 .bf16)
    (x4 : FVec Ideal S1024x4096 .bf16) (x5 x6 x7 x8 x9 x10 : FVec Ideal S1x4096 .f32) (x11 x12 x13 x14 : FVec Ideal S1x1024 .f32) (p : Fin 128) :
    row (k0_pay5 (k0_pay2 (F := Ideal) x0 x3 x5 x7 x8) (k0_pay3 x1) (k0_pay4 x4) x6 x9 x10) p = pre (blockParams x3 x4 x5 x6 x7 x8 x9 x10 x11 x12 x13 x14) (row x0 p) (row x1 p) := by
  rw [pay5_row, pay2_row]
  unfold k0_pay4
  rw [shapeCast_self]
  rfl

/-- Row p of the cell block the body stores. -/
theorem cell_row (x0 : FVec Ideal S128x512 .f32) (x1 x2 : FVec Ideal S128x1024 .f32) (x3 : FVec Ideal S512x4096 .bf16)
    (x4 : FVec Ideal S1024x4096 .bf16) (x5 x6 x7 x8 x9 x10 : FVec Ideal S1x4096 .f32) (x11 x12 x13 x14 : FVec Ideal S1x1024 .f32) (p : Fin 128) :
    row (k0_pay14 (F := Ideal) (k0_pay10 (k0_pay6 (k0_pay2 (F := Ideal) x0 x3 x5 x7 x8) (k0_pay3 x1) (k0_pay4 x4) x6 x9 x10) (k0_pay7 (k0_pay2 (F := Ideal) x0 x3 x5 x7 x8) (k0_pay3 x1) (k0_pay4 x4) x6 x9 x10) (Scalar.ofBits .f32 0x40A00000#32) (k0_pay9 (k0_pay2 (F := Ideal) x0 x3 x5 x7 x8) (k0_pay3 x1) (k0_pay4 x4) x6 x9 x10) x2) (k0_pay11 x11) (k0_pay12 x12) (k0_pay13 (k0_pay6 (k0_pay2 (F := Ideal) x0 x3 x5 x7 x8) (k0_pay3 x1) (k0_pay4 x4) x6 x9 x10) (k0_pay7 (k0_pay2 (F := Ideal) x0 x3 x5 x7 x8) (k0_pay3 x1) (k0_pay4 x4) x6 x9 x10) (Scalar.ofBits .f32 0x40A00000#32) (k0_pay9 (k0_pay2 (F := Ideal) x0 x3 x5 x7 x8) (k0_pay3 x1) (k0_pay4 x4) x6 x9 x10) x2)) p
      = cOut (blockParams x3 x4 x5 x6 x7 x8 x9 x10 x11 x12 x13 x14) (row x0 p) (row x1 p) (row x2 p) := by
  have e := pay14_row (k0_pay10 (k0_pay6 (k0_pay2 (F := Ideal) x0 x3 x5 x7 x8) (k0_pay3 x1) (k0_pay4 x4) x6 x9 x10) (k0_pay7 (k0_pay2 (F := Ideal) x0 x3 x5 x7 x8) (k0_pay3 x1) (k0_pay4 x4) x6 x9 x10) (Scalar.ofBits .f32 0x40A00000#32) (k0_pay9 (k0_pay2 (F := Ideal) x0 x3 x5 x7 x8) (k0_pay3 x1) (k0_pay4 x4) x6 x9 x10) x2) (k0_pay11 x11) (k0_pay12 x12) p
  refine e.trans ?_
  rw [pay10_eq, vNewC_row, pre_row x0 x1 x2 x3 x4 x5 x6 x7 x8 x9 x10 x11 x12 x13 x14 p]
  unfold k0_pay11 k0_pay12
  rw [shapeCast_self, shapeCast_self]
  rfl

/-- Row p of the hidden block the body stores. -/
theorem hidden_row (x0 : FVec Ideal S128x512 .f32) (x1 x2 : FVec Ideal S128x1024 .f32) (x3 : FVec Ideal S512x4096 .bf16)
    (x4 : FVec Ideal S1024x4096 .bf16) (x5 x6 x7 x8 x9 x10 : FVec Ideal S1x4096 .f32) (x11 x12 x13 x14 : FVec Ideal S1x1024 .f32) (p : Fin 128) :
    row (k0_pay1 (F := Ideal) (k0_pay15 (k0_pay8 (k0_pay2 (F := Ideal) x0 x3 x5 x7 x8) (k0_pay3 x1) (k0_pay4 x4) x6 x9 x10)) (k0_pay16 x14)
        (k0_pay17 (k0_pay10 (k0_pay6 (k0_pay2 (F := Ideal) x0 x3 x5 x7 x8) (k0_pay3 x1) (k0_pay4 x4) x6 x9 x10) (k0_pay7 (k0_pay2 (F := Ideal) x0 x3 x5 x7 x8) (k0_pay3 x1) (k0_pay4 x4) x6 x9 x10) (Scalar.ofBits .f32 0x40A00000#32) (k0_pay9 (k0_pay2 (F := Ideal) x0 x3 x5 x7 x8) (k0_pay3 x1) (k0_pay4 x4) x6 x9 x10) x2) (k0_pay11 x11) (k0_pay12 x12) (k0_pay13 (k0_pay6 (k0_pay2 (F := Ideal) x0 x3 x5 x7 x8) (k0_pay3 x1) (k0_pay4 x4) x6 x9 x10) (k0_pay7 (k0_pay2 (F := Ideal) x0 x3 x5 x7 x8) (k0_pay3 x1) (k0_pay4 x4) x6 x9 x10) (Scalar.ofBits .f32 0x40A00000#32) (k0_pay9 (k0_pay2 (F := Ideal) x0 x3 x5 x7 x8) (k0_pay3 x1) (k0_pay4 x4) x6 x9 x10) x2) x13)) p
      = hOut (blockParams x3 x4 x5 x6 x7 x8 x9 x10 x11 x12 x13 x14) (row x0 p) (row x1 p) (row x2 p) := by
  rw [pay1_row, cell_row x0 x1 x2 x3 x4 x5 x6 x7 x8 x9 x10 x11 x12 x13 x14 p]
  have h3 : row (k0_pay8 (k0_pay2 (F := Ideal) x0 x3 x5 x7 x8) (k0_pay3 x1) (k0_pay4 x4) x6 x9 x10) p
      = part 3072 (by omega) (pre (blockParams x3 x4 x5 x6 x7 x8 x9 x10 x11 x12 x13 x14) (row x0 p) (row x1 p)) := by
    unfold k0_pay8
    rw [slice_row 3072 (by omega), pre_row x0 x1 x2 x3 x4 x5 x6 x7 x8 x9 x10 x11 x12 x13 x14 p]
  rw [h3]
  rfl

theorem hz : (![0, 0] : Fin 2 → Nat) = fun _ => 0 := funext fun a => by fin_cases a <;> rfl

/-- Row p of what the body leaves in the cell output's buffer, from the blocks it loads. -/
theorem out16_row (x0 : FVec Ideal S128x512 .f32) (x1 x2 : FVec Ideal S128x1024 .f32) (x3 : FVec Ideal S512x4096 .bf16)
    (x4 : FVec Ideal S1024x4096 .bf16) (x5 x6 x7 x8 x9 x10 : FVec Ideal S1x4096 .f32) (x11 x12 x13 x14 : FVec Ideal S1x1024 .f32) (p : Fin 128) :
    row (out0_16 (F := Ideal) x0 x1 x2 x3 x4 x5 x6 x7 x8 x9 x10 x11 x12 x13 x14) p
      = cOut (blockParams x3 x4 x5 x6 x7 x8 x9 x10 x11 x12 x13 x14) (row x0 p) (row x1 p) (row x2 p) := by
  unfold out0_16
  rw [View.canon_unit_zero hz]
  simp only [View.ld_unit_zero (S := S128x512) hz, View.ld_unit_zero (S := S128x1024) hz, View.ld_unit_zero (S := S512x4096) hz,
    View.ld_unit_zero (S := S1024x4096) hz, View.ld_unit_zero (S := S1x4096) hz, View.ld_unit_zero (S := S1x1024) hz]
  exact cell_row x0 x1 x2 x3 x4 x5 x6 x7 x8 x9 x10 x11 x12 x13 x14 p

/-- Row p of what the body leaves in the hidden output's buffer, from the blocks it loads. -/
theorem out15_row (x0 : FVec Ideal S128x512 .f32) (x1 x2 : FVec Ideal S128x1024 .f32) (x3 : FVec Ideal S512x4096 .bf16)
    (x4 : FVec Ideal S1024x4096 .bf16) (x5 x6 x7 x8 x9 x10 : FVec Ideal S1x4096 .f32) (x11 x12 x13 x14 : FVec Ideal S1x1024 .f32) (p : Fin 128) :
    row (out0_15 (F := Ideal) x0 x1 x2 x3 x4 x5 x6 x7 x8 x9 x10 x11 x12 x13 x14) p
      = hOut (blockParams x3 x4 x5 x6 x7 x8 x9 x10 x11 x12 x13 x14) (row x0 p) (row x1 p) (row x2 p) := by
  unfold out0_15
  rw [View.canon_unit_zero hz]
  simp only [View.ld_unit_zero (S := S128x512) hz, View.ld_unit_zero (S := S128x1024) hz, View.ld_unit_zero (S := S512x4096) hz,
    View.ld_unit_zero (S := S1024x4096) hz, View.ld_unit_zero (S := S1x4096) hz, View.ld_unit_zero (S := S1x1024) hz]
  exact hidden_row x0 x1 x2 x3 x4 x5 x6 x7 x8 x9 x10 x11 x12 x13 x14 p

/-- Row p of a matrix at column q is its entry (p, q). -/
theorem row_apply {M N : ℕ} (a : (⟨2, ![M, N]⟩ : Shape).Idx → EReal) (p : Fin M) (q : Fin N) : row a p q = a (ix2 p q) := rfl

/-- Entry (p, q) of what the body leaves in the cell output's buffer. -/
theorem out16_apply (x0 : Vec Ideal S128x512 .f32) (x1 x2 : Vec Ideal S128x1024 .f32) (x3 : Vec Ideal S512x4096 .bf16)
    (x4 : Vec Ideal S1024x4096 .bf16) (x5 x6 x7 x8 x9 x10 : Vec Ideal S1x4096 .f32) (x11 x12 x13 x14 : Vec Ideal S1x1024 .f32) (p : Fin 128) (q : Fin 1024) :
    out0_16 (F := Ideal) x0 x1 x2 x3 x4 x5 x6 x7 x8 x9 x10 x11 x12 x13 x14 (ix2 p q)
      = cOut (blockParams x3 x4 x5 x6 x7 x8 x9 x10 x11 x12 x13 x14) (row x0 p) (row x1 p) (row x2 p) q :=
  (row_apply (out0_16 (F := Ideal) x0 x1 x2 x3 x4 x5 x6 x7 x8 x9 x10 x11 x12 x13 x14) p q).symm.trans (congrFun (out16_row x0 x1 x2 x3 x4 x5 x6 x7 x8 x9 x10 x11 x12 x13 x14 p) q)

/-- Entry (p, q) of what the body leaves in the hidden output's buffer. -/
theorem out15_apply (x0 : Vec Ideal S128x512 .f32) (x1 x2 : Vec Ideal S128x1024 .f32) (x3 : Vec Ideal S512x4096 .bf16)
    (x4 : Vec Ideal S1024x4096 .bf16) (x5 x6 x7 x8 x9 x10 : Vec Ideal S1x4096 .f32) (x11 x12 x13 x14 : Vec Ideal S1x1024 .f32) (p : Fin 128) (q : Fin 1024) :
    out0_15 (F := Ideal) x0 x1 x2 x3 x4 x5 x6 x7 x8 x9 x10 x11 x12 x13 x14 (ix2 p q)
      = hOut (blockParams x3 x4 x5 x6 x7 x8 x9 x10 x11 x12 x13 x14) (row x0 p) (row x1 p) (row x2 p) q :=
  (row_apply (out0_15 (F := Ideal) x0 x1 x2 x3 x4 x5 x6 x7 x8 x9 x10 x11 x12 x13 x14) p q).symm.trans (congrFun (out15_row x0 x1 x2 x3 x4 x5 x6 x7 x8 x9 x10 x11 x12 x13 x14 p) q)

end Cert.Slstm.KernelRows

end
-- ==== Proof.KernelValue.lean ====
/-
  From blocks to arrays: what the two output arrays hold after the kernel's run.

  The grid has 64 points; at point t the three batch windows and the two output windows sit at rows 128·t … 128·t + 127
  of their arrays and the twelve parameter windows cover their whole arrays. The parameter arrays are written by host
  operations before the launch: the two weight arrays transposed (and re-typed, which changes nothing on the extended
  reals), the ten vectors re-laid as one-row matrices. So what point t writes back is rows 128·t … 128·t + 127 of the
  cell array and of the hidden array of the whole batch (Cell.lean), and the 64 blocks tile the 8192 rows.
-/
import proofs.«137666_j15461882265859_1_alg».proof.Proof.Gen.KernelIdeal.Value
import Idealize.ShloMosaic.Lib.StableHlo.Run
import proofs.«137666_j15461882265859_1_alg».proof.Proof.KernelRows

set_option maxRecDepth 16384

noncomputable section

open scoped BigOperators

namespace Cert.Slstm.KernelValue

open Idealize.ShloMosaic Idealize.ShloMosaic.TcCoe Idealize.ShloMosaic.ValueIdx Idealize.SL.Sem
open Cert.KernelIdeal Cert.KernelIdeal.Gen Cert.KernelIdeal.Value
open Idealize.ShloMosaic.Pipeline (Dat)
open Cert.RmsNorm Cert.LayerNorm Cert.Slstm Cert.Slstm.KernelRows

variable (m : (ℓ : Loc nD τ sig) → Buf (Elt Ideal) ℓ) (ρ : Dev nD → PrngReg)

theorem lt64 (t : Fin cfg0.N) : t.val < 64 := lt_of_lt_of_eq t.isLt N_0

/-! ## Where each window's block sits (decided over the 64 points) -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)
theorem idx14 : ∀ t : Fin cfg0.N, win0_14.index t (0 : Fin 2) = 0 ∧ win0_14.index t (1 : Fin 2) = 0 :=
  (by decide +kernel : ∀ t : Fin grid0.N, _)
theorem idx15 : ∀ t : Fin cfg0.N, win0_15.index t (0 : Fin 2) = t.val ∧ win0_15.index t (1 : Fin 2) = 0 :=
  (by decide +kernel : ∀ t : Fin grid0.N, _)
theorem idx16 : ∀ t : Fin cfg0.N, win0_16.index t (0 : Fin 2) = t.val ∧ win0_16.index t (1 : Fin 2) = 0 :=
  (by decide +kernel : ∀ t : Fin grid0.N, _)

theorem emb0 (t : Fin cfg0.N) (a : Fin 128) (b : Fin 512) :
    ((cfg0.win 0).blk t).view.emb (ix2 a b) = ix2 ⟨t.val * 128 + a.val, by have := a.isLt; have := lt64 t; omega⟩ b := by
  obtain ⟨e0, e1⟩ := idx0 t
  funext d; apply Fin.ext
  match d with
  | ⟨0, _⟩ => show win0_0.index t (0 : Fin 2) * 128 + 1 * a.val = t.val * 128 + a.val; rw [e0]; omega
  | ⟨1, _⟩ => show win0_0.index t (1 : Fin 2) * 512 + 1 * b.val = b.val; rw [e1]; omega

theorem emb1 (t : Fin cfg0.N) (a : Fin 128) (b : Fin 1024) :
    ((cfg0.win 1).blk t).view.emb (ix2 a b) = ix2 ⟨t.val * 128 + a.val, by have := a.isLt; have := lt64 t; omega⟩ b := by
  obtain ⟨e0, e1⟩ := idx1 t
  funext d; apply Fin.ext
  match d with
  | ⟨0, _⟩ => show win0_1.index t (0 : Fin 2) * 128 + 1 * a.val = t.val * 128 + a.val; rw [e0]; omega
  | ⟨1, _⟩ => show win0_1.index t (1 : Fin 2) * 1024 + 1 * b.val = b.val; rw [e1]; omega

theorem emb2 (t : Fin cfg0.N) (a : Fin 128) (b : Fin 1024) :
    ((cfg0.win 2).blk t).view.emb (ix2 a b) = ix2 ⟨t.val * 128 + a.val, by have := a.isLt; have := lt64 t; omega⟩ b := by
  obtain ⟨e0, e1⟩ := idx2 t
  funext d; apply Fin.ext
  match d with
  | ⟨0, _⟩ => show win0_2.index t (0 : Fin 2) * 128 + 1 * a.val = t.val * 128 + a.val; rw [e0]; omega
  | ⟨1, _⟩ => show win0_2.index t (1 : Fin 2) * 1024 + 1 * b.val = b.val; rw [e1]; omega

theorem emb3 (t : Fin cfg0.N) (a : Fin 512) (b : Fin 4096) :
    ((cfg0.win 3).blk t).view.emb (ix2 a b) = ix2 a b := by
  obtain ⟨e0, e1⟩ := idx3 t
  funext d; apply Fin.ext
  match d with
  | ⟨0, _⟩ => show win0_3.index t (0 : Fin 2) * 512 + 1 * a.val = a.val; rw [e0]; omega
  | ⟨1, _⟩ => show win0_3.index t (1 : Fin 2) * 4096 + 1 * b.val = b.val; rw [e1]; omega

theorem emb4 (t : Fin cfg0.N) (a : Fin 1024) (b : Fin 4096) :
    ((cfg0.win 4).blk t).view.emb (ix2 a b) = ix2 a b := by
  obtain ⟨e0, e1⟩ := idx4 t
  funext d; apply Fin.ext
  match d with
  | ⟨0, _⟩ => show win0_4.index t (0 : Fin 2) * 1024 + 1 * a.val = a.val; rw [e0]; omega
  | ⟨1, _⟩ => show win0_4.index t (1 : Fin 2) * 4096 + 1 * b.val = b.val; rw [e1]; omega

theorem emb5 (t : Fin cfg0.N) (a : Fin 1) (b : Fin 4096) :
    ((cfg0.win 5).blk t).view.emb (ix2 a b) = ix2 a b := by
  obtain ⟨e0, e1⟩ := idx5 t
  funext d; apply Fin.ext
  match d with
  | ⟨0, _⟩ => show win0_5.index t (0 : Fin 2) * 1 + 1 * a.val = a.val; rw [e0]; omega
  | ⟨1, _⟩ => show win0_5.index t (1 : Fin 2) * 4096 + 1 * b.val = b.val; rw [e1]; omega

theorem emb6 (t : Fin cfg0.N) (a : Fin 1) (b : Fin 4096) :
    ((cfg0.win 6).blk t).view.emb (ix2 a b) = ix2 a b := by
  obtain ⟨e0, e1⟩ := idx6 t
  funext d; apply Fin.ext
  match d with
  | ⟨0, _⟩ => show win0_6.index t (0 : Fin 2) * 1 + 1 * a.val = a.val; rw [e0]; omega
  | ⟨1, _⟩ => show win0_6.index t (1 : Fin 2) * 4096 + 1 * b.val = b.val; rw [e1]; omega

theorem emb7 (t : Fin cfg0.N) (a : Fin 1) (b : Fin 4096) :
    ((cfg0.win 7).blk t).view.emb (ix2 a b) = ix2 a b := by
  obtain ⟨e0, e1⟩ := idx7 t
  funext d; apply Fin.ext
  match d with
  | ⟨0, _⟩ => show win0_7.index t (0 : Fin 2) * 1 + 1 * a.val = a.val; rw [e0]; omega
  | ⟨1, _⟩ => show win0_7.index t (1 : Fin 2) * 4096 + 1 * b.val = b.val; rw [e1]; omega

theorem emb8 (t : Fin cfg0.N) (a : Fin 1) (b : Fin 4096) :
    ((cfg0.win 8).blk t).view.emb (ix2 a b) = ix2 a b := by
  obtain ⟨e0, e1⟩ := idx8 t
  funext d; apply Fin.ext
  match d with
  | ⟨0, _⟩ => show win0_8.index t (0 : Fin 2) * 1 + 1 * a.val = a.val; rw [e0]; omega
  | ⟨1, _⟩ => show win0_8.index t (1 : Fin 2) * 4096 + 1 * b.val = b.val; rw [e1]; omega

theorem emb9 (t : Fin cfg0.N) (a : Fin 1) (b : Fin 4096) :
    ((cfg0.win 9).blk t).view.emb (ix2 a b) = ix2 a b := by
  obtain ⟨e0, e1⟩ := idx9 t
  funext d; apply Fin.ext
  match d with
  | ⟨0, _⟩ => show win0_9.index t (0 : Fin 2) * 1 + 1 * a.val = a.val; rw [e0]; omega
  | ⟨1, _⟩ => show win0_9.index t (1 : Fin 2) * 4096 + 1 * b.val = b.val; rw [e1]; omega

theorem emb10 (t : Fin cfg0.N) (a : Fin 1) (b : Fin 4096) :
    ((cfg0.win 10).blk t).view.emb (ix2 a b) = ix2 a b := by
  obtain ⟨e0, e1⟩ := idx10 t
  funext d; apply Fin.ext
  match d with
  | ⟨0, _⟩ => show win0_10.index t (0 : Fin 2) * 1 + 1 * a.val = a.val; rw [e0]; omega
  | ⟨1, _⟩ => show win0_10.index t (1 : Fin 2) * 4096 + 1 * b.val = b.val; rw [e1]; omega

theorem emb11 (t : Fin cfg0.N) (a : Fin 1) (b : Fin 1024) :
    ((cfg0.win 11).blk t).view.emb (ix2 a b) = ix2 a b := by
  obtain ⟨e0, e1⟩ := idx11 t
  funext d; apply Fin.ext
  match d with
  | ⟨0, _⟩ => show win0_11.index t (0 : Fin 2) * 1 + 1 * a.val = a.val; rw [e0]; omega
  | ⟨1, _⟩ => show win0_11.index t (1 : Fin 2) * 1024 + 1 * b.val = b.val; rw [e1]; omega

theorem emb12 (t : Fin cfg0.N) (a : Fin 1) (b : Fin 1024) :
    ((cfg0.win 12).blk t).view.emb (ix2 a b) = ix2 a b := by
  obtain ⟨e0, e1⟩ := idx12 t
  funext d; apply Fin.ext
  match d with
  | ⟨0, _⟩ => show win0_12.index t (0 : Fin 2) * 1 + 1 * a.val = a.val; rw [e0]; omega
  | ⟨1, _⟩ => show win0_12.index t (1 : Fin 2) * 1024 + 1 * b.val = b.val; rw [e1]; omega

theorem emb13 (t : Fin cfg0.N) (a : Fin 1) (b : Fin 1024) :
    ((cfg0.win 13).blk t).view.emb (ix2 a b) = ix2 a b := by
  obtain ⟨e0, e1⟩ := idx13 t
  funext d; apply Fin.ext
  match d with
  | ⟨0, _⟩ => show win0_13.index t (0 : Fin 2) * 1 + 1 * a.val = a.val; rw [e0]; omega
  | ⟨1, _⟩ => show win0_13.index t (1 : Fin 2) * 1024 + 1 * b.val = b.val; rw [e1]; omega

theorem emb14 (t : Fin cfg0.N) (a : Fin 1) (b : Fin 1024) :
    ((cfg0.win 14).blk t).view.emb (ix2 a b) = ix2 a b := by
  obtain ⟨e0, e1⟩ := idx14 t
  funext d; apply Fin.ext
  match d with
  | ⟨0, _⟩ => show win0_14.index t (0 : Fin 2) * 1 + 1 * a.val = a.val; rw [e0]; omega
  | ⟨1, _⟩ => show win0_14.index t (1 : Fin 2) * 1024 + 1 * b.val = b.val; rw [e1]; omega

theorem emb15 (t : Fin cfg0.N) (a : Fin 128) (b : Fin 1024) :
    ((cfg0.win 15).blk t).view.emb (ix2 a b) = ix2 ⟨t.val * 128 + a.val, by have := a.isLt; have := lt64 t; omega⟩ b := by
  obtain ⟨e0, e1⟩ := idx15 t
  funext d; apply Fin.ext
  match d with
  | ⟨0, _⟩ => show win0_15.index t (0 : Fin 2) * 128 + 1 * a.val = t.val * 128 + a.val; rw [e0]; omega
  | ⟨1, _⟩ => show win0_15.index t (1 : Fin 2) * 1024 + 1 * b.val = b.val; rw [e1]; omega

theorem emb16 (t : Fin cfg0.N) (a : Fin 128) (b : Fin 1024) :
    ((cfg0.win 16).blk t).view.emb (ix2 a b) = ix2 ⟨t.val * 128 + a.val, by have := a.isLt; have := lt64 t; omega⟩ b := by
  obtain ⟨e0, e1⟩ := idx16 t
  funext d; apply Fin.ext
  match d with
  | ⟨0, _⟩ => show win0_16.index t (0 : Fin 2) * 128 + 1 * a.val = t.val * 128 + a.val; rw [e0]; omega
  | ⟨1, _⟩ => show win0_16.index t (1 : Fin 2) * 1024 + 1 * b.val = b.val; rw [e1]; omega

/-! ## What the host operations before the launch leave in the parameter windows' arrays -/

theorem V_wx (c : Dev nD) : (V m c main_v1 : S512x4096.Idx → EReal)
    = truncf (F := Ideal) .bf16 (transpose S512x4096 [1, 0] (m ((c : Thread nD τ).loc main_arg3)) transposes_S4096x512_S512x4096_1_0) bitsLt_bf16_f32 := by
  dsimp only [Gen.V, Gen.hostOps0]; after_results

theorem V_wh (c : Dev nD) : (V m c main_v3 : S1024x4096.Idx → EReal)
    = truncf (F := Ideal) .bf16 (transpose S1024x4096 [1, 0] (m ((c : Thread nD τ).loc main_arg5)) transposes_S4096x1024_S1024x4096_1_0) bitsLt_bf16_f32 := by
  dsimp only [Gen.V, Gen.hostOps0]; after_results

theorem V_v4 (c : Dev nD) : (V m c main_v4 : S1x4096.Idx → EReal) = shapeCast S1x4096 (m ((c : Thread nD τ).loc main_arg4)) shapeCasts_S4096_S1x4096 := by
  dsimp only [Gen.V, Gen.hostOps0]; after_results; rfl

theorem V_v5 (c : Dev nD) : (V m c main_v5 : S1x4096.Idx → EReal) = shapeCast S1x4096 (m ((c : Thread nD τ).loc main_arg6)) shapeCasts_S4096_S1x4096 := by
  dsimp only [Gen.V, Gen.hostOps0]; after_results; rfl

theorem V_v6 (c : Dev nD) : (V m c main_v6 : S1x4096.Idx → EReal) = shapeCast S1x4096 (m ((c : Thread nD τ).loc main_arg7)) shapeCasts_S4096_S1x4096 := by
  dsimp only [Gen.V, Gen.hostOps0]; after_results; rfl

theorem V_v7 (c : Dev nD) : (V m c main_v7 : S1x4096.Idx → EReal) = shapeCast S1x4096 (m ((c : Thread nD τ).loc main_arg8)) shapeCasts_S4096_S1x4096 := by
  dsimp only [Gen.V, Gen.hostOps0]; after_results; rfl

theorem V_v8 (c : Dev nD) : (V m c main_v8 : S1x4096.Idx → EReal) = shapeCast S1x4096 (m ((c : Thread nD τ).loc main_arg9)) shapeCasts_S4096_S1x4096 := by
  dsimp only [Gen.V, Gen.hostOps0]; after_results; rfl

theorem V_v9 (c : Dev nD) : (V m c main_v9 : S1x4096.Idx → EReal) = shapeCast S1x4096 (m ((c : Thread nD τ).loc main_arg10)) shapeCasts_S4096_S1x4096 := by
  dsimp only [Gen.V, Gen.hostOps0]; after_results; rfl

theorem V_v10 (c : Dev nD) : (V m c main_v10 : S1x1024.Idx → EReal) = shapeCast S1x1024 (m ((c : Thread nD τ).loc main_arg11)) shapeCasts_S1024_S1x1024 := by
  dsimp only [Gen.V, Gen.hostOps0]; after_results; rfl

theorem V_v11 (c : Dev nD) : (V m c main_v11 : S1x1024.Idx → EReal) = shapeCast S1x1024 (m ((c : Thread nD τ).loc main_arg12)) shapeCasts_S1024_S1x1024 := by
  dsimp only [Gen.V, Gen.hostOps0]; after_results; rfl

theorem V_v12 (c : Dev nD) : (V m c main_v12 : S1x1024.Idx → EReal) = shapeCast S1x1024 (m ((c : Thread nD τ).loc main_arg13)) shapeCasts_S1024_S1x1024 := by
  dsimp only [Gen.V, Gen.hostOps0]; after_results; rfl

theorem V_v13 (c : Dev nD) : (V m c main_v13 : S1x1024.Idx → EReal) = shapeCast S1x1024 (m ((c : Thread nD τ).loc main_arg14)) shapeCasts_S1024_S1x1024 := by
  dsimp only [Gen.V, Gen.hostOps0]; after_results; rfl

/-! ## The blocks the body loads at point t -/

/-- Row p of batch window 0's block at point t is row 128·t + p of its array. -/
theorem blk0_row (c : Dev nD) (t : Fin cfg0.N) (p : Fin 128) :
    row (iblk m c 0 t) p = row (m ((c : Thread nD τ).loc main_arg0)) ⟨t.val * 128 + p.val, by have := p.isLt; have := lt64 t; omega⟩ := by
  funext k
  show V m c main_arg0 (((cfg0.win 0).blk t).view.emb (ix2 p k)) = _
  exact (congrArg (V m c main_arg0) (emb0 t p k)).trans (congrFun (V_main_arg0 m c) _)

/-- Row p of batch window 1's block at point t is row 128·t + p of its array. -/
theorem blk1_row (c : Dev nD) (t : Fin cfg0.N) (p : Fin 128) :
    row (iblk m c 1 t) p = row (m ((c : Thread nD τ).loc main_arg1)) ⟨t.val * 128 + p.val, by have := p.isLt; have := lt64 t; omega⟩ := by
  funext k
  show V m c main_arg1 (((cfg0.win 1).blk t).view.emb (ix2 p k)) = _
  exact (congrArg (V m c main_arg1) (emb1 t p k)).trans (congrFun (V_main_arg1 m c) _)

/-- Row p of batch window 2's block at point t is row 128·t + p of its array. -/
theorem blk2_row (c : Dev nD) (t : Fin cfg0.N) (p : Fin 128) :
    row (iblk m c 2 t) p = row (m ((c : Thread nD τ).loc main_arg2)) ⟨t.val * 128 + p.val, by have := p.isLt; have := lt64 t; omega⟩ := by
  funext k
  show V m c main_arg2 (((cfg0.win 2).blk t).view.emb (ix2 p k)) = _
  exact (congrArg (V m c main_arg2) (emb2 t p k)).trans (congrFun (V_main_arg2 m c) _)

/-- The first weight window's block is the first weight array transposed. -/
theorem blk3_mat (c : Dev nD) (t : Fin cfg0.N) : mat (iblk m c 3 t) = fun k q => (m ((c : Thread nD τ).loc main_arg3)) (ix2 q k) := by
  funext k q
  show V m c main_v1 (((cfg0.win 3).blk t).view.emb (ix2 k q)) = _
  rw [emb3 t k q, V_wx]
  exact transpose_apply [1, 0] _ transposes_S4096x512_S512x4096_1_0 (ix2 k q) (ix2 q k) (fun d => match d with
    | ⟨0, _⟩ => rfl
    | ⟨1, _⟩ => rfl)

/-- The second weight window's block is the second weight array transposed. -/
theorem blk4_mat (c : Dev nD) (t : Fin cfg0.N) : mat (iblk m c 4 t) = fun k q => (m ((c : Thread nD τ).loc main_arg5)) (ix2 q k) := by
  funext k q
  show V m c main_v3 (((cfg0.win 4).blk t).view.emb (ix2 k q)) = _
  rw [emb4 t k q, V_wh]
  exact transpose_apply [1, 0] _ transposes_S4096x1024_S1024x4096_1_0 (ix2 k q) (ix2 q k) (fun d => match d with
    | ⟨0, _⟩ => rfl
    | ⟨1, _⟩ => rfl)

/-- Window 5's one-row block is its vector. -/
theorem blk5_row (c : Dev nD) (t : Fin cfg0.N) : row (iblk m c 5 t) 0 = vec (m ((c : Thread nD τ).loc main_arg4)) := by
  funext q
  show V m c main_v4 (((cfg0.win 5).blk t).view.emb (ix2 0 q)) = _
  rw [emb5 t 0 q, V_v4]
  exact Cert.ColRowBroadcast.rowCast_apply _ shapeCasts_S4096_S1x4096 0 q

/-- Window 6's one-row block is its vector. -/
theorem blk6_row (c : Dev nD) (t : Fin cfg0.N) : row (iblk m c 6 t) 0 = vec (m ((c : Thread nD τ).loc main_arg6)) := by
  funext q
  show V m c main_v5 (((cfg0.win 6).blk t).view.emb (ix2 0 q)) = _
  rw [emb6 t 0 q, V_v5]
  exact Cert.ColRowBroadcast.rowCast_apply _ shapeCasts_S4096_S1x4096 0 q

/-- Window 7's one-row block is its vector. -/
theorem blk7_row (c : Dev nD) (t : Fin cfg0.N) : row (iblk m c 7 t) 0 = vec (m ((c : Thread nD τ).loc main_arg7)) := by
  funext q
  show V m c main_v6 (((cfg0.win 7).blk t).view.emb (ix2 0 q)) = _
  rw [emb7 t 0 q, V_v6]
  exact Cert.ColRowBroadcast.rowCast_apply _ shapeCasts_S4096_S1x4096 0 q

/-- Window 8's one-row block is its vector. -/
theorem blk8_row (c : Dev nD) (t : Fin cfg0.N) : row (iblk m c 8 t) 0 = vec (m ((c : Thread nD τ).loc main_arg8)) := by
  funext q
  show V m c main_v7 (((cfg0.win 8).blk t).view.emb (ix2 0 q)) = _
  rw [emb8 t 0 q, V_v7]
  exact Cert.ColRowBroadcast.rowCast_apply _ shapeCasts_S4096_S1x4096 0 q

/-- Window 9's one-row block is its vector. -/
theorem blk9_row (c : Dev nD) (t : Fin cfg0.N) : row (iblk m c 9 t) 0 = vec (m ((c : Thread nD τ).loc main_arg9)) := by
  funext q
  show V m c main_v8 (((cfg0.win 9).blk t).view.emb (ix2 0 q)) = _
  rw [emb9 t 0 q, V_v8]
  exact Cert.ColRowBroadcast.rowCast_apply _ shapeCasts_S4096_S1x4096 0 q

/-- Window 10's one-row block is its vector. -/
theorem blk10_row (c : Dev nD) (t : Fin cfg0.N) : row (iblk m c 10 t) 0 = vec (m ((c : Thread nD τ).loc main_arg10)) := by
  funext q
  show V m c main_v9 (((cfg0.win 10).blk t).view.emb (ix2 0 q)) = _
  rw [emb10 t 0 q, V_v9]
  exact Cert.ColRowBroadcast.rowCast_apply _ shapeCasts_S4096_S1x4096 0 q

/-- Window 11's one-row block is its vector. -/
theorem blk11_row (c : Dev nD) (t : Fin cfg0.N) : row (iblk m c 11 t) 0 = vec (m ((c : Thread nD τ).loc main_arg11)) := by
  funext q
  show V m c main_v10 (((cfg0.win 11).blk t).view.emb (ix2 0 q)) = _
  rw [emb11 t 0 q, V_v10]
  exact Cert.ColRowBroadcast.rowCast_apply _ shapeCasts_S1024_S1x1024 0 q

/-- Window 12's one-row block is its vector. -/
theorem blk12_row (c : Dev nD) (t : Fin cfg0.N) : row (iblk m c 12 t) 0 = vec (m ((c : Thread nD τ).loc main_arg12)) := by
  funext q
  show V m c main_v11 (((cfg0.win 12).blk t).view.emb (ix2 0 q)) = _
  rw [emb12 t 0 q, V_v11]
  exact Cert.ColRowBroadcast.rowCast_apply _ shapeCasts_S1024_S1x1024 0 q

/-- Window 13's one-row block is its vector. -/
theorem blk13_row (c : Dev nD) (t : Fin cfg0.N) : row (iblk m c 13 t) 0 = vec (m ((c : Thread nD τ).loc main_arg13)) := by
  funext q
  show V m c main_v12 (((cfg0.win 13).blk t).view.emb (ix2 0 q)) = _
  rw [emb13 t 0 q, V_v12]
  exact Cert.ColRowBroadcast.rowCast_apply _ shapeCasts_S1024_S1x1024 0 q

/-- Window 14's one-row block is its vector. -/
theorem blk14_row (c : Dev nD) (t : Fin cfg0.N) : row (iblk m c 14 t) 0 = vec (m ((c : Thread nD τ).loc main_arg14)) := by
  funext q
  show V m c main_v13 (((cfg0.win 14).blk t).view.emb (ix2 0 q)) = _
  rw [emb14 t 0 q, V_v13]
  exact Cert.ColRowBroadcast.rowCast_apply _ shapeCasts_S1024_S1x1024 0 q

/-- The parameters as the argument arrays hold them. -/
def argP (c : Dev nD) : Params :=
  arrParams (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

/-- At every point the resident blocks hold the parameters of the argument arrays. -/
theorem params_eq (c : Dev nD) (t : Fin cfg0.N) :
    blockParams (iblk m c 3 t) (iblk m c 4 t) (iblk m c 5 t) (iblk m c 6 t) (iblk m c 7 t) (iblk m c 8 t) (iblk m c 9 t)
      (iblk m c 10 t) (iblk m c 11 t) (iblk m c 12 t) (iblk m c 13 t) (iblk m c 14 t) = argP m c := by
  unfold blockParams
  rw [blk3_mat m c t, blk4_mat m c t, blk5_row m c t, blk6_row m c t, blk7_row m c t, blk8_row m c t, blk9_row m c t,
    blk10_row m c t, blk11_row m c t, blk12_row m c t, blk13_row m c t, blk14_row m c t]
  rfl

/-! ## The two output arrays -/

/-- The cell array of the batch the arguments hold. -/
def cArr (c : Dev nD) : S8192x1024.Idx → EReal :=
  cellArr (argP m c) (m ((c : Thread nD τ).loc main_arg0)) (m ((c : Thread nD τ).loc main_arg1)) (m ((c : Thread nD τ).loc main_arg2))

/-- The hidden array of the batch the arguments hold. -/
def hArr (c : Dev nD) : S8192x1024.Idx → EReal :=
  hiddenArr (argP m c) (m ((c : Thread nD τ).loc main_arg0)) (m ((c : Thread nD τ).loc main_arg1)) (m ((c : Thread nD τ).loc main_arg2))

/-- Entry (p, q) of what the body leaves for the cell output at point t is entry (128·t + p, q) of the cell array. -/
theorem out16_at (c : Dev nD) (t : Fin cfg0.N) (p : Fin 128) (q : Fin 1024) :
    out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 p q)
      = cArr m c (ix2 ⟨t.val * 128 + p.val, by have := p.isLt; have := lt64 t; omega⟩ q) := by
  refine (out16_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p q).trans ?_
  rw [params_eq m c t, blk0_row m c t p, blk1_row m c t p, blk2_row m c t p]
  rfl

/-- Entry (p, q) of what the body leaves for the hidden output at point t is entry (128·t + p, q) of the hidden array. -/
theorem out15_at (c : Dev nD) (t : Fin cfg0.N) (p : Fin 128) (q : Fin 1024) :
    out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 p q)
      = hArr m c (ix2 ⟨t.val * 128 + p.val, by have := p.isLt; have := lt64 t; omega⟩ q) := by
  refine (out15_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p q).trans ?_
  rw [params_eq m c t, blk0_row m c t p, blk1_row m c t p, blk2_row m c t p]
  rfl

/-- What point t writes back to the cell output is rows 128·t … 128·t + 127 of the cell array. -/
theorem flushed16_eq (c : Dev nD) (t : Fin cfg0.N) :
    (dats m 0 c).flushed 16 t = ((cfg0.win 16).blk t).view.read (Elt Ideal) (cArr m c) := by
  rw [Value.flushed16]
  have hO : ∀ (p : Fin 128) (q : Fin 1024), out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 p q)
      = cArr m c (ix2 ⟨t.val * 128 + p.val, by have := p.isLt; have := lt64 t; omega⟩ q) := out16_at m c t
  generalize out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) = O at hO ⊢
  funext j
  obtain ⟨p, q, rfl⟩ : ∃ (p : Fin 128) (q : Fin 1024), j = ix2 p q := ⟨j 0, j 1, eq_ix2 j⟩
  show O (ix2 p q) = cArr m c (((cfg0.win 16).blk t).view.emb (ix2 p q))
  rw [emb16 t p q]
  exact hO p q

/-- What point t writes back to the hidden output is rows 128·t … 128·t + 127 of the hidden array. -/
theorem flushed15_eq (c : Dev nD) (t : Fin cfg0.N) :
    (dats m 0 c).flushed 15 t = ((cfg0.win 15).blk t).view.read (Elt Ideal) (hArr m c) := by
  rw [Value.flushed15]
  have hO : ∀ (p : Fin 128) (q : Fin 1024), out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 p q)
      = hArr m c (ix2 ⟨t.val * 128 + p.val, by have := p.isLt; have := lt64 t; omega⟩ q) := out15_at m c t
  generalize out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) = O at hO ⊢
  funext j
  obtain ⟨p, q, rfl⟩ : ∃ (p : Fin 128) (q : Fin 1024), j = ix2 p q := ⟨j 0, j 1, eq_ix2 j⟩
  show O (ix2 p q) = hArr m c (((cfg0.win 15).blk t).view.emb (ix2 p q))
  rw [emb15 t p q]
  exact hO p q

/-- An index of the array is in point t's block of window 15 iff each coordinate is in the block's range. -/
theorem mem_blk15 (t : Fin cfg0.N) (i : S8192x1024.Idx) :
    i ∈ ((cfg0.win 15).blk t).view.set ↔ ∀ a : Fin 2, win0_15.index t a * S128x1024.size a ≤ (i a).val
      ∧ (i a).val < win0_15.index t a * S128x1024.size a + S128x1024.size a := by
  show i ∈ ((View.whole main_v14_0).slice (win0_15.rect t)).set ↔ _
  rw [View.set_slice_whole, Rect.mem_set_unit]
  exact Iff.rfl

/-- The 64 blocks of window 15 tile the 8192 rows: row r is in the block of point r / 128. -/
theorem cover15 (i : S8192x1024.Idx) : ∃ t : Fin cfg0.N, (cfg0.win 15).flush t = true ∧ i ∈ ((cfg0.win 15).blk t).view.set := by
  have hi0 : (i 0).val < 8192 := (i 0).isLt
  have hi1 : (i 1).val < 1024 := (i 1).isLt
  have hN : (i 0).val / 128 < cfg0.N := by rw [show cfg0.N = 64 from N_0]; omega
  refine ⟨⟨(i 0).val / 128, hN⟩, flush0_15 _, ?_⟩
  rw [mem_blk15]
  obtain ⟨e0, e1⟩ := idx15 ⟨(i 0).val / 128, hN⟩
  intro a
  match a with
  | ⟨0, _⟩ =>
    show win0_15.index ⟨(i 0).val / 128, hN⟩ (0 : Fin 2) * 128 ≤ (i 0).val
      ∧ (i 0).val < win0_15.index ⟨(i 0).val / 128, hN⟩ (0 : Fin 2) * 128 + 128
    rw [e0]
    show (i 0).val / 128 * 128 ≤ (i 0).val ∧ (i 0).val < (i 0).val / 128 * 128 + 128
    omega
  | ⟨1, _⟩ =>
    show win0_15.index ⟨(i 0).val / 128, hN⟩ (1 : Fin 2) * 1024 ≤ (i 1).val
      ∧ (i 1).val < win0_15.index ⟨(i 0).val / 128, hN⟩ (1 : Fin 2) * 1024 + 1024
    rw [e1]
    omega

/-- An index of the array is in point t's block of window 16 iff each coordinate is in the block's range. -/
theorem mem_blk16 (t : Fin cfg0.N) (i : S8192x1024.Idx) :
    i ∈ ((cfg0.win 16).blk t).view.set ↔ ∀ a : Fin 2, win0_16.index t a * S128x1024.size a ≤ (i a).val
      ∧ (i a).val < win0_16.index t a * S128x1024.size a + S128x1024.size a := by
  show i ∈ ((View.whole main_v14_1).slice (win0_16.rect t)).set ↔ _
  rw [View.set_slice_whole, Rect.mem_set_unit]
  exact Iff.rfl

/-- The 64 blocks of window 16 tile the 8192 rows: row r is in the block of point r / 128. -/
theorem cover16 (i : S8192x1024.Idx) : ∃ t : Fin cfg0.N, (cfg0.win 16).flush t = true ∧ i ∈ ((cfg0.win 16).blk t).view.set := by
  have hi0 : (i 0).val < 8192 := (i 0).isLt
  have hi1 : (i 1).val < 1024 := (i 1).isLt
  have hN : (i 0).val / 128 < cfg0.N := by rw [show cfg0.N = 64 from N_0]; omega
  refine ⟨⟨(i 0).val / 128, hN⟩, flush0_16 _, ?_⟩
  rw [mem_blk16]
  obtain ⟨e0, e1⟩ := idx16 ⟨(i 0).val / 128, hN⟩
  intro a
  match a with
  | ⟨0, _⟩ =>
    show win0_16.index ⟨(i 0).val / 128, hN⟩ (0 : Fin 2) * 128 ≤ (i 0).val
      ∧ (i 0).val < win0_16.index ⟨(i 0).val / 128, hN⟩ (0 : Fin 2) * 128 + 128
    rw [e0]
    show (i 0).val / 128 * 128 ≤ (i 0).val ∧ (i 0).val < (i 0).val / 128 * 128 + 128
    omega
  | ⟨1, _⟩ =>
    show win0_16.index ⟨(i 0).val / 128, hN⟩ (1 : Fin 2) * 1024 ≤ (i 1).val
      ∧ (i 1).val < win0_16.index ⟨(i 0).val / 128, hN⟩ (1 : Fin 2) * 1024 + 1024
    rw [e1]
    omega

/-- After the run the hidden output array is the hidden array of the batch. -/
theorem final15 (c : Dev nD) : (dats m 0 c).arrAt 15 cfg0.N = hArr m c :=
  (dats m 0 c).arrAt_eq_of_cover 15 (hArr m c) (fun t _ => flushed15_eq m c t) cover15

/-- After the run the cell output array is the cell array of the batch. -/
theorem final16 (c : Dev nD) : (dats m 0 c).arrAt 16 cfg0.N = cArr m c :=
  (dats m 0 c).arrAt_eq_of_cover 16 (cArr m c) (fun t _ => flushed16_eq m c t) cover16

/-- The kernel's run, read: every weakly fair execution terminates with the two output arrays at the hidden and the cell
    array of the batch and the arguments unchanged. -/
theorem run : θ_run defs (onTc (τ := τ) (main (F := Ideal))) ⟨m, fun _ => 0, ρ⟩ fun r => ∀ c : Dev nD,
      r.2.mem ((c : Thread nD τ).loc main_v14_0) = hArr m c
      ∧ r.2.mem ((c : Thread nD τ).loc main_v14_1) = cArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans (final15 m c), (h c).2.1.trans (final16 m c), (h c).2.2⟩)
    (Value.run_blocks m ρ)

end Cert.Slstm.KernelValue

end
-- ==== Proof.LibHostReads.lean ====
/-
  Three host-side readings at an entry, over any sizes, on the extended reals.

  * A plain matrix product on the host (an M × K by a K × N `dot_general`, no batch axes): entry (i, j) is
    Σ_k lhs (i, k) · rhs (k, j).
  * One matrix picked out of a tensor [G, O, K, N] by slicing the first axis at g, dropping it, slicing the next at o
    and dropping it too: entry (k, n) of the result is the tensor at (g, o, k, n).
  * One row picked out of a table [G, N] at g, flattened, and broadcast down M rows: entry (i, n) of the result is
    the table at (g, n).
-/
import Idealize.ShloMosaic.PureOps.Ideal.Laws
import Idealize.ShloMosaic.Lib.Pipeline.Value
import Idealize.ShloMosaic.Lib.ValueIdx

noncomputable section

open scoped BigOperators

namespace Cert.LibHostReads

open Idealize.ShloMosaic Idealize.ShloMosaic.ValueIdx

/-- Entry (i, j) of the host's plain product of `lhs` (M × K) and `rhs` (K × N). -/
theorem dotGeneral_plain_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    Host.dotGeneral (F := Ideal) (DotDims.plain M K N) prec lhs rhs (ix2 i j) = ∑ k : Fin K, lhs (ix2 i k) * rhs (ix2 k j) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

/-- One matrix of a [G, O, K, N] tensor, picked by two slice-and-drop steps, read at (k, n). -/
theorem select_matrix_apply {α : Type} {G O K N : Nat} (W : (⟨4, ![G, O, K, N]⟩ : Shape).Idx → α) (g : Fin G) (o : Fin O)
    (h1 : (⟨4, ![G, O, K, N]⟩ : Shape).Slices ![g.val, 0, 0, 0] ⟨4, ![1, O, K, N]⟩)
    (h2 : (⟨4, ![1, O, K, N]⟩ : Shape).ShapeCasts ⟨3, ![O, K, N]⟩)
    (h3 : (⟨3, ![O, K, N]⟩ : Shape).Slices ![o.val, 0, 0] ⟨3, ![1, K, N]⟩)
    (h4 : (⟨3, ![1, K, N]⟩ : Shape).ShapeCasts ⟨2, ![K, N]⟩) (k : Fin K) (n : Fin N) :
    shapeCast ⟨2, ![K, N]⟩ (extractStridedSlice ⟨3, ![1, K, N]⟩ ![o.val, 0, 0]
      (shapeCast ⟨3, ![O, K, N]⟩ (extractStridedSlice ⟨4, ![1, O, K, N]⟩ ![g.val, 0, 0, 0] W h1) h2) h3) h4 (ix2 k n)
      = W (ix4 g o k n) := by
  refine (shapeCast_apply _ h4 (ix2 k n) (ix3 (0 : Fin 1) k n) ?_).trans ?_
  · rewrite [Shape.rowMajor_val_three, Shape.rowMajor_val_two]
    show ((0 : Fin 1).val * K + k.val) * N + n.val = k.val * N + n.val
    simp
  refine (extractStridedSlice_apply ![o.val, 0, 0] _ h3 (ix3 (0 : Fin 1) k n) (ix3 o k n) ?_).trans ?_
  · intro a
    match a with
    | ⟨0, _⟩ => show o.val = o.val + (0 : Fin 1).val; simp
    | ⟨1, _⟩ => show k.val = 0 + k.val; omega
    | ⟨2, _⟩ => show n.val = 0 + n.val; omega
  refine (shapeCast_apply _ h2 (ix3 o k n) (ix4 (0 : Fin 1) o k n) ?_).trans ?_
  · rewrite [Shape.rowMajor_val_four, Shape.rowMajor_val_three]
    show (((0 : Fin 1).val * O + o.val) * K + k.val) * N + n.val = (o.val * K + k.val) * N + n.val
    simp
  refine extractStridedSlice_apply ![g.val, 0, 0, 0] W h1 (ix4 (0 : Fin 1) o k n) (ix4 g o k n) ?_
  intro a
  match a with
  | ⟨0, _⟩ => show g.val = g.val + (0 : Fin 1).val; simp
  | ⟨1, _⟩ => show o.val = 0 + o.val; omega
  | ⟨2, _⟩ => show k.val = 0 + k.val; omega
  | ⟨3, _⟩ => show n.val = 0 + n.val; omega

/-- One row of a [G, N] table picked at g, flattened and broadcast down M rows, read at (i, n). -/
theorem select_row_apply {α : Type} {G N M : Nat} (hN : N ≠ 1) (B : (⟨2, ![G, N]⟩ : Shape).Idx → α) (g : Fin G)
    (h1 : (⟨2, ![G, N]⟩ : Shape).Slices ![g.val, 0] ⟨2, ![1, N]⟩)
    (h2 : (⟨2, ![1, N]⟩ : Shape).ShapeCasts ⟨1, ![N]⟩)
    (h3 : (⟨1, ![N]⟩ : Shape).BroadcastsInDim ⟨2, ![1, N]⟩ ![1])
    (h4 : (⟨2, ![1, N]⟩ : Shape).BroadcastsInDim ⟨2, ![M, N]⟩ ![0, 1]) (i : Fin M) (n : Fin N) :
    broadcastInDim ⟨2, ![M, N]⟩ ![0, 1] h4 (broadcastInDim ⟨2, ![1, N]⟩ ![1] h3
      (shapeCast ⟨1, ![N]⟩ (extractStridedSlice ⟨2, ![1, N]⟩ ![g.val, 0] B h1) h2)) (ix2 i n) = B (ix2 g n) := by
  refine (broadcastInDim_apply _ h4 _ (ix2 i n) (ix2 (0 : Fin 1) n) ?_).trans ?_
  · intro a
    match a with
    | ⟨0, _⟩ => show (0 : Fin 1).val = if (1 : Nat) = 1 then 0 else i.val; rw [if_pos rfl]; rfl
    | ⟨1, _⟩ => show n.val = if N = 1 then 0 else n.val; rw [if_neg hN]
  refine (broadcastInDim_apply _ h3 _ (ix2 (0 : Fin 1) n) (ix1 n) ?_).trans ?_
  · intro a
    match a with
    | ⟨0, _⟩ => show n.val = if N = 1 then 0 else n.val; rw [if_neg hN]
  refine (shapeCast_apply _ h2 (ix1 n) (ix2 (0 : Fin 1) n) ?_).trans ?_
  · rewrite [Shape.rowMajor_val_two, Shape.rowMajor_val_one]
    show (0 : Fin 1).val * N + n.val = n.val
    simp
  refine extractStridedSlice_apply ![g.val, 0] B h1 (ix2 (0 : Fin 1) n) (ix2 g n) ?_
  intro a
  match a with
  | ⟨0, _⟩ => show g.val = g.val + (0 : Fin 1).val; simp
  | ⟨1, _⟩ => show n.val = 0 + n.val; omega

end Cert.LibHostReads

end
-- ==== Proof.RefValue.lean ====
/-
  The reference's two results as whole-array terms of its arguments, and those terms read one batch row at a time.

  Every stage of the reference acts on the rows of the whole batch independently, as the vector unit's body does on a
  block: so row r of each result is the cell step (Cell.lean) of row r of the three batch arrays, with the parameters
  read off the argument arrays: the weight arrays transposed (entry (k, q) of the matrix is entry (q, k) of the
  array), the vectors as rows. The reference spells the logistic function as 1 / (1 + exp(−x)), which is what the one
  operation denotes on the extended reals.
-/
import proofs.«137666_j15461882265859_1_alg».proof.Proof.Gen.ReferenceIdeal
import Idealize.ShloMosaic.PureOps.Ideal.Laws
import Idealize.ShloMosaic.Lib.Pipeline.Value
import Idealize.ShloMosaic.Lib.ValueIdx
import Idealize.ShloMosaic.Lib.IdealHost
import proofs.«137666_j15461882265859_1_alg».proof.Proof.LibRmsNorm
import proofs.«137666_j15461882265859_1_alg».proof.Proof.LibLayerNorm
import proofs.«137666_j15461882265859_1_alg».proof.Proof.LibNormExpGate
import proofs.«137666_j15461882265859_1_alg».proof.Proof.LibHostReads
import proofs.«137666_j15461882265859_1_alg».proof.Proof.Cell

noncomputable section

open scoped BigOperators

namespace Cert.Slstm.RefValue

open Idealize.ShloMosaic Idealize.ShloMosaic.ValueIdx Cert.ReferenceIdeal Cert.ReferenceIdeal.Gen
open Cert.RmsNorm Cert.LayerNorm Cert.NormExpGate Cert.Slstm

/-! ## The terms -/

/-- x·Wxᵀ + bx over the whole batch, as the reference spells it. -/
def affX (x0 : FVec Ideal S8192x512 .f32) (x3 : FVec Ideal S4096x512 .f32) (x4 : FVec Ideal S4096 .f32) : FVec Ideal S8192x4096 .f32 :=
  addf (Host.dotGeneral dot_S8192x512_S512x4096_S8192x4096_1_0_0_1_n_n none x0
      (transpose S512x4096 [1, 0] x3 transposes_S4096x512_S512x4096_1_0))
    (broadcastInDim S8192x4096 ![0, 1] bcast_S1x4096_S8192x4096_0_1 (broadcastInDim S1x4096 ![1] bcast_S4096_S1x4096_1 x4))

/-- h·Whᵀ + bh over the whole batch, as the reference spells it. -/
def affH (x1 : FVec Ideal S8192x1024 .f32) (x5 : FVec Ideal S4096x1024 .f32) (x6 : FVec Ideal S4096 .f32) : FVec Ideal S8192x4096 .f32 :=
  addf (Host.dotGeneral dot_S8192x1024_S1024x4096_S8192x4096_1_0_0_1_n_n none x1
      (transpose S1024x4096 [1, 0] x5 transposes_S4096x1024_S1024x4096_1_0))
    (broadcastInDim S8192x4096 ![0, 1] bcast_S1x4096_S8192x4096_0_1 (broadcastInDim S1x4096 ![1] bcast_S4096_S1x4096_1 x6))

/-- The host's layer normalisation over 4096 columns. -/
def ln4 (a : FVec Ideal S8192x4096 .f32) (g b : FVec Ideal S4096 .f32) : FVec Ideal S8192x4096 .f32 :=
  hostLN w4096 wLnEps a g b reducesTo_S8192x4096_S8192_d1 h_S_ bcast_S8192_S8192x1_0 bcast_S_S8192x1 bcast_S8192x1_S8192x4096_0_1
    bcast_S4096_S1x4096_1 bcast_S1x4096_S8192x4096_0_1

/-- The host's layer normalisation over 1024 columns. -/
def ln1 (a : FVec Ideal S8192x1024 .f32) (g b : FVec Ideal S1024 .f32) : FVec Ideal S8192x1024 .f32 :=
  hostLN w1024 wLnEps a g b reducesTo_S8192x1024_S8192_d1 h_S_ bcast_S8192_S8192x1_0 bcast_S_S8192x1 bcast_S8192x1_S8192x1024_0_1
    bcast_S1024_S1x1024_1 bcast_S1x1024_S8192x1024_0_1

/-- The array of pre-activations. -/
def preArr (x0 : FVec Ideal S8192x512 .f32) (x1 : FVec Ideal S8192x1024 .f32) (x3 : FVec Ideal S4096x512 .f32) (x4 : FVec Ideal S4096 .f32)
    (x5 : FVec Ideal S4096x1024 .f32) (x6 x7 x8 x9 x10 : FVec Ideal S4096 .f32) : FVec Ideal S8192x4096 .f32 :=
  addf (ln4 (affX x0 x3 x4) x7 x8) (ln4 (affH x1 x5 x6) x9 x10)

/-- The host's gate of an array of 1024 columns. -/
def hGate (s : FVec Ideal S8192x1024 .f32) : FVec Ideal S8192x1024 .f32 :=
  hostGate w1024 wLo wHi wEps s reducesTo_S8192x1024_S8192_d1 h_S_ bcast_S8192_S8192x1_0 bcast_S_S8192x1
    bcast_S8192x1_S8192x1024_0_1 bcast_S_S8192x1024

/-- The new cell array before its normalisation, from the array of pre-activations and the old cell array. -/
def hNewC (G : FVec Ideal S8192x4096 .f32) (c : FVec Ideal S8192x1024 .f32) : FVec Ideal S8192x1024 .f32 :=
  addf
    (mulf (Host.divf (hGate (extractStridedSlice S8192x1024 ![0, 1024] G slices_S8192x4096_S8192x1024_0_1024))
        (addf (addf (hGate (extractStridedSlice S8192x1024 ![0, 0] G slices_S8192x4096_S8192x1024_0_0))
            (hGate (extractStridedSlice S8192x1024 ![0, 1024] G slices_S8192x4096_S8192x1024_0_1024)))
          (broadcastInDim S8192x1024 ![] bcast_S_S8192x1024 (constant (F := Ideal) S_ .f32 0x358637BD#32)))) c)
    (mulf (Host.divf (hGate (extractStridedSlice S8192x1024 ![0, 0] G slices_S8192x4096_S8192x1024_0_0))
        (addf (addf (hGate (extractStridedSlice S8192x1024 ![0, 0] G slices_S8192x4096_S8192x1024_0_0))
            (hGate (extractStridedSlice S8192x1024 ![0, 1024] G slices_S8192x4096_S8192x1024_0_1024)))
          (broadcastInDim S8192x1024 ![] bcast_S_S8192x1024 (constant (F := Ideal) S_ .f32 0x358637BD#32))))
      (Host.tanh (extractStridedSlice S8192x1024 ![0, 2048] G slices_S8192x4096_S8192x1024_0_2048)))

/-- The cell array the reference returns, as a term of its arguments. -/
def cellRes (x0 : FVec Ideal S8192x512 .f32) (x1 x2 : FVec Ideal S8192x1024 .f32) (x3 : FVec Ideal S4096x512 .f32)
    (x4 : FVec Ideal S4096 .f32) (x5 : FVec Ideal S4096x1024 .f32) (x6 x7 x8 x9 x10 : FVec Ideal S4096 .f32)
    (x11 x12 : FVec Ideal S1024 .f32) : FVec Ideal S8192x1024 .f32 :=
  ln1 (hNewC (preArr x0 x1 x3 x4 x5 x6 x7 x8 x9 x10) x2) x11 x12

/-- 1 / (1 + exp(−s)) entry by entry, as the reference spells it. -/
def sigm (s : FVec Ideal S8192x1024 .f32) : FVec Ideal S8192x1024 .f32 :=
  Host.divf (broadcastInDim S8192x1024 ![] bcast_S_S8192x1024 (constant (F := Ideal) S_ .f32 0x3F800000#32))
    (addf (broadcastInDim S8192x1024 ![] bcast_S_S8192x1024 (constant (F := Ideal) S_ .f32 0x3F800000#32)) (Host.exp (Host.negf s)))

/-- The hidden array the reference returns, as a term of its arguments. -/
def hiddenRes (x0 : FVec Ideal S8192x512 .f32) (x1 x2 : FVec Ideal S8192x1024 .f32) (x3 : FVec Ideal S4096x512 .f32)
    (x4 : FVec Ideal S4096 .f32) (x5 : FVec Ideal S4096x1024 .f32) (x6 x7 x8 x9 x10 : FVec Ideal S4096 .f32)
    (x11 x12 x13 x14 : FVec Ideal S1024 .f32) : FVec Ideal S8192x1024 .f32 :=
  mulf (sigm (extractStridedSlice S8192x1024 ![0, 3072] (preArr x0 x1 x3 x4 x5 x6 x7 x8 x9 x10) slices_S8192x4096_S8192x1024_0_3072))
    (ln1 (Host.tanh (cellRes x0 x1 x2 x3 x4 x5 x6 x7 x8 x9 x10 x11 x12)) x13 x14)

/-! ## Row by row -/

theorem hr4 : S8192x4096.Reduces [1] S8192 := by decide
theorem hr1 : S8192x1024.Reduces [1] S8192 := by decide

theorem dot_x_eq : dot_S8192x512_S512x4096_S8192x4096_1_0_0_1_n_n = DotDims.plain 8192 512 4096 := rfl
theorem dot_h_eq : dot_S8192x1024_S1024x4096_S8192x4096_1_0_0_1_n_n = DotDims.plain 8192 1024 4096 := rfl

/-- Row r of the host's product with a transposed weight array plus a bias vector spread over the rows. -/
theorem affine_row {K : ℕ} (d : DotDims ⟨2, ![8192, K]⟩ ⟨2, ![K, 4096]⟩ ⟨2, ![8192, 4096]⟩) (hd : d = DotDims.plain 8192 K 4096)
    (x : FVec Ideal ⟨2, ![8192, K]⟩ .f32) (w : FVec Ideal ⟨2, ![4096, K]⟩ .f32) (b : FVec Ideal ⟨1, ![4096]⟩ .f32)
    (ht : (⟨2, ![4096, K]⟩ : Shape).Transposes [1, 0] ⟨2, ![K, 4096]⟩)
    (hb1 : (⟨1, ![4096]⟩ : Shape).BroadcastsInDim ⟨2, ![1, 4096]⟩ ![1])
    (hb2 : (⟨2, ![1, 4096]⟩ : Shape).BroadcastsInDim ⟨2, ![8192, 4096]⟩ ![0, 1]) (r : Fin 8192) :
    row (addf (Host.dotGeneral d none x (transpose ⟨2, ![K, 4096]⟩ [1, 0] w ht))
        (broadcastInDim ⟨2, ![8192, 4096]⟩ ![0, 1] hb2 (broadcastInDim ⟨2, ![1, 4096]⟩ ![1] hb1 b))) r
      = affine (row x r) (fun k q => w (ix2 q k)) (vec b) := by
  subst hd
  funext q
  show Host.dotGeneral (F := Ideal) (DotDims.plain 8192 K 4096) none x (transpose ⟨2, ![K, 4096]⟩ [1, 0] w ht) (ix2 r q)
      + broadcastInDim ⟨2, ![8192, 4096]⟩ ![0, 1] hb2 (broadcastInDim ⟨2, ![1, 4096]⟩ ![1] hb1 b) (ix2 r q) = _
  rw [Cert.LibHostReads.dotGeneral_plain_apply, hostRowBroadcast_apply, hostRow_apply]
  refine congrArg (· + vec b q) (Finset.sum_congr rfl fun k _ => ?_)
  refine congrArg (x (ix2 r k) * ·) ?_
  exact transpose_apply [1, 0] w ht (ix2 k q) (ix2 q k) (fun c => match c with
    | ⟨0, _⟩ => rfl
    | ⟨1, _⟩ => rfl)

theorem ln4_row (a : FVec Ideal S8192x4096 .f32) (g b : FVec Ideal S4096 .f32) (r : Fin 8192) :
    row (ln4 a g b) r = rowLN w4096 wLnEps (row a r) (vec g) (vec b) :=
  hostLN_row w4096 wLnEps a g b reducesTo_S8192x4096_S8192_d1 hr4 h_S_ bcast_S8192_S8192x1_0 bcast_S_S8192x1
    bcast_S8192x1_S8192x4096_0_1 bcast_S4096_S1x4096_1 bcast_S1x4096_S8192x4096_0_1 r

theorem ln1_row (a : FVec Ideal S8192x1024 .f32) (g b : FVec Ideal S1024 .f32) (r : Fin 8192) :
    row (ln1 a g b) r = rowLN w1024 wLnEps (row a r) (vec g) (vec b) :=
  hostLN_row w1024 wLnEps a g b reducesTo_S8192x1024_S8192_d1 hr1 h_S_ bcast_S8192_S8192x1_0 bcast_S_S8192x1
    bcast_S8192x1_S8192x1024_0_1 bcast_S1024_S1x1024_1 bcast_S1x1024_S8192x1024_0_1 r

/-- Row r of the array of pre-activations is the cell's pre-activations of row r. -/
theorem pre_row (x0 : FVec Ideal S8192x512 .f32) (x1 x2 : FVec Ideal S8192x1024 .f32) (x3 : FVec Ideal S4096x512 .f32)
    (x4 : FVec Ideal S4096 .f32) (x5 : FVec Ideal S4096x1024 .f32) (x6 x7 x8 x9 x10 : FVec Ideal S4096 .f32)
    (x11 x12 x13 x14 : FVec Ideal S1024 .f32) (r : Fin 8192) :
    row (preArr x0 x1 x3 x4 x5 x6 x7 x8 x9 x10) r = pre (arrParams x3 x4 x5 x6 x7 x8 x9 x10 x11 x12 x13 x14) (row x0 r) (row x1 r) := by
  unfold preArr
  rw [row_addf, ln4_row, ln4_row]
  unfold affX affH
  rw [affine_row _ dot_x_eq, affine_row _ dot_h_eq]
  rfl

/-- Row r of the slice of columns off … off + 1023 of the array is that part of row r. -/
theorem slice_row (off : ℕ) (h : off + 1024 ≤ 4096) (G : FVec Ideal S8192x4096 .f32) (hs : S8192x4096.Slices ![0, off] S8192x1024)
    (r : Fin 8192) : row (extractStridedSlice S8192x1024 ![0, off] G hs) r = part off h (row G r) := by
  funext q
  refine extractStridedSlice_apply ![0, off] G hs (ix2 r q) (ix2 r ⟨off + q.val, by have := q.isLt; omega⟩) fun a => ?_
  match a with
  | ⟨0, _⟩ => show r.val = 0 + r.val; omega
  | ⟨1, _⟩ => rfl

theorem hGate_row (s : FVec Ideal S8192x1024 .f32) (r : Fin 8192) : row (hGate s) r = gate w1024 wLo wHi wEps (row s r) :=
  hostGate_row w1024 wLo wHi wEps s reducesTo_S8192x1024_S8192_d1 hr1 h_S_ bcast_S8192_S8192x1_0 bcast_S_S8192x1
    bcast_S8192x1_S8192x1024_0_1 bcast_S_S8192x1024 r

theorem hNewC_row (G : FVec Ideal S8192x4096 .f32) (c : FVec Ideal S8192x1024 .f32) (r : Fin 8192) :
    row (hNewC G c) r = cNew (row G r) (row c r) := by
  have hI : row (hGate (extractStridedSlice S8192x1024 ![0, 0] G slices_S8192x4096_S8192x1024_0_0)) r = iGate (row G r) := by
    rw [hGate_row, slice_row 0 (by omega)]; rfl
  have hF : row (hGate (extractStridedSlice S8192x1024 ![0, 1024] G slices_S8192x4096_S8192x1024_0_1024)) r = fGate (row G r) := by
    rw [hGate_row, slice_row 1024 (by omega)]; rfl
  have h2 : row (extractStridedSlice S8192x1024 ![0, 2048] G slices_S8192x4096_S8192x1024_0_2048) r = part 2048 (by omega) (row G r) :=
    slice_row 2048 (by omega) G _ r
  funext q
  have he : broadcastInDim S8192x1024 ![] bcast_S_S8192x1024 (constant (F := Ideal) S_ .f32 0x358637BD#32) (ix2 r q)
      = Ideal.ofBits .f32 0x358637BD#32 := scalarBroadcast_apply _ bcast_S_S8192x1024 (ix2 r q)
  show Ideal.div (row (hGate (extractStridedSlice S8192x1024 ![0, 1024] G slices_S8192x4096_S8192x1024_0_1024)) r q)
        (row (hGate (extractStridedSlice S8192x1024 ![0, 0] G slices_S8192x4096_S8192x1024_0_0)) r q
          + row (hGate (extractStridedSlice S8192x1024 ![0, 1024] G slices_S8192x4096_S8192x1024_0_1024)) r q
          + broadcastInDim S8192x1024 ![] bcast_S_S8192x1024 (constant (F := Ideal) S_ .f32 0x358637BD#32) (ix2 r q)) * row c r q
      + Ideal.div (row (hGate (extractStridedSlice S8192x1024 ![0, 0] G slices_S8192x4096_S8192x1024_0_0)) r q)
        (row (hGate (extractStridedSlice S8192x1024 ![0, 0] G slices_S8192x4096_S8192x1024_0_0)) r q
          + row (hGate (extractStridedSlice S8192x1024 ![0, 1024] G slices_S8192x4096_S8192x1024_0_1024)) r q
          + broadcastInDim S8192x1024 ![] bcast_S_S8192x1024 (constant (F := Ideal) S_ .f32 0x358637BD#32) (ix2 r q))
        * Ideal.tanh (row (extractStridedSlice S8192x1024 ![0, 2048] G slices_S8192x4096_S8192x1024_0_2048) r q) = _
  rw [he, hI, hF, h2]
  rfl

/-- Row r of the cell array the reference returns. -/
theorem cell_row (x0 : FVec Ideal S8192x512 .f32) (x1 x2 : FVec Ideal S8192x1024 .f32) (x3 : FVec Ideal S4096x512 .f32)
    (x4 : FVec Ideal S4096 .f32) (x5 : FVec Ideal S4096x1024 .f32) (x6 x7 x8 x9 x10 : FVec Ideal S4096 .f32)
    (x11 x12 x13 x14 : FVec Ideal S1024 .f32) (r : Fin 8192) :
    row (cellRes x0 x1 x2 x3 x4 x5 x6 x7 x8 x9 x10 x11 x12) r = cOut (arrParams x3 x4 x5 x6 x7 x8 x9 x10 x11 x12 x13 x14) (row x0 r) (row x1 r) (row x2 r) := by
  unfold cellRes
  rw [ln1_row, hNewC_row, pre_row x0 x1 x2 x3 x4 x5 x6 x7 x8 x9 x10 x11 x12 x13 x14 r]
  rfl

/-- The reference's output gate is the logistic function, entry by entry. -/
theorem sigm_apply (s : FVec Ideal S8192x1024 .f32) (i : S8192x1024.Idx) : sigm s i = Ideal.logistic (s i) := by
  have h1 : broadcastInDim S8192x1024 ![] bcast_S_S8192x1024 (constant (F := Ideal) S_ .f32 0x3F800000#32) i = 1 :=
    (scalarBroadcast_apply _ bcast_S_S8192x1024 i).trans Ideal.ofBits_one_f32
  show Ideal.div (broadcastInDim S8192x1024 ![] bcast_S_S8192x1024 (constant (F := Ideal) S_ .f32 0x3F800000#32) i)
      (broadcastInDim S8192x1024 ![] bcast_S_S8192x1024 (constant (F := Ideal) S_ .f32 0x3F800000#32) i + Ideal.exp (-(s i))) = _
  rw [h1]
  rfl

/-- Row r of the hidden array the reference returns. -/
theorem hidden_row (x0 : FVec Ideal S8192x512 .f32) (x1 x2 : FVec Ideal S8192x1024 .f32) (x3 : FVec Ideal S4096x512 .f32)
    (x4 : FVec Ideal S4096 .f32) (x5 : FVec Ideal S4096x1024 .f32) (x6 x7 x8 x9 x10 : FVec Ideal S4096 .f32)
    (x11 x12 x13 x14 : FVec Ideal S1024 .f32) (r : Fin 8192) :
    row (hiddenRes x0 x1 x2 x3 x4 x5 x6 x7 x8 x9 x10 x11 x12 x13 x14) r
      = hOut (arrParams x3 x4 x5 x6 x7 x8 x9 x10 x11 x12 x13 x14) (row x0 r) (row x1 r) (row x2 r) := by
  have h3 : row (extractStridedSlice S8192x1024 ![0, 3072] (preArr x0 x1 x3 x4 x5 x6 x7 x8 x9 x10) slices_S8192x4096_S8192x1024_0_3072) r
      = part 3072 (by omega) (pre (arrParams x3 x4 x5 x6 x7 x8 x9 x10 x11 x12 x13 x14) (row x0 r) (row x1 r)) := by
    rw [slice_row 3072 (by omega), pre_row x0 x1 x2 x3 x4 x5 x6 x7 x8 x9 x10 x11 x12 x13 x14 r]
  have hc : row (Host.tanh (cellRes x0 x1 x2 x3 x4 x5 x6 x7 x8 x9 x10 x11 x12)) r
      = fun k => Ideal.tanh (cOut (arrParams x3 x4 x5 x6 x7 x8 x9 x10 x11 x12 x13 x14) (row x0 r) (row x1 r) (row x2 r) k) := by
    funext k
    show Ideal.tanh (row (cellRes x0 x1 x2 x3 x4 x5 x6 x7 x8 x9 x10 x11 x12) r k) = _
    rw [cell_row x0 x1 x2 x3 x4 x5 x6 x7 x8 x9 x10 x11 x12 x13 x14 r]
  unfold hiddenRes
  funext q
  show sigm (extractStridedSlice S8192x1024 ![0, 3072] (preArr x0 x1 x3 x4 x5 x6 x7 x8 x9 x10) slices_S8192x4096_S8192x1024_0_3072) (ix2 r q)
      * row (ln1 (Host.tanh (cellRes x0 x1 x2 x3 x4 x5 x6 x7 x8 x9 x10 x11 x12)) x13 x14) r q = _
  rw [sigm_apply, ln1_row, hc]
  show Ideal.logistic (row (extractStridedSlice S8192x1024 ![0, 3072] (preArr x0 x1 x3 x4 x5 x6 x7 x8 x9 x10) slices_S8192x4096_S8192x1024_0_3072) r q) * _ = _
  rw [h3]
  rfl

/-- The cell array the reference returns is the cell array of the batch. -/
theorem cell_eq (x0 : FVec Ideal S8192x512 .f32) (x1 x2 : FVec Ideal S8192x1024 .f32) (x3 : FVec Ideal S4096x512 .f32)
    (x4 : FVec Ideal S4096 .f32) (x5 : FVec Ideal S4096x1024 .f32) (x6 x7 x8 x9 x10 : FVec Ideal S4096 .f32)
    (x11 x12 x13 x14 : FVec Ideal S1024 .f32) :
    cellRes x0 x1 x2 x3 x4 x5 x6 x7 x8 x9 x10 x11 x12 = cellArr (arrParams x3 x4 x5 x6 x7 x8 x9 x10 x11 x12 x13 x14) x0 x1 x2 := by
  funext i
  obtain ⟨r, q, rfl⟩ : ∃ (r : Fin 8192) (q : Fin 1024), i = ix2 r q := ⟨i 0, i 1, eq_ix2 i⟩
  exact congrFun (cell_row x0 x1 x2 x3 x4 x5 x6 x7 x8 x9 x10 x11 x12 x13 x14 r) q

/-- The hidden array the reference returns is the hidden array of the batch. -/
theorem hidden_eq (x0 : FVec Ideal S8192x512 .f32) (x1 x2 : FVec Ideal S8192x1024 .f32) (x3 : FVec Ideal S4096x512 .f32)
    (x4 : FVec Ideal S4096 .f32) (x5 : FVec Ideal S4096x1024 .f32) (x6 x7 x8 x9 x10 : FVec Ideal S4096 .f32)
    (x11 x12 x13 x14 : FVec Ideal S1024 .f32) :
    hiddenRes x0 x1 x2 x3 x4 x5 x6 x7 x8 x9 x10 x11 x12 x13 x14 = hiddenArr (arrParams x3 x4 x5 x6 x7 x8 x9 x10 x11 x12 x13 x14) x0 x1 x2 := by
  funext i
  obtain ⟨r, q, rfl⟩ : ∃ (r : Fin 8192) (q : Fin 1024), i = ix2 r q := ⟨i 0, i 1, eq_ix2 i⟩
  exact congrFun (hidden_row x0 x1 x2 x3 x4 x5 x6 x7 x8 x9 x10 x11 x12 x13 x14 r) q

end Cert.Slstm.RefValue

end
-- ==== Proof.RefRun.lean ====
/-
  The reference's run: its @main is a straight line of 204 host operations (the two clamps' six operations each stand
  in their calls' places), so every weakly fair execution terminates with each buffer at the operations' results
  folded over the launch contents. Read at the two result buffers, that fold is the pair of whole-array terms of
  RefValue.lean — the same operations in the same order, grouped into the normalisations, the gates and the products
  they make up —, and the arguments are as launched.
-/
import proofs.«137666_j15461882265859_1_alg».proof.Proof.Gen.ReferenceIdeal
import Idealize.ShloMosaic.Lib.StableHlo.Run
import proofs.«137666_j15461882265859_1_alg».proof.Proof.RefValue

noncomputable section

namespace Cert.Slstm.RefRun

open Cert.ReferenceIdeal Cert.ReferenceIdeal.Gen Idealize.ShloMosaic Idealize.ShloMosaic.TcCoe Idealize.SL.Sem Idealize.ShloMosaic.StableHlo
open Cert.Slstm.RefValue

variable {F : FTy → Type} [FloatOps F]

/-- @main's operations, in order. -/
abbrev ops : List (HloOp τ sig (Elt F)) :=
  [ unary main_arg3 main_v0 ((transpose S512x4096 [1, 0] · transposes_S4096x512_S512x4096_1_0) : (⟨S4096x512, .f32⟩ : BufTy).Contents (Elt F) → (⟨S512x4096, .f32⟩ : BufTy).Contents (Elt F)),
    binary main_arg0 main_v0 main_v1 ((fun l r => Host.dotGeneral dot_S8192x512_S512x4096_S8192x4096_1_0_0_1_n_n none l r) : (⟨S8192x512, .f32⟩ : BufTy).Contents (Elt F) → (⟨S512x4096, .f32⟩ : BufTy).Contents (Elt F) → (⟨S8192x4096, .f32⟩ : BufTy).Contents (Elt F)),
    unary main_arg4 main_v2 (broadcastInDim S1x4096 ![1] bcast_S4096_S1x4096_1 : (⟨S4096, .f32⟩ : BufTy).Contents (Elt F) → (⟨S1x4096, .f32⟩ : BufTy).Contents (Elt F)),
    unary main_v2 main_v3 (broadcastInDim S8192x4096 ![0, 1] bcast_S1x4096_S8192x4096_0_1 : (⟨S1x4096, .f32⟩ : BufTy).Contents (Elt F) → (⟨S8192x4096, .f32⟩ : BufTy).Contents (Elt F)),
    binary main_v1 main_v3 main_v4 (addf : (⟨S8192x4096, .f32⟩ : BufTy).Contents (Elt F) → (⟨S8192x4096, .f32⟩ : BufTy).Contents (Elt F) → (⟨S8192x4096, .f32⟩ : BufTy).Contents (Elt F)),
    nullary main_cst (constant S_ .f32 0x00000000#32),
    binary main_v4 main_cst main_v5 ((fun x v => Host.reduceAdd x v reducesTo_S8192x4096_S8192_d1 h_S_) : (⟨S8192x4096, .f32⟩ : BufTy).Contents (Elt F) → (⟨S_, .f32⟩ : BufTy).Contents (Elt F) → (⟨S8192, .f32⟩ : BufTy).Contents (Elt F)),
    unary main_v5 main_v6 (broadcastInDim S8192x1 ![0] bcast_S8192_S8192x1_0 : (⟨S8192, .f32⟩ : BufTy).Contents (Elt F) → (⟨S8192x1, .f32⟩ : BufTy).Contents (Elt F)),
    nullary main_cst_0 (constant S_ .f32 0x45800000#32),
    unary main_cst_0 main_v7 (broadcastInDim S8192x1 ![] bcast_S_S8192x1 : (⟨S_, .f32⟩ : BufTy).Contents (Elt F) → (⟨S8192x1, .f32⟩ : BufTy).Contents (Elt F)),
    binary main_v6 main_v7 main_v8 (Host.divf : (⟨S8192x1, .f32⟩ : BufTy).Contents (Elt F) → (⟨S8192x1, .f32⟩ : BufTy).Contents (Elt F) → (⟨S8192x1, .f32⟩ : BufTy).Contents (Elt F)),
    unary main_v8 main_v9 (broadcastInDim S8192x4096 ![0, 1] bcast_S8192x1_S8192x4096_0_1 : (⟨S8192x1, .f32⟩ : BufTy).Contents (Elt F) → (⟨S8192x4096, .f32⟩ : BufTy).Contents (Elt F)),
    binary main_v4 main_v9 main_v10 (subf : (⟨S8192x4096, .f32⟩ : BufTy).Contents (Elt F) → (⟨S8192x4096, .f32⟩ : BufTy).Contents (Elt F) → (⟨S8192x4096, .f32⟩ : BufTy).Contents (Elt F)),
    binary main_v10 main_v10 main_v11 (mulf : (⟨S8192x4096, .f32⟩ : BufTy).Contents (Elt F) → (⟨S8192x4096, .f32⟩ : BufTy).Contents (Elt F) → (⟨S8192x4096, .f32⟩ : BufTy).Contents (Elt F)),
    nullary main_cst_1 (constant S_ .f32 0x00000000#32),
    binary main_v11 main_cst_1 main_v12 ((fun x v => Host.reduceAdd x v reducesTo_S8192x4096_S8192_d1 h_S_) : (⟨S8192x4096, .f32⟩ : BufTy).Contents (Elt F) → (⟨S_, .f32⟩ : BufTy).Contents (Elt F) → (⟨S8192, .f32⟩ : BufTy).Contents (Elt F)),
    unary main_v12 main_v13 (broadcastInDim S8192x1 ![0] bcast_S8192_S8192x1_0 : (⟨S8192, .f32⟩ : BufTy).Contents (Elt F) → (⟨S8192x1, .f32⟩ : BufTy).Contents (Elt F)),
    nullary main_cst_2 (constant S_ .f32 0x45800000#32),
    unary main_cst_2 main_v14 (broadcastInDim S8192x1 ![] bcast_S_S8192x1 : (⟨S_, .f32⟩ : BufTy).Contents (Elt F) → (⟨S8192x1, .f32⟩ : BufTy).Contents (Elt F)),
    binary main_v13 main_v14 main_v15 (Host.divf : (⟨S8192x1, .f32⟩ : BufTy).Contents (Elt F) → (⟨S8192x1, .f32⟩ : BufTy).Contents (Elt F) → (⟨S8192x1, .f32⟩ : BufTy).Contents (Elt F)),
    unary main_v8 main_v16 (broadcastInDim S8192x4096 ![0, 1] bcast_S8192x1_S8192x4096_0_1 : (⟨S8192x1, .f32⟩ : BufTy).Contents (Elt F) → (⟨S8192x4096, .f32⟩ : BufTy).Contents (Elt F)),
    binary main_v4 main_v16 main_v17 (subf : (⟨S8192x4096, .f32⟩ : BufTy).Contents (Elt F) → (⟨S8192x4096, .f32⟩ : BufTy).Contents (Elt F) → (⟨S8192x4096, .f32⟩ : BufTy).Contents (Elt F)),
    nullary main_cst_3 (constant S_ .f32 0x3727C5AC#32),
    unary main_cst_3 main_v18 (broadcastInDim S8192x1 ![] bcast_S_S8192x1 : (⟨S_, .f32⟩ : BufTy).Contents (Elt F) → (⟨S8192x1, .f32⟩ : BufTy).Contents (Elt F)),
    binary main_v15 main_v18 main_v19 (addf : (⟨S8192x1, .f32⟩ : BufTy).Contents (Elt F) → (⟨S8192x1, .f32⟩ : BufTy).Contents (Elt F) → (⟨S8192x1, .f32⟩ : BufTy).Contents (Elt F)),
    unary main_v19 main_v20 (Host.rsqrt : (⟨S8192x1, .f32⟩ : BufTy).Contents (Elt F) → (⟨S8192x1, .f32⟩ : BufTy).Contents (Elt F)),
    unary main_v20 main_v21 (broadcastInDim S8192x4096 ![0, 1] bcast_S8192x1_S8192x4096_0_1 : (⟨S8192x1, .f32⟩ : BufTy).Contents (Elt F) → (⟨S8192x4096, .f32⟩ : BufTy).Contents (Elt F)),
    binary main_v17 main_v21 main_v22 (mulf : (⟨S8192x4096, .f32⟩ : BufTy).Contents (Elt F) → (⟨S8192x4096, .f32⟩ : BufTy).Contents (Elt F) → (⟨S8192x4096, .f32⟩ : BufTy).Contents (Elt F)),
    unary main_arg7 main_v23 (broadcastInDim S1x4096 ![1] bcast_S4096_S1x4096_1 : (⟨S4096, .f32⟩ : BufTy).Contents (Elt F) → (⟨S1x4096, .f32⟩ : BufTy).Contents (Elt F)),
    unary main_v23 main_v24 (broadcastInDim S8192x4096 ![0, 1] bcast_S1x4096_S8192x4096_0_1 : (⟨S1x4096, .f32⟩ : BufTy).Contents (Elt F) → (⟨S8192x4096, .f32⟩ : BufTy).Contents (Elt F)),
    binary main_v22 main_v24 main_v25 (mulf : (⟨S8192x4096, .f32⟩ : BufTy).Contents (Elt F) → (⟨S8192x4096, .f32⟩ : BufTy).Contents (Elt F) → (⟨S8192x4096, .f32⟩ : BufTy).Contents (Elt F)),
    unary main_arg8 main_v26 (broadcastInDim S1x4096 ![1] bcast_S4096_S1x4096_1 : (⟨S4096, .f32⟩ : BufTy).Contents (Elt F) → (⟨S1x4096, .f32⟩ : BufTy).Contents (Elt F)),
    unary main_v26 main_v27 (broadcastInDim S8192x4096 ![0, 1] bcast_S1x4096_S8192x4096_0_1 : (⟨S1x4096, .f32⟩ : BufTy).Contents (Elt F) → (⟨S8192x4096, .f32⟩ : BufTy).Contents (Elt F)),
    binary main_v25 main_v27 main_v28 (addf : (⟨S8192x4096, .f32⟩ : BufTy).Contents (Elt F) → (⟨S8192x4096, .f32⟩ : BufTy).Contents (Elt F) → (⟨S8192x4096, .f32⟩ : BufTy).Contents (Elt F)),
    unary main_arg5 main_v29 ((transpose S1024x4096 [1, 0] · transposes_S4096x1024_S1024x4096_1_0) : (⟨S4096x1024, .f32⟩ : BufTy).Contents (Elt F) → (⟨S1024x4096, .f32⟩ : BufTy).Contents (Elt F)),
    binary main_arg1 main_v29 main_v30 ((fun l r => Host.dotGeneral dot_S8192x1024_S1024x4096_S8192x4096_1_0_0_1_n_n none l r) : (⟨S8192x1024, .f32⟩ : BufTy).Contents (Elt F) → (⟨S1024x4096, .f32⟩ : BufTy).Contents (Elt F) → (⟨S8192x4096, .f32⟩ : BufTy).Contents (Elt F)),
    unary main_arg6 main_v31 (broadcastInDim S1x4096 ![1] bcast_S4096_S1x4096_1 : (⟨S4096, .f32⟩ : BufTy).Contents (Elt F) → (⟨S1x4096, .f32⟩ : BufTy).Contents (Elt F)),
    unary main_v31 main_v32 (broadcastInDim S8192x4096 ![0, 1] bcast_S1x4096_S8192x4096_0_1 : (⟨S1x4096, .f32⟩ : BufTy).Contents (Elt F) → (⟨S8192x4096, .f32⟩ : BufTy).Contents (Elt F)),
    binary main_v30 main_v32 main_v33 (addf : (⟨S8192x4096, .f32⟩ : BufTy).Contents (Elt F) → (⟨S8192x4096, .f32⟩ : BufTy).Contents (Elt F) → (⟨S8192x4096, .f32⟩ : BufTy).Contents (Elt F)),
    nullary main_cst_4 (constant S_ .f32 0x00000000#32),
    binary main_v33 main_cst_4 main_v34 ((fun x v => Host.reduceAdd x v reducesTo_S8192x4096_S8192_d1 h_S_) : (⟨S8192x4096, .f32⟩ : BufTy).Contents (Elt F) → (⟨S_, .f32⟩ : BufTy).Contents (Elt F) → (⟨S8192, .f32⟩ : BufTy).Contents (Elt F)),
    unary main_v34 main_v35 (broadcastInDim S8192x1 ![0] bcast_S8192_S8192x1_0 : (⟨S8192, .f32⟩ : BufTy).Contents (Elt F) → (⟨S8192x1, .f32⟩ : BufTy).Contents (Elt F)),
    nullary main_cst_5 (constant S_ .f32 0x45800000#32),
    unary main_cst_5 main_v36 (broadcastInDim S8192x1 ![] bcast_S_S8192x1 : (⟨S_, .f32⟩ : BufTy).Contents (Elt F) → (⟨S8192x1, .f32⟩ : BufTy).Contents (Elt F)),
    binary main_v35 main_v36 main_v37 (Host.divf : (⟨S8192x1, .f32⟩ : BufTy).Contents (Elt F) → (⟨S8192x1, .f32⟩ : BufTy).Contents (Elt F) → (⟨S8192x1, .f32⟩ : BufTy).Contents (Elt F)),
    unary main_v37 main_v38 (broadcastInDim S8192x4096 ![0, 1] bcast_S8192x1_S8192x4096_0_1 : (⟨S8192x1, .f32⟩ : BufTy).Contents (Elt F) → (⟨S8192x4096, .f32⟩ : BufTy).Contents (Elt F)),
    binary main_v33 main_v38 main_v39 (subf : (⟨S8192x4096, .f32⟩ : BufTy).Contents (Elt F) → (⟨S8192x4096, .f32⟩ : BufTy).Contents (Elt F) → (⟨S8192x4096, .f32⟩ : BufTy).Contents (Elt F)),
    binary main_v39 main_v39 main_v40 (mulf : (⟨S8192x4096, .f32⟩ : BufTy).Contents (Elt F) → (⟨S8192x4096, .f32⟩ : BufTy).Contents (Elt F) → (⟨S8192x4096, .f32⟩ : BufTy).Contents (Elt F)),
    nullary main_cst_6 (constant S_ .f32 0x00000000#32),
    binary main_v40 main_cst_6 main_v41 ((fun x v => Host.reduceAdd x v reducesTo_S8192x4096_S8192_d1 h_S_) : (⟨S8192x4096, .f32⟩ : BufTy).Contents (Elt F) → (⟨S_, .f32⟩ : BufTy).Contents (Elt F) → (⟨S8192, .f32⟩ : BufTy).Contents (Elt F)),
    unary main_v41 main_v42 (broadcastInDim S8192x1 ![0] bcast_S8192_S8192x1_0 : (⟨S8192, .f32⟩ : BufTy).Contents (Elt F) → (⟨S8192x1, .f32⟩ : BufTy).Contents (Elt F)),
    nullary main_cst_7 (constant S_ .f32 0x45800000#32),
    unary main_cst_7 main_v43 (broadcastInDim S8192x1 ![] bcast_S_S8192x1 : (⟨S_, .f32⟩ : BufTy).Contents (Elt F) → (⟨S8192x1, .f32⟩ : BufTy).Contents (Elt F)),
    binary main_v42 main_v43 main_v44 (Host.divf : (⟨S8192x1, .f32⟩ : BufTy).Contents (Elt F) → (⟨S8192x1, .f32⟩ : BufTy).Contents (Elt F) → (⟨S8192x1, .f32⟩ : BufTy).Contents (Elt F)),
    unary main_v37 main_v45 (broadcastInDim S8192x4096 ![0, 1] bcast_S8192x1_S8192x4096_0_1 : (⟨S8192x1, .f32⟩ : BufTy).Contents (Elt F) → (⟨S8192x4096, .f32⟩ : BufTy).Contents (Elt F)),
    binary main_v33 main_v45 main_v46 (subf : (⟨S8192x4096, .f32⟩ : BufTy).Contents (Elt F) → (⟨S8192x4096, .f32⟩ : BufTy).Contents (Elt F) → (⟨S8192x4096, .f32⟩ : BufTy).Contents (Elt F)),
    nullary main_cst_8 (constant S_ .f32 0x3727C5AC#32),
    unary main_cst_8 main_v47 (broadcastInDim S8192x1 ![] bcast_S_S8192x1 : (⟨S_, .f32⟩ : BufTy).Contents (Elt F) → (⟨S8192x1, .f32⟩ : BufTy).Contents (Elt F)),
    binary main_v44 main_v47 main_v48 (addf : (⟨S8192x1, .f32⟩ : BufTy).Contents (Elt F) → (⟨S8192x1, .f32⟩ : BufTy).Contents (Elt F) → (⟨S8192x1, .f32⟩ : BufTy).Contents (Elt F)),
    unary main_v48 main_v49 (Host.rsqrt : (⟨S8192x1, .f32⟩ : BufTy).Contents (Elt F) → (⟨S8192x1, .f32⟩ : BufTy).Contents (Elt F)),
    unary main_v49 main_v50 (broadcastInDim S8192x4096 ![0, 1] bcast_S8192x1_S8192x4096_0_1 : (⟨S8192x1, .f32⟩ : BufTy).Contents (Elt F) → (⟨S8192x4096, .f32⟩ : BufTy).Contents (Elt F)),
    binary main_v46 main_v50 main_v51 (mulf : (⟨S8192x4096, .f32⟩ : BufTy).Contents (Elt F) → (⟨S8192x4096, .f32⟩ : BufTy).Contents (Elt F) → (⟨S8192x4096, .f32⟩ : BufTy).Contents (Elt F)),
    unary main_arg9 main_v52 (broadcastInDim S1x4096 ![1] bcast_S4096_S1x4096_1 : (⟨S4096, .f32⟩ : BufTy).Contents (Elt F) → (⟨S1x4096, .f32⟩ : BufTy).Contents (Elt F)),
    unary main_v52 main_v53 (broadcastInDim S8192x4096 ![0, 1] bcast_S1x4096_S8192x4096_0_1 : (⟨S1x4096, .f32⟩ : BufTy).Contents (Elt F) → (⟨S8192x4096, .f32⟩ : BufTy).Contents (Elt F)),
    binary main_v51 main_v53 main_v54 (mulf : (⟨S8192x4096, .f32⟩ : BufTy).Contents (Elt F) → (⟨S8192x4096, .f32⟩ : BufTy).Contents (Elt F) → (⟨S8192x4096, .f32⟩ : BufTy).Contents (Elt F)),
    unary main_arg10 main_v55 (broadcastInDim S1x4096 ![1] bcast_S4096_S1x4096_1 : (⟨S4096, .f32⟩ : BufTy).Contents (Elt F) → (⟨S1x4096, .f32⟩ : BufTy).Contents (Elt F)),
    unary main_v55 main_v56 (broadcastInDim S8192x4096 ![0, 1] bcast_S1x4096_S8192x4096_0_1 : (⟨S1x4096, .f32⟩ : BufTy).Contents (Elt F) → (⟨S8192x4096, .f32⟩ : BufTy).Contents (Elt F)),
    binary main_v54 main_v56 main_v57 (addf : (⟨S8192x4096, .f32⟩ : BufTy).Contents (Elt F) → (⟨S8192x4096, .f32⟩ : BufTy).Contents (Elt F) → (⟨S8192x4096, .f32⟩ : BufTy).Contents (Elt F)),
    binary main_v28 main_v57 main_v58 (addf : (⟨S8192x4096, .f32⟩ : BufTy).Contents (Elt F) → (⟨S8192x4096, .f32⟩ : BufTy).Contents (Elt F) → (⟨S8192x4096, .f32⟩ : BufTy).Contents (Elt F)),
    unary main_v58 main_v59 ((extractStridedSlice S8192x1024 ![0, 0] · slices_S8192x4096_S8192x1024_0_0) : (⟨S8192x4096, .f32⟩ : BufTy).Contents (Elt F) → (⟨S8192x1024, .f32⟩ : BufTy).Contents (Elt F)),
    unary main_v58 main_v60 ((extractStridedSlice S8192x1024 ![0, 1024] · slices_S8192x4096_S8192x1024_0_1024) : (⟨S8192x4096, .f32⟩ : BufTy).Contents (Elt F) → (⟨S8192x1024, .f32⟩ : BufTy).Contents (Elt F)),
    unary main_v58 main_v61 ((extractStridedSlice S8192x1024 ![0, 2048] · slices_S8192x4096_S8192x1024_0_2048) : (⟨S8192x4096, .f32⟩ : BufTy).Contents (Elt F) → (⟨S8192x1024, .f32⟩ : BufTy).Contents (Elt F)),
    unary main_v58 main_v62 ((extractStridedSlice S8192x1024 ![0, 3072] · slices_S8192x4096_S8192x1024_0_3072) : (⟨S8192x4096, .f32⟩ : BufTy).Contents (Elt F) → (⟨S8192x1024, .f32⟩ : BufTy).Contents (Elt F)),
    nullary main_cst_9 (constant S_ .f32 0x00000000#32),
    binary main_v59 main_cst_9 main_v63 ((fun x v => Host.reduceAdd x v reducesTo_S8192x1024_S8192_d1 h_S_) : (⟨S8192x1024, .f32⟩ : BufTy).Contents (Elt F) → (⟨S_, .f32⟩ : BufTy).Contents (Elt F) → (⟨S8192, .f32⟩ : BufTy).Contents (Elt F)),
    unary main_v63 main_v64 (broadcastInDim S8192x1 ![0] bcast_S8192_S8192x1_0 : (⟨S8192, .f32⟩ : BufTy).Contents (Elt F) → (⟨S8192x1, .f32⟩ : BufTy).Contents (Elt F)),
    nullary main_cst_10 (constant S_ .f32 0x44800000#32),
    unary main_cst_10 main_v65 (broadcastInDim S8192x1 ![] bcast_S_S8192x1 : (⟨S_, .f32⟩ : BufTy).Contents (Elt F) → (⟨S8192x1, .f32⟩ : BufTy).Contents (Elt F)),
    binary main_v64 main_v65 main_v66 (Host.divf : (⟨S8192x1, .f32⟩ : BufTy).Contents (Elt F) → (⟨S8192x1, .f32⟩ : BufTy).Contents (Elt F) → (⟨S8192x1, .f32⟩ : BufTy).Contents (Elt F)),
    unary main_v66 main_v67 (broadcastInDim S8192x1024 ![0, 1] bcast_S8192x1_S8192x1024_0_1 : (⟨S8192x1, .f32⟩ : BufTy).Contents (Elt F) → (⟨S8192x1024, .f32⟩ : BufTy).Contents (Elt F)),
    binary main_v59 main_v67 main_v68 (subf : (⟨S8192x1024, .f32⟩ : BufTy).Contents (Elt F) → (⟨S8192x1024, .f32⟩ : BufTy).Contents (Elt F) → (⟨S8192x1024, .f32⟩ : BufTy).Contents (Elt F)),
    nullary main_cst_11 (constant S_ .f32 0xC0A00000#32),
    nullary main_cst_12 (constant S_ .f32 0x40A00000#32),
    TRef.unary (TRef.of (T := ⟨S_, .f32⟩) main_cst_11) (TRef.of (T := ⟨S_, .f32⟩) main_call0_v0) id,
    TRef.unary (TRef.of (T := ⟨S_, .f32⟩) main_call0_v0) (TRef.of (T := ⟨S8192x1024, .f32⟩) main_call0_v1) (broadcastInDim S8192x1024 ![] bcast_S_S8192x1024),
    TRef.binary (TRef.of (T := ⟨S8192x1024, .f32⟩) main_call0_v1) (TRef.of (T := ⟨S8192x1024, .f32⟩) main_v68) (TRef.of (T := ⟨S8192x1024, .f32⟩) main_call0_v2) maximumf,
    TRef.unary (TRef.of (T := ⟨S_, .f32⟩) main_cst_12) (TRef.of (T := ⟨S_, .f32⟩) main_call0_v3) id,
    TRef.unary (TRef.of (T := ⟨S_, .f32⟩) main_call0_v3) (TRef.of (T := ⟨S8192x1024, .f32⟩) main_call0_v4) (broadcastInDim S8192x1024 ![] bcast_S_S8192x1024),
    TRef.binary (TRef.of (T := ⟨S8192x1024, .f32⟩) main_call0_v4) (TRef.of (T := ⟨S8192x1024, .f32⟩) main_call0_v2) (TRef.of (T := ⟨S8192x1024, .f32⟩) main_v69) minimumf,
    unary main_v69 main_v70 (Host.exp : (⟨S8192x1024, .f32⟩ : BufTy).Contents (Elt F) → (⟨S8192x1024, .f32⟩ : BufTy).Contents (Elt F)),
    nullary main_cst_13 (constant S_ .f32 0x00000000#32),
    binary main_v70 main_cst_13 main_v71 ((fun x v => Host.reduceAdd x v reducesTo_S8192x1024_S8192_d1 h_S_) : (⟨S8192x1024, .f32⟩ : BufTy).Contents (Elt F) → (⟨S_, .f32⟩ : BufTy).Contents (Elt F) → (⟨S8192, .f32⟩ : BufTy).Contents (Elt F)),
    unary main_v71 main_v72 (broadcastInDim S8192x1 ![0] bcast_S8192_S8192x1_0 : (⟨S8192, .f32⟩ : BufTy).Contents (Elt F) → (⟨S8192x1, .f32⟩ : BufTy).Contents (Elt F)),
    nullary main_cst_14 (constant S_ .f32 0x358637BD#32),
    unary main_cst_14 main_v73 (broadcastInDim S8192x1 ![] bcast_S_S8192x1 : (⟨S_, .f32⟩ : BufTy).Contents (Elt F) → (⟨S8192x1, .f32⟩ : BufTy).Contents (Elt F)),
    binary main_v72 main_v73 main_v74 (addf : (⟨S8192x1, .f32⟩ : BufTy).Contents (Elt F) → (⟨S8192x1, .f32⟩ : BufTy).Contents (Elt F) → (⟨S8192x1, .f32⟩ : BufTy).Contents (Elt F)),
    unary main_v74 main_v75 (broadcastInDim S8192x1024 ![0, 1] bcast_S8192x1_S8192x1024_0_1 : (⟨S8192x1, .f32⟩ : BufTy).Contents (Elt F) → (⟨S8192x1024, .f32⟩ : BufTy).Contents (Elt F)),
    binary main_v70 main_v75 main_v76 (Host.divf : (⟨S8192x1024, .f32⟩ : BufTy).Contents (Elt F) → (⟨S8192x1024, .f32⟩ : BufTy).Contents (Elt F) → (⟨S8192x1024, .f32⟩ : BufTy).Contents (Elt F)),
    nullary main_cst_15 (constant S_ .f32 0x00000000#32),
    binary main_v60 main_cst_15 main_v77 ((fun x v => Host.reduceAdd x v reducesTo_S8192x1024_S8192_d1 h_S_) : (⟨S8192x1024, .f32⟩ : BufTy).Contents (Elt F) → (⟨S_, .f32⟩ : BufTy).Contents (Elt F) → (⟨S8192, .f32⟩ : BufTy).Contents (Elt F)),
    unary main_v77 main_v78 (broadcastInDim S8192x1 ![0] bcast_S8192_S8192x1_0 : (⟨S8192, .f32⟩ : BufTy).Contents (Elt F) → (⟨S8192x1, .f32⟩ : BufTy).Contents (Elt F)),
    nullary main_cst_16 (constant S_ .f32 0x44800000#32),
    unary main_cst_16 main_v79 (broadcastInDim S8192x1 ![] bcast_S_S8192x1 : (⟨S_, .f32⟩ : BufTy).Contents (Elt F) → (⟨S8192x1, .f32⟩ : BufTy).Contents (Elt F)),
    binary main_v78 main_v79 main_v80 (Host.divf : (⟨S8192x1, .f32⟩ : BufTy).Contents (Elt F) → (⟨S8192x1, .f32⟩ : BufTy).Contents (Elt F) → (⟨S8192x1, .f32⟩ : BufTy).Contents (Elt F)),
    unary main_v80 main_v81 (broadcastInDim S8192x1024 ![0, 1] bcast_S8192x1_S8192x1024_0_1 : (⟨S8192x1, .f32⟩ : BufTy).Contents (Elt F) → (⟨S8192x1024, .f32⟩ : BufTy).Contents (Elt F)),
    binary main_v60 main_v81 main_v82 (subf : (⟨S8192x1024, .f32⟩ : BufTy).Contents (Elt F) → (⟨S8192x1024, .f32⟩ : BufTy).Contents (Elt F) → (⟨S8192x1024, .f32⟩ : BufTy).Contents (Elt F)),
    nullary main_cst_17 (constant S_ .f32 0xC0A00000#32),
    nullary main_cst_18 (constant S_ .f32 0x40A00000#32),
    TRef.unary (TRef.of (T := ⟨S_, .f32⟩) main_cst_17) (TRef.of (T := ⟨S_, .f32⟩) main_call1_v0) id,
    TRef.unary (TRef.of (T := ⟨S_, .f32⟩) main_call1_v0) (TRef.of (T := ⟨S8192x1024, .f32⟩) main_call1_v1) (broadcastInDim S8192x1024 ![] bcast_S_S8192x1024),
    TRef.binary (TRef.of (T := ⟨S8192x1024, .f32⟩) main_call1_v1) (TRef.of (T := ⟨S8192x1024, .f32⟩) main_v82) (TRef.of (T := ⟨S8192x1024, .f32⟩) main_call1_v2) maximumf,
    TRef.unary (TRef.of (T := ⟨S_, .f32⟩) main_cst_18) (TRef.of (T := ⟨S_, .f32⟩) main_call1_v3) id,
    TRef.unary (TRef.of (T := ⟨S_, .f32⟩) main_call1_v3) (TRef.of (T := ⟨S8192x1024, .f32⟩) main_call1_v4) (broadcastInDim S8192x1024 ![] bcast_S_S8192x1024),
    TRef.binary (TRef.of (T := ⟨S8192x1024, .f32⟩) main_call1_v4) (TRef.of (T := ⟨S8192x1024, .f32⟩) main_call1_v2) (TRef.of (T := ⟨S8192x1024, .f32⟩) main_v83) minimumf,
    unary main_v83 main_v84 (Host.exp : (⟨S8192x1024, .f32⟩ : BufTy).Contents (Elt F) → (⟨S8192x1024, .f32⟩ : BufTy).Contents (Elt F)),
    nullary main_cst_19 (constant S_ .f32 0x00000000#32),
    binary main_v84 main_cst_19 main_v85 ((fun x v => Host.reduceAdd x v reducesTo_S8192x1024_S8192_d1 h_S_) : (⟨S8192x1024, .f32⟩ : BufTy).Contents (Elt F) → (⟨S_, .f32⟩ : BufTy).Contents (Elt F) → (⟨S8192, .f32⟩ : BufTy).Contents (Elt F)),
    unary main_v85 main_v86 (broadcastInDim S8192x1 ![0] bcast_S8192_S8192x1_0 : (⟨S8192, .f32⟩ : BufTy).Contents (Elt F) → (⟨S8192x1, .f32⟩ : BufTy).Contents (Elt F)),
    nullary main_cst_20 (constant S_ .f32 0x358637BD#32),
    unary main_cst_20 main_v87 (broadcastInDim S8192x1 ![] bcast_S_S8192x1 : (⟨S_, .f32⟩ : BufTy).Contents (Elt F) → (⟨S8192x1, .f32⟩ : BufTy).Contents (Elt F)),
    binary main_v86 main_v87 main_v88 (addf : (⟨S8192x1, .f32⟩ : BufTy).Contents (Elt F) → (⟨S8192x1, .f32⟩ : BufTy).Contents (Elt F) → (⟨S8192x1, .f32⟩ : BufTy).Contents (Elt F)),
    unary main_v88 main_v89 (broadcastInDim S8192x1024 ![0, 1] bcast_S8192x1_S8192x1024_0_1 : (⟨S8192x1, .f32⟩ : BufTy).Contents (Elt F) → (⟨S8192x1024, .f32⟩ : BufTy).Contents (Elt F)),
    binary main_v84 main_v89 main_v90 (Host.divf : (⟨S8192x1024, .f32⟩ : BufTy).Contents (Elt F) → (⟨S8192x1024, .f32⟩ : BufTy).Contents (Elt F) → (⟨S8192x1024, .f32⟩ : BufTy).Contents (Elt F)),
    binary main_v76 main_v90 main_v91 (addf : (⟨S8192x1024, .f32⟩ : BufTy).Contents (Elt F) → (⟨S8192x1024, .f32⟩ : BufTy).Contents (Elt F) → (⟨S8192x1024, .f32⟩ : BufTy).Contents (Elt F)),
    nullary main_cst_21 (constant S_ .f32 0x358637BD#32),
    unary main_cst_21 main_v92 (broadcastInDim S8192x1024 ![] bcast_S_S8192x1024 : (⟨S_, .f32⟩ : BufTy).Contents (Elt F) → (⟨S8192x1024, .f32⟩ : BufTy).Contents (Elt F)),
    binary main_v91 main_v92 main_v93 (addf : (⟨S8192x1024, .f32⟩ : BufTy).Contents (Elt F) → (⟨S8192x1024, .f32⟩ : BufTy).Contents (Elt F) → (⟨S8192x1024, .f32⟩ : BufTy).Contents (Elt F)),
    binary main_v76 main_v93 main_v94 (Host.divf : (⟨S8192x1024, .f32⟩ : BufTy).Contents (Elt F) → (⟨S8192x1024, .f32⟩ : BufTy).Contents (Elt F) → (⟨S8192x1024, .f32⟩ : BufTy).Contents (Elt F)),
    nullary main_cst_22 (constant S_ .f32 0x358637BD#32),
    unary main_cst_22 main_v95 (broadcastInDim S8192x1024 ![] bcast_S_S8192x1024 : (⟨S_, .f32⟩ : BufTy).Contents (Elt F) → (⟨S8192x1024, .f32⟩ : BufTy).Contents (Elt F)),
    binary main_v91 main_v95 main_v96 (addf : (⟨S8192x1024, .f32⟩ : BufTy).Contents (Elt F) → (⟨S8192x1024, .f32⟩ : BufTy).Contents (Elt F) → (⟨S8192x1024, .f32⟩ : BufTy).Contents (Elt F)),
    binary main_v90 main_v96 main_v97 (Host.divf : (⟨S8192x1024, .f32⟩ : BufTy).Contents (Elt F) → (⟨S8192x1024, .f32⟩ : BufTy).Contents (Elt F) → (⟨S8192x1024, .f32⟩ : BufTy).Contents (Elt F)),
    unary main_v61 main_v98 (Host.tanh : (⟨S8192x1024, .f32⟩ : BufTy).Contents (Elt F) → (⟨S8192x1024, .f32⟩ : BufTy).Contents (Elt F)),
    binary main_v97 main_arg2 main_v99 (mulf : (⟨S8192x1024, .f32⟩ : BufTy).Contents (Elt F) → (⟨S8192x1024, .f32⟩ : BufTy).Contents (Elt F) → (⟨S8192x1024, .f32⟩ : BufTy).Contents (Elt F)),
    binary main_v94 main_v98 main_v100 (mulf : (⟨S8192x1024, .f32⟩ : BufTy).Contents (Elt F) → (⟨S8192x1024, .f32⟩ : BufTy).Contents (Elt F) → (⟨S8192x1024, .f32⟩ : BufTy).Contents (Elt F)),
    binary main_v99 main_v100 main_v101 (addf : (⟨S8192x1024, .f32⟩ : BufTy).Contents (Elt F) → (⟨S8192x1024, .f32⟩ : BufTy).Contents (Elt F) → (⟨S8192x1024, .f32⟩ : BufTy).Contents (Elt F)),
    nullary main_cst_23 (constant S_ .f32 0x00000000#32),
    binary main_v101 main_cst_23 main_v102 ((fun x v => Host.reduceAdd x v reducesTo_S8192x1024_S8192_d1 h_S_) : (⟨S8192x1024, .f32⟩ : BufTy).Contents (Elt F) → (⟨S_, .f32⟩ : BufTy).Contents (Elt F) → (⟨S8192, .f32⟩ : BufTy).Contents (Elt F)),
    unary main_v102 main_v103 (broadcastInDim S8192x1 ![0] bcast_S8192_S8192x1_0 : (⟨S8192, .f32⟩ : BufTy).Contents (Elt F) → (⟨S8192x1, .f32⟩ : BufTy).Contents (Elt F)),
    nullary main_cst_24 (constant S_ .f32 0x44800000#32),
    unary main_cst_24 main_v104 (broadcastInDim S8192x1 ![] bcast_S_S8192x1 : (⟨S_, .f32⟩ : BufTy).Contents (Elt F) → (⟨S8192x1, .f32⟩ : BufTy).Contents (Elt F)),
    binary main_v103 main_v104 main_v105 (Host.divf : (⟨S8192x1, .f32⟩ : BufTy).Contents (Elt F) → (⟨S8192x1, .f32⟩ : BufTy).Contents (Elt F) → (⟨S8192x1, .f32⟩ : BufTy).Contents (Elt F)),
    unary main_v105 main_v106 (broadcastInDim S8192x1024 ![0, 1] bcast_S8192x1_S8192x1024_0_1 : (⟨S8192x1, .f32⟩ : BufTy).Contents (Elt F) → (⟨S8192x1024, .f32⟩ : BufTy).Contents (Elt F)),
    binary main_v101 main_v106 main_v107 (subf : (⟨S8192x1024, .f32⟩ : BufTy).Contents (Elt F) → (⟨S8192x1024, .f32⟩ : BufTy).Contents (Elt F) → (⟨S8192x1024, .f32⟩ : BufTy).Contents (Elt F)),
    binary main_v107 main_v107 main_v108 (mulf : (⟨S8192x1024, .f32⟩ : BufTy).Contents (Elt F) → (⟨S8192x1024, .f32⟩ : BufTy).Contents (Elt F) → (⟨S8192x1024, .f32⟩ : BufTy).Contents (Elt F)),
    nullary main_cst_25 (constant S_ .f32 0x00000000#32),
    binary main_v108 main_cst_25 main_v109 ((fun x v => Host.reduceAdd x v reducesTo_S8192x1024_S8192_d1 h_S_) : (⟨S8192x1024, .f32⟩ : BufTy).Contents (Elt F) → (⟨S_, .f32⟩ : BufTy).Contents (Elt F) → (⟨S8192, .f32⟩ : BufTy).Contents (Elt F)),
    unary main_v109 main_v110 (broadcastInDim S8192x1 ![0] bcast_S8192_S8192x1_0 : (⟨S8192, .f32⟩ : BufTy).Contents (Elt F) → (⟨S8192x1, .f32⟩ : BufTy).Contents (Elt F)),
    nullary main_cst_26 (constant S_ .f32 0x44800000#32),
    unary main_cst_26 main_v111 (broadcastInDim S8192x1 ![] bcast_S_S8192x1 : (⟨S_, .f32⟩ : BufTy).Contents (Elt F) → (⟨S8192x1, .f32⟩ : BufTy).Contents (Elt F)),
    binary main_v110 main_v111 main_v112 (Host.divf : (⟨S8192x1, .f32⟩ : BufTy).Contents (Elt F) → (⟨S8192x1, .f32⟩ : BufTy).Contents (Elt F) → (⟨S8192x1, .f32⟩ : BufTy).Contents (Elt F)),
    unary main_v105 main_v113 (broadcastInDim S8192x1024 ![0, 1] bcast_S8192x1_S8192x1024_0_1 : (⟨S8192x1, .f32⟩ : BufTy).Contents (Elt F) → (⟨S8192x1024, .f32⟩ : BufTy).Contents (Elt F)),
    binary main_v101 main_v113 main_v114 (subf : (⟨S8192x1024, .f32⟩ : BufTy).Contents (Elt F) → (⟨S8192x1024, .f32⟩ : BufTy).Contents (Elt F) → (⟨S8192x1024, .f32⟩ : BufTy).Contents (Elt F)),
    nullary main_cst_27 (constant S_ .f32 0x3727C5AC#32),
    unary main_cst_27 main_v115 (broadcastInDim S8192x1 ![] bcast_S_S8192x1 : (⟨S_, .f32⟩ : BufTy).Contents (Elt F) → (⟨S8192x1, .f32⟩ : BufTy).Contents (Elt F)),
    binary main_v112 main_v115 main_v116 (addf : (⟨S8192x1, .f32⟩ : BufTy).Contents (Elt F) → (⟨S8192x1, .f32⟩ : BufTy).Contents (Elt F) → (⟨S8192x1, .f32⟩ : BufTy).Contents (Elt F)),
    unary main_v116 main_v117 (Host.rsqrt : (⟨S8192x1, .f32⟩ : BufTy).Contents (Elt F) → (⟨S8192x1, .f32⟩ : BufTy).Contents (Elt F)),
    unary main_v117 main_v118 (broadcastInDim S8192x1024 ![0, 1] bcast_S8192x1_S8192x1024_0_1 : (⟨S8192x1, .f32⟩ : BufTy).Contents (Elt F) → (⟨S8192x1024, .f32⟩ : BufTy).Contents (Elt F)),
    binary main_v114 main_v118 main_v119 (mulf : (⟨S8192x1024, .f32⟩ : BufTy).Contents (Elt F) → (⟨S8192x1024, .f32⟩ : BufTy).Contents (Elt F) → (⟨S8192x1024, .f32⟩ : BufTy).Contents (Elt F)),
    unary main_arg11 main_v120 (broadcastInDim S1x1024 ![1] bcast_S1024_S1x1024_1 : (⟨S1024, .f32⟩ : BufTy).Contents (Elt F) → (⟨S1x1024, .f32⟩ : BufTy).Contents (Elt F)),
    unary main_v120 main_v121 (broadcastInDim S8192x1024 ![0, 1] bcast_S1x1024_S8192x1024_0_1 : (⟨S1x1024, .f32⟩ : BufTy).Contents (Elt F) → (⟨S8192x1024, .f32⟩ : BufTy).Contents (Elt F)),
    binary main_v119 main_v121 main_v122 (mulf : (⟨S8192x1024, .f32⟩ : BufTy).Contents (Elt F) → (⟨S8192x1024, .f32⟩ : BufTy).Contents (Elt F) → (⟨S8192x1024, .f32⟩ : BufTy).Contents (Elt F)),
    unary main_arg12 main_v123 (broadcastInDim S1x1024 ![1] bcast_S1024_S1x1024_1 : (⟨S1024, .f32⟩ : BufTy).Contents (Elt F) → (⟨S1x1024, .f32⟩ : BufTy).Contents (Elt F)),
    unary main_v123 main_v124 (broadcastInDim S8192x1024 ![0, 1] bcast_S1x1024_S8192x1024_0_1 : (⟨S1x1024, .f32⟩ : BufTy).Contents (Elt F) → (⟨S8192x1024, .f32⟩ : BufTy).Contents (Elt F)),
    binary main_v122 main_v124 main_v125 (addf : (⟨S8192x1024, .f32⟩ : BufTy).Contents (Elt F) → (⟨S8192x1024, .f32⟩ : BufTy).Contents (Elt F) → (⟨S8192x1024, .f32⟩ : BufTy).Contents (Elt F)),
    unary main_v62 main_v126 (Host.negf : (⟨S8192x1024, .f32⟩ : BufTy).Contents (Elt F) → (⟨S8192x1024, .f32⟩ : BufTy).Contents (Elt F)),
    unary main_v126 main_v127 (Host.exp : (⟨S8192x1024, .f32⟩ : BufTy).Contents (Elt F) → (⟨S8192x1024, .f32⟩ : BufTy).Contents (Elt F)),
    nullary main_cst_28 (constant S_ .f32 0x3F800000#32),
    unary main_cst_28 main_v128 (broadcastInDim S8192x1024 ![] bcast_S_S8192x1024 : (⟨S_, .f32⟩ : BufTy).Contents (Elt F) → (⟨S8192x1024, .f32⟩ : BufTy).Contents (Elt F)),
    binary main_v128 main_v127 main_v129 (addf : (⟨S8192x1024, .f32⟩ : BufTy).Contents (Elt F) → (⟨S8192x1024, .f32⟩ : BufTy).Contents (Elt F) → (⟨S8192x1024, .f32⟩ : BufTy).Contents (Elt F)),
    nullary main_cst_29 (constant S_ .f32 0x3F800000#32),
    unary main_cst_29 main_v130 (broadcastInDim S8192x1024 ![] bcast_S_S8192x1024 : (⟨S_, .f32⟩ : BufTy).Contents (Elt F) → (⟨S8192x1024, .f32⟩ : BufTy).Contents (Elt F)),
    binary main_v130 main_v129 main_v131 (Host.divf : (⟨S8192x1024, .f32⟩ : BufTy).Contents (Elt F) → (⟨S8192x1024, .f32⟩ : BufTy).Contents (Elt F) → (⟨S8192x1024, .f32⟩ : BufTy).Contents (Elt F)),
    unary main_v125 main_v132 (Host.tanh : (⟨S8192x1024, .f32⟩ : BufTy).Contents (Elt F) → (⟨S8192x1024, .f32⟩ : BufTy).Contents (Elt F)),
    nullary main_cst_30 (constant S_ .f32 0x00000000#32),
    binary main_v132 main_cst_30 main_v133 ((fun x v => Host.reduceAdd x v reducesTo_S8192x1024_S8192_d1 h_S_) : (⟨S8192x1024, .f32⟩ : BufTy).Contents (Elt F) → (⟨S_, .f32⟩ : BufTy).Contents (Elt F) → (⟨S8192, .f32⟩ : BufTy).Contents (Elt F)),
    unary main_v133 main_v134 (broadcastInDim S8192x1 ![0] bcast_S8192_S8192x1_0 : (⟨S8192, .f32⟩ : BufTy).Contents (Elt F) → (⟨S8192x1, .f32⟩ : BufTy).Contents (Elt F)),
    nullary main_cst_31 (constant S_ .f32 0x44800000#32),
    unary main_cst_31 main_v135 (broadcastInDim S8192x1 ![] bcast_S_S8192x1 : (⟨S_, .f32⟩ : BufTy).Contents (Elt F) → (⟨S8192x1, .f32⟩ : BufTy).Contents (Elt F)),
    binary main_v134 main_v135 main_v136 (Host.divf : (⟨S8192x1, .f32⟩ : BufTy).Contents (Elt F) → (⟨S8192x1, .f32⟩ : BufTy).Contents (Elt F) → (⟨S8192x1, .f32⟩ : BufTy).Contents (Elt F)),
    unary main_v136 main_v137 (broadcastInDim S8192x1024 ![0, 1] bcast_S8192x1_S8192x1024_0_1 : (⟨S8192x1, .f32⟩ : BufTy).Contents (Elt F) → (⟨S8192x1024, .f32⟩ : BufTy).Contents (Elt F)),
    binary main_v132 main_v137 main_v138 (subf : (⟨S8192x1024, .f32⟩ : BufTy).Contents (Elt F) → (⟨S8192x1024, .f32⟩ : BufTy).Contents (Elt F) → (⟨S8192x1024, .f32⟩ : BufTy).Contents (Elt F)),
    binary main_v138 main_v138 main_v139 (mulf : (⟨S8192x1024, .f32⟩ : BufTy).Contents (Elt F) → (⟨S8192x1024, .f32⟩ : BufTy).Contents (Elt F) → (⟨S8192x1024, .f32⟩ : BufTy).Contents (Elt F)),
    nullary main_cst_32 (constant S_ .f32 0x00000000#32),
    binary main_v139 main_cst_32 main_v140 ((fun x v => Host.reduceAdd x v reducesTo_S8192x1024_S8192_d1 h_S_) : (⟨S8192x1024, .f32⟩ : BufTy).Contents (Elt F) → (⟨S_, .f32⟩ : BufTy).Contents (Elt F) → (⟨S8192, .f32⟩ : BufTy).Contents (Elt F)),
    unary main_v140 main_v141 (broadcastInDim S8192x1 ![0] bcast_S8192_S8192x1_0 : (⟨S8192, .f32⟩ : BufTy).Contents (Elt F) → (⟨S8192x1, .f32⟩ : BufTy).Contents (Elt F)),
    nullary main_cst_33 (constant S_ .f32 0x44800000#32),
    unary main_cst_33 main_v142 (broadcastInDim S8192x1 ![] bcast_S_S8192x1 : (⟨S_, .f32⟩ : BufTy).Contents (Elt F) → (⟨S8192x1, .f32⟩ : BufTy).Contents (Elt F)),
    binary main_v141 main_v142 main_v143 (Host.divf : (⟨S8192x1, .f32⟩ : BufTy).Contents (Elt F) → (⟨S8192x1, .f32⟩ : BufTy).Contents (Elt F) → (⟨S8192x1, .f32⟩ : BufTy).Contents (Elt F)),
    unary main_v136 main_v144 (broadcastInDim S8192x1024 ![0, 1] bcast_S8192x1_S8192x1024_0_1 : (⟨S8192x1, .f32⟩ : BufTy).Contents (Elt F) → (⟨S8192x1024, .f32⟩ : BufTy).Contents (Elt F)),
    binary main_v132 main_v144 main_v145 (subf : (⟨S8192x1024, .f32⟩ : BufTy).Contents (Elt F) → (⟨S8192x1024, .f32⟩ : BufTy).Contents (Elt F) → (⟨S8192x1024, .f32⟩ : BufTy).Contents (Elt F)),
    nullary main_cst_34 (constant S_ .f32 0x3727C5AC#32),
    unary main_cst_34 main_v146 (broadcastInDim S8192x1 ![] bcast_S_S8192x1 : (⟨S_, .f32⟩ : BufTy).Contents (Elt F) → (⟨S8192x1, .f32⟩ : BufTy).Contents (Elt F)),
    binary main_v143 main_v146 main_v147 (addf : (⟨S8192x1, .f32⟩ : BufTy).Contents (Elt F) → (⟨S8192x1, .f32⟩ : BufTy).Contents (Elt F) → (⟨S8192x1, .f32⟩ : BufTy).Contents (Elt F)),
    unary main_v147 main_v148 (Host.rsqrt : (⟨S8192x1, .f32⟩ : BufTy).Contents (Elt F) → (⟨S8192x1, .f32⟩ : BufTy).Contents (Elt F)),
    unary main_v148 main_v149 (broadcastInDim S8192x1024 ![0, 1] bcast_S8192x1_S8192x1024_0_1 : (⟨S8192x1, .f32⟩ : BufTy).Contents (Elt F) → (⟨S8192x1024, .f32⟩ : BufTy).Contents (Elt F)),
    binary main_v145 main_v149 main_v150 (mulf : (⟨S8192x1024, .f32⟩ : BufTy).Contents (Elt F) → (⟨S8192x1024, .f32⟩ : BufTy).Contents (Elt F) → (⟨S8192x1024, .f32⟩ : BufTy).Contents (Elt F)),
    unary main_arg13 main_v151 (broadcastInDim S1x1024 ![1] bcast_S1024_S1x1024_1 : (⟨S1024, .f32⟩ : BufTy).Contents (Elt F) → (⟨S1x1024, .f32⟩ : BufTy).Contents (Elt F)),
    unary main_v151 main_v152 (broadcastInDim S8192x1024 ![0, 1] bcast_S1x1024_S8192x1024_0_1 : (⟨S1x1024, .f32⟩ : BufTy).Contents (Elt F) → (⟨S8192x1024, .f32⟩ : BufTy).Contents (Elt F)),
    binary main_v150 main_v152 main_v153 (mulf : (⟨S8192x1024, .f32⟩ : BufTy).Contents (Elt F) → (⟨S8192x1024, .f32⟩ : BufTy).Contents (Elt F) → (⟨S8192x1024, .f32⟩ : BufTy).Contents (Elt F)),
    unary main_arg14 main_v154 (broadcastInDim S1x1024 ![1] bcast_S1024_S1x1024_1 : (⟨S1024, .f32⟩ : BufTy).Contents (Elt F) → (⟨S1x1024, .f32⟩ : BufTy).Contents (Elt F)),
    unary main_v154 main_v155 (broadcastInDim S8192x1024 ![0, 1] bcast_S1x1024_S8192x1024_0_1 : (⟨S1x1024, .f32⟩ : BufTy).Contents (Elt F) → (⟨S8192x1024, .f32⟩ : BufTy).Contents (Elt F)),
    binary main_v153 main_v155 main_v156 (addf : (⟨S8192x1024, .f32⟩ : BufTy).Contents (Elt F) → (⟨S8192x1024, .f32⟩ : BufTy).Contents (Elt F) → (⟨S8192x1024, .f32⟩ : BufTy).Contents (Elt F)),
    binary main_v131 main_v156 main_v157 (mulf : (⟨S8192x1024, .f32⟩ : BufTy).Contents (Elt F) → (⟨S8192x1024, .f32⟩ : BufTy).Contents (Elt F) → (⟨S8192x1024, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., unary_bufs_sub .., unary_bufs_sub .., nullary_bufs_sub .., binary_bufs_sub .., unary_bufs_sub .., nullary_bufs_sub .., unary_bufs_sub .., binary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., binary_bufs_sub .., unary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., binary_bufs_sub .., unary_bufs_sub .., nullary_bufs_sub .., unary_bufs_sub .., binary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., unary_bufs_sub .., binary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub ..⟩

set_option maxRecDepth 8192 in
set_option maxHeartbeats 0 in
/-- The hidden result buffer after the operations, from any contents. -/
theorem after_hidden (V : Valuation τ sig (Elt Ideal)) :
    after (ops (F := Ideal)) V (Proc.devRef .tc main_v157)
      = hiddenRes (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) := by
  after_results_simp <;> rfl

set_option maxRecDepth 8192 in
set_option maxHeartbeats 0 in
/-- The cell result buffer after the operations, from any contents. -/
theorem after_cell (V : Valuation τ sig (Elt Ideal)) :
    after (ops (F := Ideal)) V (Proc.devRef .tc main_v125)
      = cellRes (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  after_results_simp <;> rfl

end Cert.Slstm.RefRun

end
-- ==== Proof.RefRunPost.lean ====
/-
  The reference's run, read: from any memory with zero counters every weakly fair execution of its @main terminates with
  the hidden result at the hidden term and the cell result at the cell term of the launch contents of the fifteen
  arguments (RefValue.lean), and the arguments as launched: no operation writes an argument buffer.
-/
import proofs.«137666_j15461882265859_1_alg».proof.Proof.RefRun

noncomputable section

namespace Cert.Slstm.RefRun

open Cert.ReferenceIdeal Cert.ReferenceIdeal.Gen Idealize.ShloMosaic Idealize.ShloMosaic.TcCoe Idealize.SL.Sem Idealize.ShloMosaic.StableHlo
open Cert.Slstm.RefValue

set_option maxRecDepth 8192 in
set_option maxHeartbeats 0 in
theorem kept0 (V : Valuation τ sig (Elt Ideal)) :
    after (ops (F := Ideal)) V (Proc.devRef .tc main_arg0) = V (Proc.devRef .tc main_arg0) := by
  after_results_simp <;> rfl

set_option maxRecDepth 8192 in
set_option maxHeartbeats 0 in
theorem kept1 (V : Valuation τ sig (Elt Ideal)) :
    after (ops (F := Ideal)) V (Proc.devRef .tc main_arg1) = V (Proc.devRef .tc main_arg1) := by
  after_results_simp <;> rfl

set_option maxRecDepth 8192 in
set_option maxHeartbeats 0 in
theorem kept2 (V : Valuation τ sig (Elt Ideal)) :
    after (ops (F := Ideal)) V (Proc.devRef .tc main_arg2) = V (Proc.devRef .tc main_arg2) := by
  after_results_simp <;> rfl

set_option maxRecDepth 8192 in
set_option maxHeartbeats 0 in
theorem kept3 (V : Valuation τ sig (Elt Ideal)) :
    after (ops (F := Ideal)) V (Proc.devRef .tc main_arg3) = V (Proc.devRef .tc main_arg3) := by
  after_results_simp <;> rfl

set_option maxRecDepth 8192 in
set_option maxHeartbeats 0 in
theorem kept4 (V : Valuation τ sig (Elt Ideal)) :
    after (ops (F := Ideal)) V (Proc.devRef .tc main_arg4) = V (Proc.devRef .tc main_arg4) := by
  after_results_simp <;> rfl

set_option maxRecDepth 8192 in
set_option maxHeartbeats 0 in
theorem kept5 (V : Valuation τ sig (Elt Ideal)) :
    after (ops (F := Ideal)) V (Proc.devRef .tc main_arg5) = V (Proc.devRef .tc main_arg5) := by
  after_results_simp <;> rfl

set_option maxRecDepth 8192 in
set_option maxHeartbeats 0 in
theorem kept6 (V : Valuation τ sig (Elt Ideal)) :
    after (ops (F := Ideal)) V (Proc.devRef .tc main_arg6) = V (Proc.devRef .tc main_arg6) := by
  after_results_simp <;> rfl

set_option maxRecDepth 8192 in
set_option maxHeartbeats 0 in
theorem kept7 (V : Valuation τ sig (Elt Ideal)) :
    after (ops (F := Ideal)) V (Proc.devRef .tc main_arg7) = V (Proc.devRef .tc main_arg7) := by
  after_results_simp <;> rfl

set_option maxRecDepth 8192 in
set_option maxHeartbeats 0 in
theorem kept8 (V : Valuation τ sig (Elt Ideal)) :
    after (ops (F := Ideal)) V (Proc.devRef .tc main_arg8) = V (Proc.devRef .tc main_arg8) := by
  after_results_simp <;> rfl

set_option maxRecDepth 8192 in
set_option maxHeartbeats 0 in
theorem kept9 (V : Valuation τ sig (Elt Ideal)) :
    after (ops (F := Ideal)) V (Proc.devRef .tc main_arg9) = V (Proc.devRef .tc main_arg9) := by
  after_results_simp <;> rfl

set_option maxRecDepth 8192 in
set_option maxHeartbeats 0 in
theorem kept10 (V : Valuation τ sig (Elt Ideal)) :
    after (ops (F := Ideal)) V (Proc.devRef .tc main_arg10) = V (Proc.devRef .tc main_arg10) := by
  after_results_simp <;> rfl

set_option maxRecDepth 8192 in
set_option maxHeartbeats 0 in
theorem kept11 (V : Valuation τ sig (Elt Ideal)) :
    after (ops (F := Ideal)) V (Proc.devRef .tc main_arg11) = V (Proc.devRef .tc main_arg11) := by
  after_results_simp <;> rfl

set_option maxRecDepth 8192 in
set_option maxHeartbeats 0 in
theorem kept12 (V : Valuation τ sig (Elt Ideal)) :
    after (ops (F := Ideal)) V (Proc.devRef .tc main_arg12) = V (Proc.devRef .tc main_arg12) := by
  after_results_simp <;> rfl

set_option maxRecDepth 8192 in
set_option maxHeartbeats 0 in
theorem kept13 (V : Valuation τ sig (Elt Ideal)) :
    after (ops (F := Ideal)) V (Proc.devRef .tc main_arg13) = V (Proc.devRef .tc main_arg13) := by
  after_results_simp <;> rfl

set_option maxRecDepth 8192 in
set_option maxHeartbeats 0 in
theorem kept14 (V : Valuation τ sig (Elt Ideal)) :
    after (ops (F := Ideal)) V (Proc.devRef .tc main_arg14) = V (Proc.devRef .tc main_arg14) := by
  after_results_simp <;> rfl

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v157) = hiddenRes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_v125) = cellRes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v157).trans (after_hidden _), (h c main_v125).trans (after_cell _),
      (h c main_arg0).trans (kept0 _),
      (h c main_arg1).trans (kept1 _),
      (h c main_arg2).trans (kept2 _),
      (h c main_arg3).trans (kept3 _),
      (h c main_arg4).trans (kept4 _),
      (h c main_arg5).trans (kept5 _),
      (h c main_arg6).trans (kept6 _),
      (h c main_arg7).trans (kept7 _),
      (h c main_arg8).trans (kept8 _),
      (h c main_arg9).trans (kept9 _),
      (h c main_arg10).trans (kept10 _),
      (h c main_arg11).trans (kept11 _),
      (h c main_arg12).trans (kept12 _),
      (h c main_arg13).trans (kept13 _),
      (h c main_arg14).trans (kept14 _)⟩)
    (run_seq scopedRefs_eq scopedSems_eq defs main (fun _ => ops) main_eq (fun _ => ops_sub) m ρ)

end Cert.Slstm.RefRun

end
-- ==== Proof.lean ====
/-
  A fused recurrent cell step — two matrix products with bias rows, four layer normalisations, two normalised
  exponential gates, a tanh and a logistic gate — computed by one kernel on 64 blocks of 128 batch rows, against the
  same step written with whole-array host operations.

  On the extended reals both programs are the same function of their fifteen arguments: row r of each of the two
  results is the cell step (Proof/Cell.lean) of row r of the three batch arrays. The kernel's side is read off its
  generated frame run block by block (Proof/KernelRows.lean, Proof/KernelValue.lean): every stage of the body acts
  on the rows of a block independently, the blocks tile the batch, and the host operations before the launch only
  transpose the two weight arrays and re-lay the ten vectors. The reference's side is its straight-line run
  (Proof/RefRun.lean, Proof/RefRunPost.lean) read row by row in the same way (Proof/RefValue.lean). The format
  changes of the kernel's matrix operands are the identity on the extended reals, a matrix product into a zero
  accumulator and the host's product are the same sums, and the one logistic operation is 1 / (1 + exp(−x)), which is
  how the reference spells it; no law of arithmetic beyond that is used, so the precondition is never opened.
  The frames of the two kernel programs are the generated ones; the ideal pass's ledger is empty.
-/
import proofs.«137666_j15461882265859_1_alg».proof.Defs
import proofs.«137666_j15461882265859_1_alg».proof.Proof.Gen.Kernel
import proofs.«137666_j15461882265859_1_alg».proof.Proof.Gen.Kernel.Frame
import proofs.«137666_j15461882265859_1_alg».proof.Proof.Gen.KernelIdeal
import proofs.«137666_j15461882265859_1_alg».proof.Proof.Gen.KernelIdeal.Frame
import proofs.«137666_j15461882265859_1_alg».proof.Proof.Gen.KernelIdeal.Value
import proofs.«137666_j15461882265859_1_alg».proof.Proof.Gen.ReferenceIdeal
import proofs.«137666_j15461882265859_1_alg».proof.Proof.Gen.Pre_finite_inputs
import proofs.«137666_j15461882265859_1_alg».proof.Proof.KernelValue
import proofs.«137666_j15461882265859_1_alg».proof.Proof.RefValue
import proofs.«137666_j15461882265859_1_alg».proof.Proof.RefRunPost
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the two results dropped. -/
theorem frame_referenceIdeal : Cert.frame_ReferenceIdeal := fun m ρ _ =>
  (θ_run Cert.ReferenceIdeal.defs _ _).mono (fun _ h c => (h c).2.2) (Cert.Slstm.RefRun.run m ρ)

theorem preserves : Cert.preserves_Kernel_KernelIdeal := trivial

/-- Both programs end with the hidden array and the cell array of the batch their arguments hold. -/
theorem algebraic : Cert.algebraic_KernelIdeal_ReferenceIdeal := by
  intro m ρ m' ρ' _ hagree
  refine ⟨fun c => Cert.Slstm.KernelValue.hArr m c, fun c => Cert.Slstm.KernelValue.cArr m c,
    Cert.Slstm.KernelValue.run m ρ, ?_⟩
  refine (θ_run Cert.ReferenceIdeal.defs _ _).mono (fun _ h c => ⟨(h c).1.trans ?_, (h c).2.1.trans ?_, (h c).2.2⟩)
    (Cert.Slstm.RefRun.run m' ρ')
  · obtain ⟨h0, h1, h2, h3, h4, h5, h6, h7, h8, h9, h10, h11, h12, h13, h14⟩ := hagree c
    rw [Cert.Slstm.RefValue.hidden_eq, h0, h1, h2, h3, h4, h5, h6, h7, h8, h9, h10, h11, h12, h13, h14]
    rfl
  · obtain ⟨h0, h1, h2, h3, h4, h5, h6, h7, h8, h9, h10, h11, h12, h13, h14⟩ := hagree c
    rw [Cert.Slstm.RefValue.cell_eq, h0, h1, h2, h3, h4, h5, h6, h7, h8, h9, h10, h11, h12]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
